-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S4096x4096 : Shape := ⟨2, ![4096, 4096]⟩
abbrev S1024x1024 : Shape := ⟨2, ![1024, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S2x4096x1024 .f32) (main_arg1 : FVec F S2x4096x1024 .f32) (main_arg2 : FVec F S2x4096x1024 .f32) (main_arg3 : IVec S4096x4096 1) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S2x4096x1024 .f32 := Host.absf main_arg2
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_c_3 : IVec S_ 1 := constantI S_ 1 1#1
  let main_v12 : IVec S_ 1 := (fun x v => Host.reduce IntOp.andi x v reducesTo_S2x4096x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S2x4096x1024 : Shape := ⟨3, ![2, 4096, 1024]⟩
abbrev S4096x4096 : Shape := ⟨2, ![4096, 4096]⟩
abbrev S1024x1024 : Shape := ⟨2, ![1024, 1024]⟩
abbrev S1024 : Shape := ⟨1, ![1024]⟩
abbrev S8192x1024 : Shape := ⟨2, ![8192, 1024]⟩
abbrev S1x8192x1024 : Shape := ⟨3, ![1, 8192, 1024]⟩
abbrev S3x8192x1024 : Shape := ⟨3, ![3, 8192, 1024]⟩
abbrev S1x1024x1024 : Shape := ⟨3, ![1, 1024, 1024]⟩
abbrev S3x1024x1024 : Shape := ⟨3, ![3, 1024, 1024]⟩
abbrev S1x1024 : Shape := ⟨2, ![1, 1024]⟩
abbrev S3x1024 : Shape := ⟨2, ![3, 1024]⟩
abbrev S3x1x1024 : Shape := ⟨3, ![3, 1, 1024]⟩
abbrev S1x1x1024 : Shape := ⟨3, ![1, 1, 1024]⟩
abbrev S1x4096x1024 : Shape := ⟨3, ![1, 4096, 1024]⟩
abbrev S4096x1024 : Shape := ⟨2, ![4096, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 59
  | .vmem => 24
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S4096x4096, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S3x8192x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S3x1024x1024, .f32⟩
  | .hbm, ⟨24, _⟩ => ⟨S3x1024x1024, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S3x1024, .f32⟩
  | .hbm, ⟨29, _⟩ => ⟨S3x1x1024, .f32⟩
  | .hbm, ⟨30, _⟩ => ⟨S3x8192x1024, .bf16⟩
  | .hbm, ⟨31, _⟩ => ⟨S1x8192x1024, .bf16⟩
  | .hbm, ⟨32, _⟩ => ⟨S8192x1024, .bf16⟩
  | .hbm, ⟨33, _⟩ => ⟨S2x4096x1024, .bf16⟩
  | .hbm, ⟨34, _⟩ => ⟨S1x8192x1024, .bf16⟩
  | .hbm, ⟨35, _⟩ => ⟨S8192x1024, .bf16⟩
  | .hbm, ⟨36, _⟩ => ⟨S2x4096x1024, .bf16⟩
  | .hbm, ⟨37, _⟩ => ⟨S1x8192x1024, .bf16⟩
  | .hbm, ⟨38, _⟩ => ⟨S8192x1024, .bf16⟩
  | .hbm, ⟨39, _⟩ => ⟨S2x4096x1024, .bf16⟩
  | .hbm, ⟨40, _⟩ => ⟨S1x4096x1024, .bf16⟩
  | .hbm, ⟨41, _⟩ => ⟨S4096x1024, .bf16⟩
  | .hbm, ⟨42, _⟩ => ⟨S1x4096x1024, .bf16⟩
  | .hbm, ⟨43, _⟩ => ⟨S4096x1024, .bf16⟩
  | .hbm, ⟨44, _⟩ => ⟨S1x4096x1024, .bf16⟩
  | .hbm, ⟨45, _⟩ => ⟨S4096x1024, .bf16⟩
  | .hbm, ⟨46, _⟩ => ⟨S4096x4096, .i32⟩
  | .hbm, ⟨47, _⟩ => ⟨S4096x1024, .f32⟩
  | .hbm, ⟨48, _⟩ => ⟨S1x4096x1024, .bf16⟩
  | .hbm, ⟨49, _⟩ => ⟨S4096x1024, .bf16⟩
  | .hbm, ⟨50, _⟩ => ⟨S1x4096x1024, .bf16⟩
  | .hbm, ⟨51, _⟩ => ⟨S4096x1024, .bf16⟩
  | .hbm, ⟨52, _⟩ => ⟨S1x4096x1024, .bf16⟩
  | .hbm, ⟨53, _⟩ => ⟨S4096x1024, .bf16⟩
  | .hbm, ⟨54, _⟩ => ⟨S4096x4096, .i32⟩
  | .hbm, ⟨55, _⟩ => ⟨S4096x1024, .f32⟩
  | .hbm, ⟨56, _⟩ => ⟨S1x4096x1024, .f32⟩
  | .hbm, ⟨57, _⟩ => ⟨S1x4096x1024, .f32⟩
  | .hbm, ⟨58, _⟩ => ⟨S2x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S256x1024, .bf16⟩
  | .local _ .vmem, ⟨9, _⟩ => ⟨S256x1024, .bf16⟩
  | .local _ .vmem, ⟨10, _⟩ => ⟨S4096x1024, .bf16⟩
  | .local _ .vmem, ⟨11, _⟩ => ⟨S4096x1024, .bf16⟩
  | .local _ .vmem, ⟨12, _⟩ => ⟨S256x4096, .i32⟩
  | .local _ .vmem, ⟨13, _⟩ => ⟨S256x4096, .i32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S4096x1024, .bf16⟩
  | .local _ .vmem, ⟨19, _⟩ => ⟨S4096x1024, .bf16⟩
  | .local _ .vmem, ⟨20, _⟩ => ⟨S256x4096, .i32⟩
  | .local _ .vmem, ⟨21, _⟩ => ⟨S256x4096, .i32⟩
  | .local _ .vmem, ⟨22, _⟩ => ⟨S256x1024, .f32⟩
  | .local _ .vmem, ⟨23, _⟩ => ⟨S256x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S2x4096x1024_S8192x1024 : S2x4096x1024.ShapeCasts S8192x1024
  bcast_S8192x1024_S1x8192x1024_1_2 : S8192x1024.BroadcastsInDim S1x8192x1024 (![1, 2] : Fin 2 → Fin S1x8192x1024.rank)
  concatenates_S1x8192x1024_S1x8192x1024_S1x8192x1024_S3x8192x1024_d0 : Shape.Concatenates [S1x8192x1024, S1x8192x1024, S1x8192x1024] S3x8192x1024 0
  transposes_S1024x1024_S1024x1024_1_0 : S1024x1024.Transposes [1, 0] S1024x1024
  bcast_S1024x1024_S1x1024x1024_1_2 : S1024x1024.BroadcastsInDim S1x1024x1024 (![1, 2] : Fin 2 → Fin S1x1024x1024.rank)
  concatenates_S1x1024x1024_S1x1024x1024_S1x1024x1024_S3x1024x1024_d0 : Shape.Concatenates [S1x1024x1024, S1x1024x1024, S1x1024x1024] S3x1024x1024 0
  bitsLt_bf16_f32 : FTy.bits .bf16 < FTy.bits .f32
  bcast_S1024_S1x1024_1 : S1024.BroadcastsInDim S1x1024 (![1] : Fin 1 → Fin S1x1024.rank)
  concatenates_S1x1024_S1x1024_S1x1024_S3x1024_d0 : Shape.Concatenates [S1x1024, S1x1024, S1x1024] S3x1024 0
  shapeCasts_S3x1024_S3x1x1024 : S3x1024.ShapeCasts S3x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  slices_S3x8192x1024_S1x8192x1024_0_0_0 : S3x8192x1024.Slices ![0, 0, 0] S1x8192x1024
  shapeCasts_S1x8192x1024_S8192x1024 : S1x8192x1024.ShapeCasts S8192x1024
  shapeCasts_S8192x1024_S2x4096x1024 : S8192x1024.ShapeCasts S2x4096x1024
  slices_S3x8192x1024_S1x8192x1024_1_0_0 : S3x8192x1024.Slices ![1, 0, 0] S1x8192x1024
  slices_S3x8192x1024_S1x8192x1024_2_0_0 : S3x8192x1024.Slices ![2, 0, 0] S1x8192x1024
  slices_S2x4096x1024_S1x4096x1024_0_0_0 : S2x4096x1024.Slices ![0, 0, 0] S1x4096x1024
  shapeCasts_S1x4096x1024_S4096x1024 : S1x4096x1024.ShapeCasts S4096x1024
  natLt_1_32 : 1 < 32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  broadcasts_S256x1_S256x1024 : S256x1.Broadcasts S256x1024
  slices_S2x4096x1024_S1x4096x1024_1_0_0 : S2x4096x1024.Slices ![1, 0, 0] S1x4096x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S1024x1024_S1024x1024_S1024x1024_1_0_0_1_n_n_wf : DotDims.WF S1024x1024 S1024x1024 S1024x1024 [1] [0] [0] [1] [] []
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S3x8192x1024.size a
  hwx0_0 : ∀ i : grid0.Coords, EltTy.bits .f32 = 32 ∨ (Rect.block (s := S3x8192x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S3x1024x1024.size a
  hwx0_1 : ∀ i : grid0.Coords, EltTy.bits .bf16 = 32 ∨ (Rect.block (s := S3x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S3x1x1024.size a
  hwx0_2 : ∀ i : grid0.Coords, EltTy.bits .f32 = 32 ∨ (Rect.block (s := S3x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S3x8192x1024.size a
  hwx0_3 : ∀ i : grid0.Coords, EltTy.bits .bf16 = 32 ∨ (Rect.block (s := S3x8192x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .i32 = 32 ∨ (Rect.block (s := S4096x4096) S256x4096.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S4096x1024.size a
  hwx1_4 : ∀ i : grid1.Coords, EltTy.bits .f32 = 32 ∨ (Rect.block (s := S4096x1024) S256x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .bf16 = 32 ∨ (Rect.block (s := S4096x1024) S256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x1024.size a
  hwx2_1 : ∀ i : grid2.Coords, EltTy.bits .bf16 = 32 ∨ (Rect.block (s := S4096x1024) S4096x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x1024.size a ≤ S4096x1024.size a
  hwx2_2 : ∀ i : grid2.Coords, EltTy.bits .bf16 = 32 ∨ (Rect.block (s := S4096x1024) S4096x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S4096x4096.size a
  hwx2_3 : ∀ i : grid2.Coords, EltTy.bits .i32 = 32 ∨ (Rect.block (s := S4096x4096) S256x4096.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1024.size a ≤ S4096x1024.size a
  hwx2_4 : ∀ i : grid2.Coords, EltTy.bits .f32 = 32 ∨ (Rect.block (s := S4096x1024) S256x1024.size (cc2_transform_4 i) (hinb2_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v6) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v37) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4096x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S4096x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S256x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45) S256x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x4096x1024 : Shape := ⟨3, ![2, 4096, 1024]⟩
abbrev S4096x4096 : Shape := ⟨2, ![4096, 4096]⟩
abbrev S1024x1024 : Shape := ⟨2, ![1024, 1024]⟩
abbrev S1024 : Shape := ⟨1, ![1024]⟩
abbrev S1x1x1024 : Shape := ⟨3, ![1, 1, 1024]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S4096x4096, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2x4096x1024, .f32⟩
  | .hbm, ⟨11, _⟩ => ⟨S1x1x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S1x1x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x4096x4096, .f32⟩
  | .hbm, ⟨23, _⟩ => ⟨S_, .f32⟩
  | .hbm, ⟨24, _⟩ => ⟨S_, .f32⟩
  | .hbm, ⟨25, _⟩ => ⟨S2x4096x4096, .f32⟩
  | .hbm, ⟨26, _⟩ => ⟨S2x4096x4096, .f32⟩
  | .hbm, ⟨27, _⟩ => ⟨S_, .f32⟩
  | .hbm, ⟨28, _⟩ => ⟨S2x4096x4096, .i1⟩
  | .hbm, ⟨29, _⟩ => ⟨S2x4096x4096, .f32⟩
  | .hbm, ⟨30, _⟩ => ⟨S2x4096x4096, .f32⟩
  | .hbm, ⟨31, _⟩ => ⟨S_, .f32⟩
  | .hbm, ⟨32, _⟩ => ⟨S2x4096, .f32⟩
  | .hbm, ⟨33, _⟩ => ⟨S_, .f32⟩
  | .hbm, ⟨34, _⟩ => ⟨S2x4096, .f32⟩
  | .hbm, ⟨35, _⟩ => ⟨S2x4096, .f32⟩
  | .hbm, ⟨36, _⟩ => ⟨S2x4096x1, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S2x4096x4096, .f32⟩
  | .hbm, ⟨44, _⟩ => ⟨S2x4096x4096, .f32⟩
  | .hbm, ⟨45, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  bcast_S_S2x4096x4096 : S_.BroadcastsInDim S2x4096x4096 (![] : Fin 0 → Fin S2x4096x4096.rank)
  bcast_S4096x4096_S2x4096x4096_1_2 : S4096x4096.BroadcastsInDim S2x4096x4096 (![1, 2] : Fin 2 → Fin S2x4096x4096.rank)
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  dot_S2x4096x1024_S1024x1024_S2x4096x1024_2_1_01_0_n_n_wf : DotDims.WF S2x4096x1024 S1024x1024 S2x4096x1024 [2] [1] [0, 1] [0] [] []
  dot_S2x4096x1024_S2x4096x1024_S2x4096x4096_2_2_1_1_0_0_wf : DotDims.WF S2x4096x1024 S2x4096x1024 S2x4096x4096 [2] [2] [1] [1] [0] [0]
  dot_S2x4096x4096_S2x4096x1024_S2x4096x1024_2_1_1_2_0_0_wf : DotDims.WF S2x4096x4096 S2x4096x1024 S2x4096x1024 [2] [1] [1] [2] [0] [0]

variable [Facts₀]

def dot_S2x4096x1024_S1024x1024_S2x4096x1024_2_1_01_0_n_n : DotDims S2x4096x1024 S1024x1024 S2x4096x1024 where
  lhsContracting := [2]
  rhsContracting := [1]
  lhsNonContracting := [0, 1]
  rhsNonContracting := [0]
  lhsBatch := []
  rhsBatch := []
  wf := dot_S2x4096x1024_S1024x1024_S2x4096x1024_2_1_01_0_n_n_wf
def dot_S2x4096x1024_S2x4096x1024_S2x4096x4096_2_2_1_1_0_0 : DotDims S2x4096x1024 S2x4096x1024 S2x4096x4096 where
  lhsContracting := [2]
  rhsContracting := [2]
  lhsNonContracting := [1]
  rhsNonContracting := [1]
  lhsBatch := [0]
  rhsBatch := [0]
  wf := dot_S2x4096x1024_S2x4096x1024_S2x4096x4096_2_2_1_1_0_0_wf
def dot_S2x4096x4096_S2x4096x1024_S2x4096x1024_2_1_1_2_0_0 : DotDims S2x4096x4096 S2x4096x1024 S2x4096x1024 where
  lhsContracting := [2]
  rhsContracting := [1]
  lhsNonContracting := [1]
  rhsNonContracting := [2]
  lhsBatch := [0]
  rhsBatch := [0]
  wf := dot_S2x4096x4096_S2x4096x1024_S2x4096x1024_2_1_1_2_0_0_wf

class Facts : Prop extends Facts₀ where

variable [Facts]
-- ==== Proof.KDefs.lean ====
/-
  The three kernel regions of the program, each at a parameter `V` — the buffer contents when the region is entered:
  a window's block at a grid point; what the body leaves in the output window's staging buffer, as the one whole-buffer
  store of the body's value over the input blocks; and the pipeline's proof data built from them (inputs keep their
  blocks, the output holds the stored value, nothing is owed). Region 0 is the three linear projections on a
  3 × 8 grid (x · W + b per 1024-row tile); regions 1 and 2 are one batch of attention each, sixteen 256-row tiles.
-/
import proofs.«142760_j50912542327462_2_alg».proof.Proof.Gen.Kernel.Launch
import proofs.«142760_j50912542327462_2_alg».proof.Proof.Gen.Kernel.Skeleton
import proofs.«142760_j50912542327462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the blocks, what the body leaves, the proof data -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (an unfetched window's block
    index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (an unfetched window's block
    index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each load and the store go through the whole buffer. -/
abbrev r0_o : Rect S1x1024x1024 := Rect.unit (s := S1x1024x1024) ![0, 0, 0] S1x1024x1024.size inb_S1x1024x1024_S1x1024x1024_0_0_0
abbrev r0_b : Rect S1x1x1024 := Rect.unit (s := S1x1x1024) ![0, 0, 0] S1x1x1024.size inb_S1x1x1024_S1x1x1024_0_0_0

/-- The output window's staging buffer after the body, from the input blocks: its one store, of the body's value
    (the skeleton's payload) through the whole-buffer rectangle. -/
def out0_3 (x0 : Vec F S1x1024x1024 .f32) (x1 : Vec F S1x1024x1024 .bf16) (x2 : Vec F S1x1x1024 .f32) : Vec F S1x1024x1024 .bf16 :=
  View.canon [⟨r0_o, k0_pay1 (View.ld x0 r0_o) (View.ld x1 r0_o) (View.ld x2 r0_b)⟩]

/-- That one store covers the buffer. -/
theorem cover0_3 (p0 : Vec F S1x1024x1024 .bf16) (y : S1x1024x1024.Idx) :
    ∃ pc ∈ ([⟨r0_o, p0⟩] : List (View.Piece (Elt F) S1x1024x1024 .bf16)), y ∈ pc.1.set :=
  View.cover_of_tiled [⟨r0_o, p0⟩] S1x1024x1024.size (by rfl) y

/-- The proof data of pipeline 0 on core `c`: the arrays as the region finds them; after the body at point `t` each
    input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Region 1: the blocks, what the body leaves, the proof data -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (an unfetched window's block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (an unfetched window's block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (an unfetched window's block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (an unfetched window's block
    index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each load and the store go through the whole buffer. -/
abbrev r1_o : Rect S256x1024 := Rect.unit (s := S256x1024) ![0, 0] S256x1024.size inb_S256x1024_S256x1024_0_0
abbrev r1_k : Rect S4096x1024 := Rect.unit (s := S4096x1024) ![0, 0] S4096x1024.size inb_S4096x1024_S4096x1024_0_0
abbrev r1_m : Rect S256x4096 := Rect.unit (s := S256x4096) ![0, 0] S256x4096.size inb_S256x4096_S256x4096_0_0

/-- The output window's staging buffer after the body, from the input blocks: its one store, of the body's value
    (the skeleton's payload) through the whole-buffer rectangle. -/
def out1_4 (x0 : Vec F S256x1024 .bf16) (x1 : Vec F S4096x1024 .bf16) (x2 : Vec F S4096x1024 .bf16) (x3 : Vec F S256x4096 .i32) : Vec F S256x1024 .f32 :=
  View.canon [⟨r1_o, k1_pay1 (View.ld x0 r1_o) (View.ld x1 r1_k) (View.ld x2 r1_k) (View.ld x3 r1_m)⟩]

/-- That one store covers the buffer. -/
theorem cover1_4 (p0 : Vec F S256x1024 .f32) (y : S256x1024.Idx) :
    ∃ pc ∈ ([⟨r1_o, p0⟩] : List (View.Piece (Elt F) S256x1024 .f32)), y ∈ pc.1.set :=
  View.cover_of_tiled [⟨r1_o, p0⟩] S256x1024.size (by rfl) y

/-- The proof data of pipeline 1 on core `c`: the arrays as the region finds them; after the body at point `t` each
    input's buffer at its block and the output's at `out1_4` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## Region 2: the blocks, what the body leaves, the proof data -/

/-- Window `w`'s block at grid point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (an unfetched window's block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (an unfetched window's block
    index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (an unfetched window's block
    index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (an unfetched window's block
    index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each load and the store go through the whole buffer. -/
abbrev r2_o : Rect S256x1024 := Rect.unit (s := S256x1024) ![0, 0] S256x1024.size inb_S256x1024_S256x1024_0_0
abbrev r2_k : Rect S4096x1024 := Rect.unit (s := S4096x1024) ![0, 0] S4096x1024.size inb_S4096x1024_S4096x1024_0_0
abbrev r2_m : Rect S256x4096 := Rect.unit (s := S256x4096) ![0, 0] S256x4096.size inb_S256x4096_S256x4096_0_0

/-- The output window's staging buffer after the body, from the input blocks: its one store, of the body's value
    (the skeleton's payload) through the whole-buffer rectangle. -/
def out2_4 (x0 : Vec F S256x1024 .bf16) (x1 : Vec F S4096x1024 .bf16) (x2 : Vec F S4096x1024 .bf16) (x3 : Vec F S256x4096 .i32) : Vec F S256x1024 .f32 :=
  View.canon [⟨r2_o, k2_pay1 (View.ld x0 r2_o) (View.ld x1 r2_k) (View.ld x2 r2_k) (View.ld x3 r2_m)⟩]

/-- That one store covers the buffer. -/
theorem cover2_4 (p0 : Vec F S256x1024 .f32) (y : S256x1024.Idx) :
    ∃ pc ∈ ([⟨r2_o, p0⟩] : List (View.Piece (Elt F) S256x1024 .f32)), y ∈ pc.1.set :=
  View.cover_of_tiled [⟨r2_o, p0⟩] S256x1024.size (by rfl) y

/-- The proof data of pipeline 2 on core `c`: the arrays as the region finds them; after the body at point `t` each
    input's buffer at its block and the output's at `out2_4` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.Kernel.Hand

end
-- ==== Proof.KFold.lean ====
/-
  The buffer contents at each boundary of the program's seven items, folded from the launch memory: a stretch of host
  operations applies them; a kernel region leaves its arrays at what its pipeline's write-backs fold to and every other
  buffer as it was. The arguments are written by nothing (no host operation writes one, no region has one as an array),
  so each reads back through the whole fold to its launch contents.
-/
import proofs.«142760_j50912542327462_2_alg».proof.Proof.KDefs
import proofs.«142760_j50912542327462_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-- A buffer that no host stretch writes and that is no region's array holds at the return what it held at launch. -/
theorem W7_of_untouched (c : Dev nD) (b : Ref sig .tc) (h0 : b ∉ hostOps0_W) (h1 : b ∉ hostOps1_W) (h2 : b ∉ hostOps2_W)
    (h3 : b ∉ hostOps3_W) (a0 : ∀ w, Pipeline.arrRef spec0 w ≠ b) (a1 : ∀ w, Pipeline.arrRef spec1 w ≠ b)
    (a2 : ∀ w, Pipeline.arrRef spec2 w ≠ b) : W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)
theorem W7_main_arg9 (c : Dev nD) : W7 m ρ c (Proc.devRef .tc main_arg9) = m ((c : Thread nD τ).loc main_arg9) :=
  W7_of_untouched m ρ c main_arg9 (by decide) (by decide) (by decide) (by decide) (by decide) (by decide) (by decide)

end Cert.Kernel.Hand

end
-- ==== Proof.KBody0.lean ====
/-
  Region 0's kernel body: run on whole staging buffers holding the input blocks, it leaves every input buffer as it
  was and the output buffer at the one whole-buffer store of the body's value over the loaded inputs; hence the
  pipeline's body obligation at every grid point, the invariant and what is owed passing through untouched.
-/
import proofs.«142760_j50912542327462_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run -/

set_option maxHeartbeats 1000000 in
/-- The body on whole staging buffers, the inputs' at contents `x0`, `x1`, `x2` and the output's at anything, runs to
    the continuation holding the inputs' as they were and the output's at `out0_3` of the inputs': the three input
    loads read the whole buffers, the load of the output buffer's old contents is not used, and the one store
    overwrites the whole output buffer with the body's value. -/
theorem sound_kernel0 (c : Dev nD) (E : Set ℕ) (i : grid0.Coords) (arg2 : Memref sig .tc .vmem S1x1024x1024 .f32) (harg2 : arg2.IsWhole) (arg3 : Memref sig .tc .vmem S1x1024x1024 .bf16) (harg3 : arg3.IsWhole)
    (arg4 : Memref sig .tc .vmem S1x1x1024 .f32) (harg4 : arg4.IsWhole) (arg5 : Memref sig .tc .vmem S1x1024x1024 .bf16) (harg5 : arg5.IsWhole)
    (x0 : Vec F S1x1024x1024 .f32) (x1 : Vec F S1x1024x1024 .bf16) (x2 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic grid point -/

/-- What the body is called with at point `t`: the invariant, what is owed, and each window's current staging buffer
    whole at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's run applies; the invariant and what is
    owed are the same before and after and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1's kernel body: run on whole staging buffers holding the input blocks, it leaves every input buffer as it
  was and the output buffer at the one whole-buffer store of the body's value over the loaded inputs; hence the
  pipeline's body obligation at every grid point, the invariant and what is owed passing through untouched.
-/
import proofs.«142760_j50912542327462_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run -/

set_option maxHeartbeats 1000000 in
/-- The body on whole staging buffers, the inputs' at contents `x0`, `x1`, `x2`, `x3` and the output's at anything, runs
    to the continuation holding the inputs' as they were and the output's at `out1_4` of the inputs': the four input
    loads read the whole buffers, the load of the output buffer's old contents is not used, and the one store
    overwrites the whole output buffer with the body's value. -/
theorem sound_kernel1 (c : Dev nD) (E : Set ℕ) (i : grid1.Coords) (arg1 : Memref sig .tc .vmem S256x1024 .bf16) (harg1 : arg1.IsWhole) (arg2 : Memref sig .tc .vmem S4096x1024 .bf16) (harg2 : arg2.IsWhole)
    (arg3 : Memref sig .tc .vmem S4096x1024 .bf16) (harg3 : arg3.IsWhole) (arg4 : Memref sig .tc .vmem S256x4096 .i32) (harg4 : arg4.IsWhole) (arg5 : Memref sig .tc .vmem S256x1024 .f32) (harg5 : arg5.IsWhole)
    (x0 : Vec F S256x1024 .bf16) (x1 : Vec F S4096x1024 .bf16) (x2 : Vec F S4096x1024 .bf16) (x3 : Vec F S256x4096 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic grid point -/

/-- What the body is called with at point `t`: the invariant, what is owed, and each window's current staging buffer
    whole at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same, each buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's run applies; the invariant and what is
    owed are the same before and after and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  Region 2's kernel body: run on whole staging buffers holding the input blocks, it leaves every input buffer as it
  was and the output buffer at the one whole-buffer store of the body's value over the loaded inputs; hence the
  pipeline's body obligation at every grid point, the invariant and what is owed passing through untouched.
-/
import proofs.«142760_j50912542327462_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run -/

set_option maxHeartbeats 1000000 in
/-- The body on whole staging buffers, the inputs' at contents `x0`, `x1`, `x2`, `x3` and the output's at anything, runs
    to the continuation holding the inputs' as they were and the output's at `out2_4` of the inputs': the four input
    loads read the whole buffers, the load of the output buffer's old contents is not used, and the one store
    overwrites the whole output buffer with the body's value. -/
theorem sound_kernel2 (c : Dev nD) (E : Set ℕ) (i : grid2.Coords) (arg1 : Memref sig .tc .vmem S256x1024 .bf16) (harg1 : arg1.IsWhole) (arg2 : Memref sig .tc .vmem S4096x1024 .bf16) (harg2 : arg2.IsWhole)
    (arg3 : Memref sig .tc .vmem S4096x1024 .bf16) (harg3 : arg3.IsWhole) (arg4 : Memref sig .tc .vmem S256x4096 .i32) (harg4 : arg4.IsWhole) (arg5 : Memref sig .tc .vmem S256x1024 .f32) (harg5 : arg5.IsWhole)
    (x0 : Vec F S256x1024 .bf16) (x1 : Vec F S4096x1024 .bf16) (x2 : Vec F S4096x1024 .bf16) (x3 : Vec F S256x4096 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__attn_kernel i arg1 harg1 arg2 harg2 arg3 harg3 arg4 harg4 arg5 harg5) K := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The body obligation, at a generic grid point -/

/-- What the body is called with at point `t`: the invariant, what is owed, and each window's current staging buffer
    whole at its contents before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it returns: the same, each buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's run applies; the invariant and what is
    owed are the same before and after and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the whole program: @main is seven segments — four stretches of host operations around three kernel
  regions — and the launch theorem for such a list gives, from the launch memory with zero counters, that every weakly
  fair execution terminates without a fault in a state whose every unscoped buffer holds the last boundary's contents
  `W7`. Each region enters with the buffers at the boundary before it and leaves them at the boundary after it: its
  arrays at what its pipeline's write-backs fold to, everything else untouched. The frame (each argument ends as
  launched) is that run read at the arguments.
-/
import proofs.«142760_j50912542327462_2_alg».proof.Proof.KFold
import proofs.«142760_j50912542327462_2_alg».proof.Proof.KBody0
import proofs.«142760_j50912542327462_2_alg».proof.Proof.KBody1
import proofs.«142760_j50912542327462_2_alg».proof.Proof.KBody2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdatsH : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W7`, the generator register at some state. -/
abbrev Tₙ (c : Dev nD) : sProp 𝕄 := iprop(StableHlo.held (c : Thread nD τ) (Pipeline.ucRefs τ sig) (W7 m ρ c) ∗ ∃ r, prngReg c r)

-- a library lemma stated over the pinned configuration unifies with the printed one only when unification may unfold
-- plain definitions in a metavariable's type
set_option backward.isDefEq.respectTransparency.types false in
/-- Region 0 as a segment: entered with every unscoped buffer at `W1`, left with them at `W2`. Its arrays are
    split out of the unscoped buffers at entry and put back at the exit contents; the generator register goes into the
    pipeline's invariant and comes back; nothing is owed; the kernel has no semaphore of its own. -/
def reg0 : Pipeline.RegionSeg (pcfgs (F := F)) adm (pdatsH m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (V1 m ρ c) (V2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at `W3`, left with them at `W4`. Its arrays are
    split out of the unscoped buffers at entry and put back at the exit contents; the generator register goes into the
    pipeline's invariant and comes back; nothing is owed; the kernel has no semaphore of its own. -/
def reg1 : Pipeline.RegionSeg (pcfgs (F := F)) adm (pdatsH m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (V3 m ρ c) (V4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at `W5`, left with them at `W6`. Its arrays are
    split out of the unscoped buffers at entry and put back at the exit contents; the generator register goes into the
    pipeline's invariant and comes back; nothing is owed; the kernel has no semaphore of its own. -/
def reg2 : Pipeline.RegionSeg (pcfgs (F := F)) adm (pdatsH m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdatsH m ρ) launch2.win launch2.arr_whole c
      ((pdatsH m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m ρ) ((pdatsH m ρ 2 c).share_full fun _ => rfl)
      (V5 m ρ c) (V6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's seven segments in order. -/
abbrev segsH : List (Pipeline.Seg (pcfgs (F := F)) adm (pdatsH m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of those segments. -/
theorem main_run (c : Dev nD) : main (F := F) c = Pipeline.Seg.run (segsH m ρ) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of @main terminates, nothing faulting, in a
    state whose every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdatsH m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩) (run_all m ρ)

end Cert.Kernel.Hand

end
-- ==== Proof.KiDefs.lean ====
/-
  The three kernel regions of the program, each at a parameter `V` — the buffer contents when the region is entered:
  a window's block at a grid point; what the body leaves in the output window's staging buffer, as the one whole-buffer
  store of the body's value over the input blocks; and the pipeline's proof data built from them (inputs keep their
  blocks, the output holds the stored value, nothing is owed). Region 0 is the three linear projections on a
  3 × 8 grid (x · W + b per 1024-row tile); regions 1 and 2 are one batch of attention each, sixteen 256-row tiles.
-/
import proofs.«142760_j50912542327462_2_alg».proof.Proof.Gen.KernelIdeal.Launch
import proofs.«142760_j50912542327462_2_alg».proof.Proof.Gen.KernelIdeal.Skeleton
import proofs.«142760_j50912542327462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the blocks, what the body leaves, the proof data -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (an unfetched window's block
    index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (an unfetched window's block
    index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each load and the store go through the whole buffer. -/
abbrev r0_o : Rect S1x1024x1024 := Rect.unit (s := S1x1024x1024) ![0, 0, 0] S1x1024x1024.size inb_S1x1024x1024_S1x1024x1024_0_0_0
abbrev r0_b : Rect S1x1x1024 := Rect.unit (s := S1x1x1024) ![0, 0, 0] S1x1x1024.size inb_S1x1x1024_S1x1x1024_0_0_0

/-- The output window's staging buffer after the body, from the input blocks: its one store, of the body's value
    (the skeleton's payload) through the whole-buffer rectangle. -/
def out0_3 (x0 : Vec F S1x1024x1024 .f32) (x1 : Vec F S1x1024x1024 .bf16) (x2 : Vec F S1x1x1024 .f32) : Vec F S1x1024x1024 .bf16 :=
  View.canon [⟨r0_o, k0_pay1 (View.ld x0 r0_o) (View.ld x1 r0_o) (View.ld x2 r0_b)⟩]

/-- That one store covers the buffer. -/
theorem cover0_3 (p0 : Vec F S1x1024x1024 .bf16) (y : S1x1024x1024.Idx) :
    ∃ pc ∈ ([⟨r0_o, p0⟩] : List (View.Piece (Elt F) S1x1024x1024 .bf16)), y ∈ pc.1.set :=
  View.cover_of_tiled [⟨r0_o, p0⟩] S1x1024x1024.size (by rfl) y

/-- The proof data of pipeline 0 on core `c`: the arrays as the region finds them; after the body at point `t` each
    input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Region 1: the blocks, what the body leaves, the proof data -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (an unfetched window's block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (an unfetched window's block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (an unfetched window's block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (an unfetched window's block
    index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each load and the store go through the whole buffer. -/
abbrev r1_o : Rect S256x1024 := Rect.unit (s := S256x1024) ![0, 0] S256x1024.size inb_S256x1024_S256x1024_0_0
abbrev r1_k : Rect S4096x1024 := Rect.unit (s := S4096x1024) ![0, 0] S4096x1024.size inb_S4096x1024_S4096x1024_0_0
abbrev r1_m : Rect S256x4096 := Rect.unit (s := S256x4096) ![0, 0] S256x4096.size inb_S256x4096_S256x4096_0_0

/-- The output window's staging buffer after the body, from the input blocks: its one store, of the body's value
    (the skeleton's payload) through the whole-buffer rectangle. -/
def out1_4 (x0 : Vec F S256x1024 .bf16) (x1 : Vec F S4096x1024 .bf16) (x2 : Vec F S4096x1024 .bf16) (x3 : Vec F S256x4096 .i32) : Vec F S256x1024 .f32 :=
  View.canon [⟨r1_o, k1_pay1 (View.ld x0 r1_o) (View.ld x1 r1_k) (View.ld x2 r1_k) (View.ld x3 r1_m)⟩]

/-- That one store covers the buffer. -/
theorem cover1_4 (p0 : Vec F S256x1024 .f32) (y : S256x1024.Idx) :
    ∃ pc ∈ ([⟨r1_o, p0⟩] : List (View.Piece (Elt F) S256x1024 .f32)), y ∈ pc.1.set :=
  View.cover_of_tiled [⟨r1_o, p0⟩] S256x1024.size (by rfl) y

/-- The proof data of pipeline 1 on core `c`: the arrays as the region finds them; after the body at point `t` each
    input's buffer at its block and the output's at `out1_4` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## Region 2: the blocks, what the body leaves, the proof data -/

/-- Window `w`'s block at grid point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (an unfetched window's block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (an unfetched window's block
    index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (an unfetched window's block
    index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (an unfetched window's block
    index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each load and the store go through the whole buffer. -/
abbrev r2_o : Rect S256x1024 := Rect.unit (s := S256x1024) ![0, 0] S256x1024.size inb_S256x1024_S256x1024_0_0
abbrev r2_k : Rect S4096x1024 := Rect.unit (s := S4096x1024) ![0, 0] S4096x1024.size inb_S4096x1024_S4096x1024_0_0
abbrev r2_m : Rect S256x4096 := Rect.unit (s := S256x4096) ![0, 0] S256x4096.size inb_S256x4096_S256x4096_0_0

/-- The output window's staging buffer after the body, from the input blocks: its one store, of the body's value
    (the skeleton's payload) through the whole-buffer rectangle. -/
def out2_4 (x0 : Vec F S256x1024 .bf16) (x1 : Vec F S4096x1024 .bf16) (x2 : Vec F S4096x1024 .bf16) (x3 : Vec F S256x4096 .i32) : Vec F S256x1024 .f32 :=
  View.canon [⟨r2_o, k2_pay1 (View.ld x0 r2_o) (View.ld x1 r2_k) (View.ld x2 r2_k) (View.ld x3 r2_m)⟩]

/-- That one store covers the buffer. -/
theorem cover2_4 (p0 : Vec F S256x1024 .f32) (y : S256x1024.Idx) :
    ∃ pc ∈ ([⟨r2_o, p0⟩] : List (View.Piece (Elt F) S256x1024 .f32)), y ∈ pc.1.set :=
  View.cover_of_tiled [⟨r2_o, p0⟩] S256x1024.size (by rfl) y

/-- The proof data of pipeline 2 on core `c`: the arrays as the region finds them; after the body at point `t` each
    input's buffer at its block and the output's at `out2_4` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.KernelIdeal.Hand

end
-- ==== Proof.KiFold.lean ====
/-
  The buffer contents at each boundary of the program's seven items, folded from the launch memory: a stretch of host
  operations applies them; a kernel region leaves its arrays at what its pipeline's write-backs fold to and every other
  buffer as it was. The arguments are written by nothing (no host operation writes one, no region has one as an array),
  so each reads back through the whole fold to its launch contents.
-/
import proofs.«142760_j50912542327462_2_alg».proof.Proof.KiDefs
import proofs.«142760_j50912542327462_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-- A buffer that no host stretch writes and that is no region's array holds at the return what it held at launch. -/
theorem W7_of_untouched (c : Dev nD) (b : Ref sig .tc) (h0 : b ∉ hostOps0_W) (h1 : b ∉ hostOps1_W) (h2 : b ∉ hostOps2_W)
    (h3 : b ∉ hostOps3_W) (a0 : ∀ w, Pipeline.arrRef spec0 w ≠ b) (a1 : ∀ w, Pipeline.arrRef spec1 w ≠ b)
    (a2 : ∀ w, Pipeline.arrRef spec2 w ≠ b) : W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)
theorem W7_main_arg9 (c : Dev nD) : W7 m ρ c (Proc.devRef .tc main_arg9) = m ((c : Thread nD τ).loc main_arg9) :=
  W7_of_untouched m ρ c main_arg9 (by decide) (by decide) (by decide) (by decide) (by decide) (by decide) (by decide)

end Cert.KernelIdeal.Hand

end
-- ==== Proof.KiBody0.lean ====
/-
  Region 0's kernel body: run on whole staging buffers holding the input blocks, it leaves every input buffer as it
  was and the output buffer at the one whole-buffer store of the body's value over the loaded inputs; hence the
  pipeline's body obligation at every grid point, the invariant and what is owed passing through untouched.
-/
import proofs.«142760_j50912542327462_2_alg».proof.Proof.KiDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run -/

set_option maxHeartbeats 1000000 in
/-- The body on whole staging buffers, the inputs' at contents `x0`, `x1`, `x2` and the output's at anything, runs to
    the continuation holding the inputs' as they were and the output's at `out0_3` of the inputs': the three input
    loads read the whole buffers, the load of the output buffer's old contents is not used, and the one store
    overwrites the whole output buffer with the body's value. -/
theorem sound_kernel0 (c : Dev nD) (E : Set ℕ) (i : grid0.Coords) (arg2 : Memref sig .tc .vmem S1x1024x1024 .f32) (harg2 : arg2.IsWhole) (arg3 : Memref sig .tc .vmem S1x1024x1024 .bf16) (harg3 : arg3.IsWhole)
    (arg4 : Memref sig .tc .vmem S1x1x1024 .f32) (harg4 : arg4.IsWhole) (arg5 : Memref sig .tc .vmem S1x1024x1024 .bf16) (harg5 : arg5.IsWhole)
    (x0 : Vec F S1x1024x1024 .f32) (x1 : Vec F S1x1024x1024 .bf16) (x2 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic grid point -/

/-- What the body is called with at point `t`: the invariant, what is owed, and each window's current staging buffer
    whole at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's run applies; the invariant and what is
    owed are the same before and after and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
/-
  Region 1's kernel body: run on whole staging buffers holding the input blocks, it leaves every input buffer as it
  was and the output buffer at the one whole-buffer store of the body's value over the loaded inputs; hence the
  pipeline's body obligation at every grid point, the invariant and what is owed passing through untouched.
-/
import proofs.«142760_j50912542327462_2_alg».proof.Proof.KiDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run -/

set_option maxHeartbeats 1000000 in
/-- The body on whole staging buffers, the inputs' at contents `x0`, `x1`, `x2`, `x3` and the output's at anything, runs
    to the continuation holding the inputs' as they were and the output's at `out1_4` of the inputs': the four input
    loads read the whole buffers, the load of the output buffer's old contents is not used, and the one store
    overwrites the whole output buffer with the body's value. -/
theorem sound_kernel1 (c : Dev nD) (E : Set ℕ) (i : grid1.Coords) (arg1 : Memref sig .tc .vmem S256x1024 .bf16) (harg1 : arg1.IsWhole) (arg2 : Memref sig .tc .vmem S4096x1024 .bf16) (harg2 : arg2.IsWhole)
    (arg3 : Memref sig .tc .vmem S4096x1024 .bf16) (harg3 : arg3.IsWhole) (arg4 : Memref sig .tc .vmem S256x4096 .i32) (harg4 : arg4.IsWhole) (arg5 : Memref sig .tc .vmem S256x1024 .f32) (harg5 : arg5.IsWhole)
    (x0 : Vec F S256x1024 .bf16) (x1 : Vec F S4096x1024 .bf16) (x2 : Vec F S4096x1024 .bf16) (x3 : Vec F S256x4096 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic grid point -/

/-- What the body is called with at point `t`: the invariant, what is owed, and each window's current staging buffer
    whole at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same, each buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's run applies; the invariant and what is
    owed are the same before and after and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiBody2.lean ====
/-
  Region 2's kernel body: run on whole staging buffers holding the input blocks, it leaves every input buffer as it
  was and the output buffer at the one whole-buffer store of the body's value over the loaded inputs; hence the
  pipeline's body obligation at every grid point, the invariant and what is owed passing through untouched.
-/
import proofs.«142760_j50912542327462_2_alg».proof.Proof.KiDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run -/

set_option maxHeartbeats 1000000 in
/-- The body on whole staging buffers, the inputs' at contents `x0`, `x1`, `x2`, `x3` and the output's at anything, runs
    to the continuation holding the inputs' as they were and the output's at `out2_4` of the inputs': the four input
    loads read the whole buffers, the load of the output buffer's old contents is not used, and the one store
    overwrites the whole output buffer with the body's value. -/
theorem sound_kernel2 (c : Dev nD) (E : Set ℕ) (i : grid2.Coords) (arg1 : Memref sig .tc .vmem S256x1024 .bf16) (harg1 : arg1.IsWhole) (arg2 : Memref sig .tc .vmem S4096x1024 .bf16) (harg2 : arg2.IsWhole)
    (arg3 : Memref sig .tc .vmem S4096x1024 .bf16) (harg3 : arg3.IsWhole) (arg4 : Memref sig .tc .vmem S256x4096 .i32) (harg4 : arg4.IsWhole) (arg5 : Memref sig .tc .vmem S256x1024 .f32) (harg5 : arg5.IsWhole)
    (x0 : Vec F S256x1024 .bf16) (x1 : Vec F S4096x1024 .bf16) (x2 : Vec F S4096x1024 .bf16) (x3 : Vec F S256x4096 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__attn_kernel i arg1 harg1 arg2 harg2 arg3 harg3 arg4 harg4 arg5 harg5) K := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The body obligation, at a generic grid point -/

/-- What the body is called with at point `t`: the invariant, what is owed, and each window's current staging buffer
    whole at its contents before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it returns: the same, each buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's run applies; the invariant and what is
    owed are the same before and after and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRun.lean ====
/-
  The run of the whole program: @main is seven segments — four stretches of host operations around three kernel
  regions — and the launch theorem for such a list gives, from the launch memory with zero counters, that every weakly
  fair execution terminates without a fault in a state whose every unscoped buffer holds the last boundary's contents
  `W7`. Each region enters with the buffers at the boundary before it and leaves them at the boundary after it: its
  arrays at what its pipeline's write-backs fold to, everything else untouched. The frame (each argument ends as
  launched) is that run read at the arguments.
-/
import proofs.«142760_j50912542327462_2_alg».proof.Proof.KiFold
import proofs.«142760_j50912542327462_2_alg».proof.Proof.KiBody0
import proofs.«142760_j50912542327462_2_alg».proof.Proof.KiBody1
import proofs.«142760_j50912542327462_2_alg».proof.Proof.KiBody2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdatsH : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W7`, the generator register at some state. -/
abbrev Tₙ (c : Dev nD) : sProp 𝕄 := iprop(StableHlo.held (c : Thread nD τ) (Pipeline.ucRefs τ sig) (W7 m ρ c) ∗ ∃ r, prngReg c r)

-- a library lemma stated over the pinned configuration unifies with the printed one only when unification may unfold
-- plain definitions in a metavariable's type
set_option backward.isDefEq.respectTransparency.types false in
/-- Region 0 as a segment: entered with every unscoped buffer at `W1`, left with them at `W2`. Its arrays are
    split out of the unscoped buffers at entry and put back at the exit contents; the generator register goes into the
    pipeline's invariant and comes back; nothing is owed; the kernel has no semaphore of its own. -/
def reg0 : Pipeline.RegionSeg (pcfgs (F := F)) adm (pdatsH m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (V1 m ρ c) (V2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at `W3`, left with them at `W4`. Its arrays are
    split out of the unscoped buffers at entry and put back at the exit contents; the generator register goes into the
    pipeline's invariant and comes back; nothing is owed; the kernel has no semaphore of its own. -/
def reg1 : Pipeline.RegionSeg (pcfgs (F := F)) adm (pdatsH m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (V3 m ρ c) (V4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at `W5`, left with them at `W6`. Its arrays are
    split out of the unscoped buffers at entry and put back at the exit contents; the generator register goes into the
    pipeline's invariant and comes back; nothing is owed; the kernel has no semaphore of its own. -/
def reg2 : Pipeline.RegionSeg (pcfgs (F := F)) adm (pdatsH m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdatsH m ρ) launch2.win launch2.arr_whole c
      ((pdatsH m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m ρ) ((pdatsH m ρ 2 c).share_full fun _ => rfl)
      (V5 m ρ c) (V6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's seven segments in order. -/
abbrev segsH : List (Pipeline.Seg (pcfgs (F := F)) adm (pdatsH m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of those segments. -/
theorem main_run (c : Dev nD) : main (F := F) c = Pipeline.Seg.run (segsH m ρ) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of @main terminates, nothing faulting, in a
    state whose every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdatsH m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩) (run_all m ρ)

end Cert.KernelIdeal.Hand

end
-- ==== Proof.Spec.lean ====
/-
  Scaled dot-product attention with three linear projections, on the extended reals, entry by entry.

  For inputs x : [2, 4096, 1024], weights W : [1024, 1024] and biases b : [1024] a projected activation is
  `lin x W b n s f = (∑ e, x[n,s,e] · W[f,e]) + b[f]`. From projected q, k, v and a mask M : [4096, 4096] (a set bit
  means "ignored"), a row r of batch n has scores s_j (the masked ones replaced by one finite fill value), the row
  maximum m, the weights p_j = exp (s_j − m), their sum l, and the output Σ_j p_j · v[n,j,f] normalised by l.

  The two programs arrange this differently, and both arrangements are written out here:
  * `attnK`: q is scaled by 2⁻⁵ entrywise BEFORE the contraction, and the weighted sum is divided by l AFTER it;
  * `attnR`: the contraction is divided by √1024 AFTER it, and each weight is divided by l BEFORE the weighted sum.
  That the two agree on finite inputs is proved in `Proof/AttnLaw.lean`.
-/
import Idealize.ShloMosaic.PureOps.Ideal
import Idealize.ShloMosaic.Lib.ValueIdx

noncomputable section

open scoped BigOperators

namespace Cert.Attn

open Idealize.ShloMosaic Idealize.ShloMosaic.ValueIdx

/-- The shapes of the arguments: activations, weights, biases, the mask. -/
abbrev SX : Shape := ⟨3, ![2, 4096, 1024]⟩
abbrev SW : Shape := ⟨2, ![1024, 1024]⟩
abbrev SV : Shape := ⟨1, ![1024]⟩
abbrev SM : Shape := ⟨2, ![4096, 4096]⟩

/-- Every entry of an array of extended reals is a real number. -/
def IsFinite {S : Shape} (x : S.Idx → EReal) : Prop := ∀ i, x i ≠ ⊥ ∧ x i ≠ ⊤

/-- A projected activation: `x · Wᵀ + b` at batch `n`, row `s`, feature `f`. -/
def lin (x : SX.Idx → EReal) (W : SW.Idx → EReal) (b : SV.Idx → EReal) (n : Fin 2) (s : Fin 4096) (f : Fin 1024) : EReal :=
  (∑ e : Fin 1024, x (ix3 n s e) * W (ix2 f e)) + b (ix1 f)

/-- The finite value a masked score is replaced by (the f32 word of −10⁹). -/
def fill : EReal := Ideal.ofBits .f32 0xCE6E6B28#32
/-- The factor q is scaled by before the contraction: the bf16 word of 2⁻⁵. -/
def scale : EReal := Ideal.ofBits .bf16 0x3D00#16
/-- The divisor of the contraction: the square root of the f32 word of 1024. -/
def root : EReal := Ideal.sqrt (Ideal.ofBits .f32 0x44800000#32)

/-- The maximum of a row of scores, folded from −∞. -/
def rowMax (s : Fin 4096 → EReal) : EReal := (Finset.univ : Finset (Fin 4096)).fold max ⊥ s
/-- The unnormalised weight of column `j`: `exp (s_j − max s)`. -/
def pexp (s : Fin 4096 → EReal) (j : Fin 4096) : EReal := Ideal.exp (s j - rowMax s)
/-- The normaliser of a row: the sum of its unnormalised weights. -/
def rowSum (s : Fin 4096 → EReal) : EReal := ∑ j : Fin 4096, pexp s j

/-- A row of scores, q scaled entrywise before the contraction. -/
def scoreK (q k : Fin 2 → Fin 4096 → Fin 1024 → EReal) (msk : SM.Idx → BitVec 1) (n : Fin 2) (r : Fin 4096)
    (j : Fin 4096) : EReal :=
  if msk (ix2 r j) = 1#1 then fill else ∑ e : Fin 1024, (q n r e * scale) * k n j e

/-- A row of scores, the contraction divided by the root afterwards. -/
def scoreR (q k : Fin 2 → Fin 4096 → Fin 1024 → EReal) (msk : SM.Idx → BitVec 1) (n : Fin 2) (r : Fin 4096)
    (j : Fin 4096) : EReal :=
  if msk (ix2 r j) = 1#1 then fill else Ideal.div (∑ e : Fin 1024, q n r e * k n j e) root

/-- An output entry, the weighted sum divided by the normaliser. -/
def outK (q k v : Fin 2 → Fin 4096 → Fin 1024 → EReal) (msk : SM.Idx → BitVec 1) (n : Fin 2) (r : Fin 4096)
    (f : Fin 1024) : EReal :=
  Ideal.div (∑ j : Fin 4096, pexp (scoreK q k msk n r) j * v n j f) (rowSum (scoreK q k msk n r))

/-- An output entry, each weight divided by the normaliser before the weighted sum. -/
def outR (q k v : Fin 2 → Fin 4096 → Fin 1024 → EReal) (msk : SM.Idx → BitVec 1) (n : Fin 2) (r : Fin 4096)
    (f : Fin 1024) : EReal :=
  ∑ j : Fin 4096, Ideal.div (pexp (scoreR q k msk n r) j) (rowSum (scoreR q k msk n r)) * v n j f

/-- The whole result in the first arrangement, as a function of the ten argument arrays. -/
def attnK (query key value : SX.Idx → EReal) (mask : SM.Idx → BitVec 1) (Wq : SW.Idx → EReal) (bq : SV.Idx → EReal)
    (Wk : SW.Idx → EReal) (bk : SV.Idx → EReal) (Wv : SW.Idx → EReal) (bv : SV.Idx → EReal) : SX.Idx → EReal :=
  fun i => outK (lin query Wq bq) (lin key Wk bk) (lin value Wv bv) mask (i 0) (i 1) (i 2)

/-- The whole result in the second arrangement. -/
def attnR (query key value : SX.Idx → EReal) (mask : SM.Idx → BitVec 1) (Wq : SW.Idx → EReal) (bq : SV.Idx → EReal)
    (Wk : SW.Idx → EReal) (bk : SV.Idx → EReal) (Wv : SW.Idx → EReal) (bv : SV.Idx → EReal) : SX.Idx → EReal :=
  fun i => outR (lin query Wq bq) (lin key Wk bk) (lin value Wv bv) mask (i 0) (i 1) (i 2)

end Cert.Attn

end
-- ==== Proof.Spec2.lean ====
/-
  What each kernel region leaves in its result array, entry by entry, as a function of the arrays it reads.

  * `linAll x w b p i f = (∑ e, x[p,i,e] · w[p,e,f]) + b[p,0,f]`: three stacked linear layers over 8192 rows.
  * `attnOne q k v M r f`: one batch of attention on [4096, 1024] operands with an integer mask (a non-zero word means
    "ignored"): the scores of row r are `rowScore`, q scaled entrywise by 2⁻⁵ before the contraction and the masked
    entries filled; the output is the weighted sum of v's rows divided by the row's normaliser.
  `pick3` selects one of three stacked operands by the leading coordinate.
-/
import proofs.«142760_j50912542327462_2_alg».proof.Proof.Spec

noncomputable section

open scoped BigOperators

namespace Cert.Attn

open Idealize.ShloMosaic Idealize.ShloMosaic.ValueIdx

abbrev S3X : Shape := ⟨3, ![3, 8192, 1024]⟩
abbrev S3W : Shape := ⟨3, ![3, 1024, 1024]⟩
abbrev S3B : Shape := ⟨3, ![3, 1, 1024]⟩
abbrev SQ : Shape := ⟨2, ![4096, 1024]⟩

/-- Three stacked linear layers, entry (p, i, f). -/
def linAll (x : S3X.Idx → EReal) (w : S3W.Idx → EReal) (b : S3B.Idx → EReal) (p : Fin 3) (i : Fin 8192) (f : Fin 1024) : EReal :=
  (∑ e : Fin 1024, x (ix3 p i e) * w (ix3 p e f)) + b (ix3 p (0 : Fin 1) f)

/-- One of three operands, by the leading coordinate. -/
def pick3 {α : Type} (p : Fin 3) (a0 a1 a2 : α) : α := if p = 0 then a0 else if p = 1 then a1 else a2

/-- Row r's scores in one batch: masked entries filled, the others the contraction of the scaled q row with k's row j. -/
def rowScore (q k : SQ.Idx → EReal) (msk : SM.Idx → BitVec 32) (r j : Fin 4096) : EReal :=
  if msk (ix2 r j) ≠ 0#32 then fill else ∑ e : Fin 1024, (q (ix2 r e) * scale) * k (ix2 j e)

/-- One batch of attention, entry (r, f). -/
def attnOne (q k v : SQ.Idx → EReal) (msk : SM.Idx → BitVec 32) (r : Fin 4096) (f : Fin 1024) : EReal :=
  Ideal.div (∑ j : Fin 4096, pexp (rowScore q k msk r) j * v (ix2 j f)) (rowSum (rowScore q k msk r))

end Cert.Attn

end
-- ==== Proof.AttnCongr.lean ====
/-
  One batch of attention on [4096, 1024] operands with an integer mask is an output entry of the first arrangement.

  If the operands q, k, v are batch n of Q, K, V entry by entry, and every mask word is the one-bit mask widened to 32
  bits (so the word is non-zero exactly when the bit is set), then the row of scores of the batch is the row of
  scores of the first arrangement, and hence the normalised weighted sums agree.
-/
import proofs.«142760_j50912542327462_2_alg».proof.Proof.Spec2

noncomputable section

open scoped BigOperators

namespace Cert.Attn

open Idealize.ShloMosaic Idealize.ShloMosaic.ValueIdx

/-- A one-bit word widened to 32 bits is non-zero exactly when the bit is set. -/
theorem setWidth_ne_zero_iff (b : BitVec 1) : b.setWidth 32 ≠ 0#32 ↔ b = 1#1 := by
  revert b; decide

/-- The row of scores of one batch is the row of scores of the first arrangement. -/
theorem rowScore_eq_scoreK (q k : SQ.Idx → EReal) (msk : SM.Idx → BitVec 32) (Q K : Fin 2 → Fin 4096 → Fin 1024 → EReal)
    (mask : SM.Idx → BitVec 1) (n : Fin 2) (hq : ∀ s e, q (ix2 s e) = Q n s e) (hk : ∀ s e, k (ix2 s e) = K n s e)
    (hm : ∀ r j, msk (ix2 r j) = (mask (ix2 r j)).setWidth 32) (r : Fin 4096) :
    rowScore q k msk r = scoreK Q K mask n r := by
  funext j
  unfold rowScore scoreK
  rw [hm r j]
  by_cases hb : mask (ix2 r j) = 1#1
  · rw [if_pos ((setWidth_ne_zero_iff _).2 hb), if_pos hb]
  · rw [if_neg (fun h => hb ((setWidth_ne_zero_iff _).1 h)), if_neg hb]
    exact Finset.sum_congr rfl fun e _ => by rw [hq, hk]

/-- One batch of attention is an output entry of the first arrangement. -/
theorem attnOne_eq_outK (q k v : SQ.Idx → EReal) (msk : SM.Idx → BitVec 32) (Q K V : Fin 2 → Fin 4096 → Fin 1024 → EReal)
    (mask : SM.Idx → BitVec 1) (n : Fin 2)
    (hq : ∀ s e, q (ix2 s e) = Q n s e) (hk : ∀ s e, k (ix2 s e) = K n s e) (hv : ∀ s e, v (ix2 s e) = V n s e)
    (hm : ∀ r j, msk (ix2 r j) = (mask (ix2 r j)).setWidth 32) (r : Fin 4096) (f : Fin 1024) :
    attnOne q k v msk r f = outK Q K V mask n r f := by
  unfold attnOne outK
  rw [rowScore_eq_scoreK q k msk Q K mask n hq hk hm r]
  congr 1
  exact Finset.sum_congr rfl fun j _ => by rw [hv]

end Cert.Attn

end
-- ==== Proof.Payload0.lean ====
/-
  The linear layer's block computation read entry by entry, on the extended reals.

  The body takes a block x : [1, 1024, 1024], a weight block w : [1, 1024, 1024] and a bias row b : [1, 1, 1024], drops
  the unit axes, contracts x's last axis with w's middle axis into a zero accumulator, adds the bias row to every row
  and puts the unit axis back. On the extended reals the format changes are the identity, so the entry (0, p, q) of
  the result is (∑ e, x[0,p,e] · w[0,e,q]) + b[0,0,q].
-/
import proofs.«142760_j50912542327462_2_alg».proof.Proof.Gen.KernelIdeal.Skeleton
import proofs.«142760_j50912542327462_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! The operand indices of the product, coordinate by coordinate. -/

theorem mm0_lhs0 (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem mm0_lhs1 (i : S1024x1024.Idx) (k : dot_S1024x1024_S1024x1024_S1024x1024_1_0_0_1_n_n.contr.Idx) : (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem mm0_rhsN (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl
theorem mm0_rhsC (i : S1024x1024.Idx) (k : dot_S1024x1024_S1024x1024_S1024x1024_1_0_0_1_n_n.contr.Idx) : (dot_S1024x1024_S1024x1024_S1024x1024_1_0_0_1_n_n.rhsIdx i k 0).val = (k ⟨0, by decide⟩).val :=
  dot_S1024x1024_S1024x1024_S1024x1024_1_0_0_1_n_n.rhsIdx_val_of_single rfl i k

/-- A [1024, 1024] × [1024, 1024] product contracting the left operand's columns with the right operand's rows, into a
    zero accumulator, at (p, q): the sum over e of a[p,e] · c[e,q]. -/
theorem mm0_apply (a : FVec Ideal S1024x1024 .bf16) (c : FVec Ideal S1024x1024 .bf16) (p : Fin 1024) (q : Fin 1024) :
    matmul dot_S1024x1024_S1024x1024_S1024x1024_1_0_0_1_n_n none a c (constant (F := Ideal) S1024x1024 .f32 0x00000000#32) (ix2 p q)
      = ∑ e : Fin 1024, a (ix2 p e) * c (ix2 e q) := by
  refine (Ideal.matmul_constant_zero_apply dot_S1024x1024_S1024x1024_S1024x1024_1_0_0_1_n_n none a c (ix2 p q)).trans ?_
  rw [← Equiv.sum_comp (contrEquiv1 dot_S1024x1024_S1024x1024_S1024x1024_1_0_0_1_n_n 1024 rfl rfl).symm]
  refine Finset.sum_congr rfl fun e _ => ?_
  have hk := contrEquiv1_symm_val dot_S1024x1024_S1024x1024_S1024x1024_1_0_0_1_n_n 1024 rfl rfl e
  have el : dot_S1024x1024_S1024x1024_S1024x1024_1_0_0_1_n_n.lhsIdx (ix2 p q) ((contrEquiv1 dot_S1024x1024_S1024x1024_S1024x1024_1_0_0_1_n_n 1024 rfl rfl).symm e) = ix2 p e :=
    funext fun ax => Fin.ext (by
      match ax with
      | ⟨0, _⟩ => exact mm0_lhs0 _ _
      | ⟨1, _⟩ => exact (mm0_lhs1 _ _).trans hk)
  have er : dot_S1024x1024_S1024x1024_S1024x1024_1_0_0_1_n_n.rhsIdx (ix2 p q) ((contrEquiv1 dot_S1024x1024_S1024x1024_S1024x1024_1_0_0_1_n_n 1024 rfl rfl).symm e) = ix2 e q :=
    funext fun ax => Fin.ext (by
      match ax with
      | ⟨1, _⟩ => exact mm0_rhsN _ _
      | ⟨0, _⟩ => exact (mm0_rhsC _ _).trans hk)
  rw [el, er]

/-- The block computation at (0, p, q). -/
theorem k0_pay1_apply (x : Vec Ideal S1x1024x1024 .f32) (w : Vec Ideal S1x1024x1024 .bf16) (b : Vec Ideal S1x1x1024 .f32)
    (p q : Fin 1024) :
    k0_pay1 (F := Ideal) x w b (ix3 (0 : Fin 1) p q)
      = (∑ e : Fin 1024, x (ix3 (0 : Fin 1) p e) * w (ix3 (0 : Fin 1) e q)) + b (ix3 (0 : Fin 1) (0 : Fin 1) q) := by
  unfold k0_pay1
  refine (shapeCast_ab_1ab_apply _ shapeCasts_S1024x1024_S1x1024x1024 (0 : Fin 1) p q).trans ?_
  refine (truncf_apply (ψ := .bf16) _ bitsLt_bf16_f32 _).trans ?_
  refine (addf_apply _ _ _).trans ?_
  refine congrArg₂ (· + ·) ?_ ?_
  · refine (mm0_apply _ _ p q).trans ?_
    refine Finset.sum_congr rfl fun e _ => ?_
    exact congrArg₂ (· * ·) (shapeCast_1ab_ab_apply x shapeCasts_S1x1024x1024_S1024x1024 p e)
      (shapeCast_1ab_ab_apply w shapeCasts_S1x1024x1024_S1024x1024 e q)
  · exact (broadcastTo_1b_ab_apply _ broadcasts_S1x1024_S1024x1024 p q).trans
      (shapeCast_1ab_ab_apply b shapeCasts_S1x1x1024_S1x1024 (0 : Fin 1) q)

end Cert.KernelIdeal.Pay

end
-- ==== Proof.KiArr0.lean ====
/-
  Region 0 of the program, from blocks to the array: three stacked linear layers over 8192 rows.

  The grid is 3 × 8: point t stands for layer p = t / 8 and row tile i = t % 8. At point t the activation window holds
  rows 1024·i … 1024·i + 1023 of layer p of x, the weight window all of layer p of w, the bias window layer p's row of b,
  and the body's value on those blocks is written back to rows 1024·i … 1024·i + 1023 of layer p of the result. The
  value the body forms at (0, r', f) of its block is (∑ e, x[p, 1024·i + r', e] · w[p, e, f]) + b[p, 0, f], so the written
  block is the block of one function of the whole arrays. Entry (p, r, f) lies in the block of point 8·p + r / 1024,
  so the twenty-four blocks cover the result.
-/
import proofs.«142760_j50912542327462_2_alg».proof.Proof.KiDefs
import proofs.«142760_j50912542327462_2_alg».proof.Proof.Spec2
import proofs.«142760_j50912542327462_2_alg».proof.Proof.Payload0
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem hz0 : (![0, 0, 0] : Fin 3 → Nat) = fun _ => 0 := funext fun a => by fin_cases a <;> rfl

/-- The whole result array of the three stacked linear layers. -/
abbrev G0 (x : S3x8192x1024.Idx → EReal) (w : S3x1024x1024.Idx → EReal) (b : S3x1x1024.Idx → EReal) : S3x8192x1024.Idx → EReal :=
  fun i => Cert.Attn.linAll x w b (i 0) (i 1) (i 2)

/-- The block index of each window at each point of the grid: the layer t / 8 everywhere, the row tile t % 8 for the
    activations and the result. -/
theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-- The body's value on blocks that are rows 1024·i0 … 1024·i0 + 1023 of layer p0 of x, all of layer p0 of w and layer
    p0's row of b is the linear layer of the whole arrays at layer p0, row 1024·i0 + r. -/
theorem point0 (x : Vec Ideal S1x1024x1024 .f32) (w : Vec Ideal S1x1024x1024 .bf16) (b : Vec Ideal S1x1x1024 .f32)
    (X : S3x8192x1024.Idx → EReal) (W : S3x1024x1024.Idx → EReal) (B : S3x1x1024.Idx → EReal) (p0 i0 : ℕ)
    (hx : ∀ (y : S1x1024x1024.Idx) (i : S3x8192x1024.Idx), (i 0).val = p0 → (i 1).val = 1024 * i0 + (y 1).val →
      (i 2).val = (y 2).val → x y = X i)
    (hw : ∀ (y : S1x1024x1024.Idx) (i : S3x1024x1024.Idx), (i 0).val = p0 → (i 1).val = (y 1).val →
      (i 2).val = (y 2).val → w y = W i)
    (hb : ∀ (y : S1x1x1024.Idx) (i : S3x1x1024.Idx), (i 0).val = p0 → (i 2).val = (y 2).val → b y = B i)
    (y : S1x1024x1024.Idx) (P : Fin 3) (hP : P.val = p0) (R : Fin 8192) (hR : R.val = 1024 * i0 + (y 1).val) :
    k0_pay1 (F := Ideal) x w b y = Cert.Attn.linAll X W B P R (y 2) := by
  obtain ⟨u, p, q, rfl⟩ : ∃ (u : Fin 1) (p q : Fin 1024), y = ix3 u p q := ⟨y 0, y 1, y 2, eq_ix3 y⟩
  obtain rfl : u = 0 := Subsingleton.elim _ _
  rw [Pay.k0_pay1_apply]
  unfold Cert.Attn.linAll
  refine congrArg₂ (· + ·) ?_ ?_
  · refine Finset.sum_congr rfl fun e _ => ?_
    rw [hx (ix3 (0 : Fin 1) p e) (ix3 P R e) hP hR rfl, hw (ix3 (0 : Fin 1) e q) (ix3 P e q) hP rfl rfl]
  · exact hb (ix3 (0 : Fin 1) (0 : Fin 1) q) (ix3 P (0 : Fin 1) q) hP rfl

/-- Window 0's block at point t is rows 1024·(t % 8) … of layer t / 8 of x. -/
theorem iblk0_0_apply (c : Dev nD) (t : Fin cfg0.N) (y : S1x1024x1024.Idx) (i : S3x8192x1024.Idx)
    (h0 : (i 0).val = t.val / 8) (h1 : (i 1).val = 1024 * (t.val % 8) + (y 1).val) (h2 : (i 2).val = (y 2).val) :
    (iblk0 V c 0 t : Vec Ideal S1x1024x1024 .f32) y = (V c main_v6 : S3x8192x1024.Idx → EReal) i := by
  obtain ⟨e00, e01, e02, -⟩ := idx0 t
  have hy0 : (y 0).val < 1 := (y 0).isLt
  unfold iblk0
  rw [View.read_apply]
  show V c main_v6 _ = V c main_v6 _
  congr 1
  funext a
  apply Fin.ext
  match a with
  | ⟨0, _⟩ => show win0_0.index t 0 * 1 + 1 * (y 0).val = (i 0).val; rw [e00, h0]; omega
  | ⟨1, _⟩ => show win0_0.index t 1 * 1024 + 1 * (y 1).val = (i 1).val; rw [e01, h1]; omega
  | ⟨2, _⟩ => show win0_0.index t 2 * 1024 + 1 * (y 2).val = (i 2).val; rw [e02, h2]; omega

/-- Window 1's block at point t is all of layer t / 8 of w. -/
theorem iblk0_1_apply (c : Dev nD) (t : Fin cfg0.N) (y : S1x1024x1024.Idx) (i : S3x1024x1024.Idx)
    (h0 : (i 0).val = t.val / 8) (h1 : (i 1).val = (y 1).val) (h2 : (i 2).val = (y 2).val) :
    (iblk0 V c 1 t : Vec Ideal S1x1024x1024 .bf16) y = (V c main_v14 : S3x1024x1024.Idx → EReal) i := by
  obtain ⟨-, -, -, e10, e11, e12, -⟩ := idx0 t
  have hy0 : (y 0).val < 1 := (y 0).isLt
  unfold iblk0
  rw [View.read_apply]
  show V c main_v14 _ = V c main_v14 _
  congr 1
  funext a
  apply Fin.ext
  match a with
  | ⟨0, _⟩ => show win0_1.index t 0 * 1 + 1 * (y 0).val = (i 0).val; rw [e10, h0]; omega
  | ⟨1, _⟩ => show win0_1.index t 1 * 1024 + 1 * (y 1).val = (i 1).val; rw [e11, h1]; omega
  | ⟨2, _⟩ => show win0_1.index t 2 * 1024 + 1 * (y 2).val = (i 2).val; rw [e12, h2]; omega

/-- Window 2's block at point t is layer t / 8's row of b. -/
theorem iblk0_2_apply (c : Dev nD) (t : Fin cfg0.N) (y : S1x1x1024.Idx) (i : S3x1x1024.Idx)
    (h0 : (i 0).val = t.val / 8) (h2 : (i 2).val = (y 2).val) :
    (iblk0 V c 2 t : Vec Ideal S1x1x1024 .f32) y = (V c main_v19 : S3x1x1024.Idx → EReal) i := by
  obtain ⟨-, -, -, -, -, -, e20, e21, e22, -⟩ := idx0 t
  have hy0 : (y 0).val < 1 := (y 0).isLt
  have hy1 : (y 1).val < 1 := (y 1).isLt
  have hi1 : (i 1).val < 1 := (i 1).isLt
  unfold iblk0
  rw [View.read_apply]
  show V c main_v19 _ = V c main_v19 _
  congr 1
  funext a
  apply Fin.ext
  match a with
  | ⟨0, _⟩ => show win0_2.index t 0 * 1 + 1 * (y 0).val = (i 0).val; rw [e20, h0]; omega
  | ⟨1, _⟩ => show win0_2.index t 1 * 1 + 1 * (y 1).val = (i 1).val; rw [e21]; omega
  | ⟨2, _⟩ => show win0_2.index t 2 * 1024 + 1 * (y 2).val = (i 2).val; rw [e22, h2]; omega

/-- What point t writes back is block t of the whole result. -/
theorem flushed0_eq (c : Dev nD) (t : Fin cfg0.N) :
    (dat0 V c).flushed 3 t = ((cfg0.win 3).blk t).view.read (Elt Ideal) (G0 (V c main_v6) (V c main_v14) (V c main_v19)) := by
  show (cfg0.win 3).cut (grid0.coords t) ((dat0 V c).after 3 t) = _
  rw [after0_3]
  unfold out0_3
  rw [View.canon_unit_zero hz0]
  simp only [View.ld_unit_zero (S := S1x1024x1024) hz0, View.ld_unit_zero (S := S1x1x1024) hz0]
  obtain ⟨-, -, -, -, -, -, -, -, -, e30, e31, e32⟩ := idx0 t
  funext j
  have hj0 : (j 0).val < 1 := (j 0).isLt
  rw [View.read_apply]
  show k0_pay1 (F := Ideal) (iblk0 V c 0 t) (iblk0 V c 1 t) (iblk0 V c 2 t) j
    = Cert.Attn.linAll (V c main_v6) (V c main_v14) (V c main_v19) ((((cfg0.win 3).blk t).view.emb j) 0)
        ((((cfg0.win 3).blk t).view.emb j) 1) ((((cfg0.win 3).blk t).view.emb j) 2)
  have hj2 : (((cfg0.win 3).blk t).view.emb j) 2 = (j 2 : Fin 1024) := by
    apply Fin.ext
    show win0_3.index t 2 * 1024 + 1 * (j 2).val = (j 2).val
    rw [e32]; omega
  rw [hj2]
  refine point0 _ _ _ _ _ _ (t.val / 8) (t.val % 8) (iblk0_0_apply V c t) (iblk0_1_apply V c t) (iblk0_2_apply V c t) j _ ?_ _ ?_
  · show win0_3.index t 0 * 1 + 1 * (j 0).val = t.val / 8
    rw [e30]; omega
  · show win0_3.index t 1 * 1024 + 1 * (j 1).val = 1024 * (t.val % 8) + (j 1).val
    rw [e31]; omega

/-- An index of the array is in point t's block iff each coordinate is in the block's range on its axis. -/
theorem mem_blk0 (t : Fin cfg0.N) (i : S3x8192x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v20).slice (win0_3.rect t)).set ↔ _
  rw [View.set_slice_whole, Rect.mem_set_unit]
  exact Iff.rfl

/-- Entry (p, r, f) of the result is in the block of point 8·p + r / 1024. -/
theorem cover0 (i : S3x8192x1024.Idx) :
    ∃ t : Fin cfg0.N, (cfg0.win 3).flush t = true ∧ i ∈ ((cfg0.win 3).blk t).view.set := by
  have hi0 : (i 0).val < 3 := (i 0).isLt
  have hi1 : (i 1).val < 8192 := (i 1).isLt
  have hi2 : (i 2).val < 1024 := (i 2).isLt
  have hN : cfg0.N = 24 := rfl
  let t : Fin cfg0.N := ⟨8 * (i 0).val + (i 1).val / 1024, by rw [hN]; omega⟩
  obtain ⟨-, -, -, -, -, -, -, -, -, e30, e31, e32⟩ := idx0 t
  have ht : t.val = 8 * (i 0).val + (i 1).val / 1024 := rfl
  refine ⟨t, flush0_3 t, ?_⟩
  rw [mem_blk0]
  intro a
  match a with
  | ⟨0, _⟩ => show win0_3.index t 0 * 1 ≤ (i 0).val ∧ (i 0).val < win0_3.index t 0 * 1 + 1; rw [e30, ht]; omega
  | ⟨1, _⟩ => show win0_3.index t 1 * 1024 ≤ (i 1).val ∧ (i 1).val < win0_3.index t 1 * 1024 + 1024; rw [e31, ht]; omega
  | ⟨2, _⟩ => show win0_3.index t 2 * 1024 ≤ (i 2).val ∧ (i 2).val < win0_3.index t 2 * 1024 + 1024; rw [e32]; omega

/-- The result array of region 0 after its twenty-four points: the three linear layers, entry by entry. -/
theorem arrAt0_eq (c : Dev nD) :
    (dat0 V c).arrAt 3 cfg0.N = G0 (V c main_v6) (V c main_v14) (V c main_v19) :=
  (dat0 V c).arrAt_eq_of_cover 3 (G0 (V c main_v6) (V c main_v14) (V c main_v19)) (fun t _ => flushed0_eq V c t) cover0

theorem arrAt0_apply (c : Dev nD) (p : Fin 3) (i : Fin 8192) (f : Fin 1024) :
    (dat0 (F := Ideal) V c).arrAt 3 cfg0.N (ix3 p i f) = Cert.Attn.linAll (V c main_v6) (V c main_v14) (V c main_v19) p i f := by
  rw [arrAt0_eq]

end Cert.KernelIdeal.Hand

end
-- ==== Proof.Payload1.lean ====
/-
  The attention block computation read entry by entry, on the extended reals.

  From a block q : [256, 1024] of queries, the keys k and values v : [4096, 1024] and a mask block m : [256, 4096] of
  words, the body scales q entrywise by 2⁻⁵, contracts it with k along the feature axis, replaces the scores whose
  mask word is not zero by one finite fill value, takes each row's maximum (folded from −∞), subtracts it, exponentiates,
  sums each row, contracts the exponentials with v, and divides each row of the result by the row's sum. On the
  extended reals the format changes are the identity, so the entry (r, f) of the result is
  (∑ j, p_j · v[j,f]) / (∑ j, p_j) with p_j = exp (s_j − max s) and s the row's masked scores (`blockScore`).

  The file reads each operation that is not entrywise at explicit coordinates (the two products, the two row
  reductions, the column made of a vector and its broadcast along the rows), then the masked scores, the weights and
  the row sums, and last the whole body.
-/
import proofs.«142760_j50912542327462_2_alg».proof.Proof.Gen.KernelIdeal.Skeleton
import proofs.«142760_j50912542327462_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The operations that are not entrywise, at coordinates -/

/-- A vector viewed as a column reads, at (i, 0), the vector at i. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at (p, 0). -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "the word is not zero" is the `if` on that. -/
theorem select_cmpi_ne_zero {α : Type} (x : BitVec 32) (a b : α) :
    Scalar.select (IntOp.cmpi .ne x 0#32) a b = if x ≠ 0#32 then a else b := by
  by_cases h : x = 0#32
  · simp [Scalar.select, IntOp.cmpi, h]
  · have hne : (x != 0#32) = true := bne_iff_ne.mpr h
    simp [Scalar.select, IntOp.cmpi, h, hne]

/-- The maximum over the columns of a [256, 4096] array, folded from the f32 word of −∞, at row r. -/
theorem rowmax_apply (s : FVec Ideal S256x4096 .f32) (r : Fin 256) :
    multiReduction (F := Ideal) .maximumf [1] S256 s 0xFF800000#32 reduces_S256x4096_S256 (.inl rfl) rfl (ix1 r)
      = Cert.Attn.rowMax (fun j => s (ix2 r j)) := by
  refine (Ideal.multiReduction_maximumf_single s 0xFF800000#32 reduces_S256x4096_S256 (.inl rfl) rfl (ix1 r)).trans ?_
  have hb : (FloatOps.ofBits (F := Ideal) .f32 0xFF800000#32) = (⊥ : EReal) := by simp [Ideal.ofBits, Ideal.ieee]
  have hl : (s ∘ reduces_S256x4096_S256.lift (ix1 r)) = fun j : Fin 4096 => s (ix2 r j) :=
    funext fun j => congrArg s (funext fun ax => Fin.ext (by
      match ax with
      | ⟨0, _⟩ => rfl
      | ⟨1, _⟩ => rfl))
  rw [hb, hl]
  rfl

/-- The sum over the columns of a [256, 4096] array at row r. -/
theorem rowsum_apply (t : FVec Ideal S256x4096 .f32) (r : Fin 256) :
    multiReduction (F := Ideal) .add [1] S256 t 0x00000000#32 reduces_S256x4096_S256 (.inl rfl) rfl (ix1 r)
      = ∑ j : Fin 4096, t (ix2 r j) := by
  refine (Ideal.multiReduction_add_single t 0x00000000#32 reduces_S256x4096_S256 (.inl rfl) rfl (ix1 r)).trans ?_
  refine Finset.sum_congr rfl fun j _ => congrArg t (funext fun ax => Fin.ext (by
    match ax with
    | ⟨0, _⟩ => rfl
    | ⟨1, _⟩ => rfl))

/-! The operand indices of the two products, coordinate by coordinate. -/

theorem mmS_lhs0 (i : S256x4096.Idx) (k : dot_S256x1024_S4096x1024_S256x4096_1_1_0_0_n_n.contr.Idx) : (dot_S256x1024_S4096x1024_S256x4096_1_1_0_0_n_n.lhsIdx i k 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
theorem mmS_lhs1 (i : S256x4096.Idx) (k : dot_S256x1024_S4096x1024_S256x4096_1_1_0_0_n_n.contr.Idx) : (dot_S256x1024_S4096x1024_S256x4096_1_1_0_0_n_n.lhsIdx i k 1).val = (k ⟨0, by decide⟩).val :=
  dot_S256x1024_S4096x1024_S256x4096_1_1_0_0_n_n.lhsIdx_val_of_single rfl i k
theorem mmS_rhsN (i : S256x4096.Idx) (k : dot_S256x1024_S4096x1024_S256x4096_1_1_0_0_n_n.contr.Idx) : (dot_S256x1024_S4096x1024_S256x4096_1_1_0_0_n_n.rhsIdx i k 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl
theorem mmS_rhsC (i : S256x4096.Idx) (k : dot_S256x1024_S4096x1024_S256x4096_1_1_0_0_n_n.contr.Idx) : (dot_S256x1024_S4096x1024_S256x4096_1_1_0_0_n_n.rhsIdx i k 1).val = (k ⟨0, by decide⟩).val :=
  dot_S256x1024_S4096x1024_S256x4096_1_1_0_0_n_n.rhsIdx_val_of_single rfl i k

/-- A [256, 1024] × [4096, 1024] product contracting the two operands' columns, into a zero accumulator, at (p, q): the
    sum over e of a[p,e] · c[q,e]. -/
theorem mmS_apply (a : FVec Ideal S256x1024 .bf16) (c : FVec Ideal S4096x1024 .bf16) (p : Fin 256) (q : Fin 4096) :
    matmul dot_S256x1024_S4096x1024_S256x4096_1_1_0_0_n_n none a c (constant (F := Ideal) S256x4096 .f32 0x00000000#32) (ix2 p q)
      = ∑ e : Fin 1024, a (ix2 p e) * c (ix2 q e) := by
  refine (Ideal.matmul_constant_zero_apply dot_S256x1024_S4096x1024_S256x4096_1_1_0_0_n_n none a c (ix2 p q)).trans ?_
  rw [← Equiv.sum_comp (contrEquiv1 dot_S256x1024_S4096x1024_S256x4096_1_1_0_0_n_n 1024 rfl rfl).symm]
  refine Finset.sum_congr rfl fun e _ => ?_
  have hk := contrEquiv1_symm_val dot_S256x1024_S4096x1024_S256x4096_1_1_0_0_n_n 1024 rfl rfl e
  have el : dot_S256x1024_S4096x1024_S256x4096_1_1_0_0_n_n.lhsIdx (ix2 p q) ((contrEquiv1 dot_S256x1024_S4096x1024_S256x4096_1_1_0_0_n_n 1024 rfl rfl).symm e) = ix2 p e :=
    funext fun ax => Fin.ext (by
      match ax with
      | ⟨0, _⟩ => exact mmS_lhs0 _ _
      | ⟨1, _⟩ => exact (mmS_lhs1 _ _).trans hk)
  have er : dot_S256x1024_S4096x1024_S256x4096_1_1_0_0_n_n.rhsIdx (ix2 p q) ((contrEquiv1 dot_S256x1024_S4096x1024_S256x4096_1_1_0_0_n_n 1024 rfl rfl).symm e) = ix2 q e :=
    funext fun ax => Fin.ext (by
      match ax with
      | ⟨0, _⟩ => exact mmS_rhsN _ _
      | ⟨1, _⟩ => exact (mmS_rhsC _ _).trans hk)
  rw [el, er]

theorem mmV_lhs0 (i : S256x1024.Idx) (k : dot_S256x4096_S4096x1024_S256x1024_1_0_0_1_n_n.contr.Idx) : (dot_S256x4096_S4096x1024_S256x1024_1_0_0_1_n_n.lhsIdx i k 0).val = (i 0).val := by
  unfold DotDims.lhsIdx
  rw [dif_neg (show ¬(0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl
theorem mmV_lhs1 (i : S256x1024.Idx) (k : dot_S256x4096_S4096x1024_S256x1024_1_0_0_1_n_n.contr.Idx) : (dot_S256x4096_S4096x1024_S256x1024_1_0_0_1_n_n.lhsIdx i k 1).val = (k ⟨0, by decide⟩).val :=
  dot_S256x4096_S4096x1024_S256x1024_1_0_0_1_n_n.lhsIdx_val_of_single rfl i k
theorem mmV_rhsN (i : S256x1024.Idx) (k : dot_S256x4096_S4096x1024_S256x1024_1_0_0_1_n_n.contr.Idx) : (dot_S256x4096_S4096x1024_S256x1024_1_0_0_1_n_n.rhsIdx i k 1).val = (i 1).val := by
  unfold DotDims.rhsIdx
  rw [dif_neg (show ¬(1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl
theorem mmV_rhsC (i : S256x1024.Idx) (k : dot_S256x4096_S4096x1024_S256x1024_1_0_0_1_n_n.contr.Idx) : (dot_S256x4096_S4096x1024_S256x1024_1_0_0_1_n_n.rhsIdx i k 0).val = (k ⟨0, by decide⟩).val :=
  dot_S256x4096_S4096x1024_S256x1024_1_0_0_1_n_n.rhsIdx_val_of_single rfl i k

/-- A [256, 4096] × [4096, 1024] product contracting the left operand's columns with the right operand's rows, into a
    zero accumulator, at (p, q): the sum over e of a[p,e] · c[e,q]. -/
theorem mmV_apply (a : FVec Ideal S256x4096 .bf16) (c : FVec Ideal S4096x1024 .bf16) (p : Fin 256) (q : Fin 1024) :
    matmul dot_S256x4096_S4096x1024_S256x1024_1_0_0_1_n_n none a c (constant (F := Ideal) S256x1024 .f32 0x00000000#32) (ix2 p q)
      = ∑ e : Fin 4096, a (ix2 p e) * c (ix2 e q) := by
  refine (Ideal.matmul_constant_zero_apply dot_S256x4096_S4096x1024_S256x1024_1_0_0_1_n_n none a c (ix2 p q)).trans ?_
  rw [← Equiv.sum_comp (contrEquiv1 dot_S256x4096_S4096x1024_S256x1024_1_0_0_1_n_n 4096 rfl rfl).symm]
  refine Finset.sum_congr rfl fun e _ => ?_
  have hk := contrEquiv1_symm_val dot_S256x4096_S4096x1024_S256x1024_1_0_0_1_n_n 4096 rfl rfl e
  have el : dot_S256x4096_S4096x1024_S256x1024_1_0_0_1_n_n.lhsIdx (ix2 p q) ((contrEquiv1 dot_S256x4096_S4096x1024_S256x1024_1_0_0_1_n_n 4096 rfl rfl).symm e) = ix2 p e :=
    funext fun ax => Fin.ext (by
      match ax with
      | ⟨0, _⟩ => exact mmV_lhs0 _ _
      | ⟨1, _⟩ => exact (mmV_lhs1 _ _).trans hk)
  have er : dot_S256x4096_S4096x1024_S256x1024_1_0_0_1_n_n.rhsIdx (ix2 p q) ((contrEquiv1 dot_S256x4096_S4096x1024_S256x1024_1_0_0_1_n_n 4096 rfl rfl).symm e) = ix2 e q :=
    funext fun ax => Fin.ext (by
      match ax with
      | ⟨1, _⟩ => exact mmV_rhsN _ _
      | ⟨0, _⟩ => exact (mmV_rhsC _ _).trans hk)
  rw [el, er]

/-! ## The masked scores -/

/-- One row of scores as the body computes it from its blocks. -/
def blockScore (q : Vec Ideal S256x1024 .bf16) (k : Vec Ideal S4096x1024 .bf16) (m : Vec Ideal S256x4096 .i32) (r : Fin 256)
    (j : Fin 4096) : EReal :=
  if m (ix2 r j) ≠ 0#32 then Cert.Attn.fill else ∑ e : Fin 1024, (q (ix2 r e) * Cert.Attn.scale) * k (ix2 j e)

/-- The body's masked scores, as an array. -/
def scoresBlk (q : Vec Ideal S256x1024 .bf16) (k : Vec Ideal S4096x1024 .bf16) (m : Vec Ideal S256x4096 .i32) :
    FVec Ideal S256x4096 .f32 :=
  select (cmpi .ne m (constantI S256x4096 32 0#32)) (broadcast S256x4096 (Scalar.ofBits .f32 0xCE6E6B28#32 : Ideal .f32))
    (matmul (φ₁ := .bf16) (φ₂ := .bf16) dot_S256x1024_S4096x1024_S256x4096_1_1_0_0_n_n none
      (mulf (shapeCast S256x1024 q shapeCasts_S256x1024_S256x1024) (broadcast S256x1024 (Scalar.ofBits .bf16 0x3D00#16 : Ideal .bf16)))
      (shapeCast S4096x1024 k shapeCasts_S4096x1024_S4096x1024) (constant (F := Ideal) S256x4096 .f32 0x00000000#32))

theorem scoresBlk_apply (q : Vec Ideal S256x1024 .bf16) (k : Vec Ideal S4096x1024 .bf16) (m : Vec Ideal S256x4096 .i32)
    (r : Fin 256) (j : Fin 4096) : scoresBlk q k m (ix2 r j) = blockScore q k m r j := by
  unfold scoresBlk blockScore
  refine (select_apply _ _ _ _).trans ?_
  refine (select_cmpi_ne_zero (m (ix2 r j)) _ _).trans ?_
  refine congrArg (fun z : EReal => if m (ix2 r j) ≠ 0#32 then Cert.Attn.fill else z) ?_
  refine (mmS_apply _ _ r j).trans ?_
  refine Finset.sum_congr rfl fun e _ => ?_
  refine congrArg₂ (· * ·) ?_ (congrFun (shapeCast_self k shapeCasts_S4096x1024_S4096x1024) _)
  refine (mulf_apply _ _ _).trans ?_
  exact congrArg (· * Cert.Attn.scale) (congrFun (shapeCast_self q shapeCasts_S256x1024_S256x1024) _)

/-! ## The weights and their row sums, for any array of scores -/

/-- The row maxima of an array of scores, spread along the rows. -/
def maxCol (s : FVec Ideal S256x4096 .f32) : FVec Ideal S256x4096 .f32 :=
  broadcastTo S256x4096
    (shapeCast S256x1 (multiReduction (F := Ideal) .maximumf [1] S256 s 0xFF800000#32 reduces_S256x4096_S256 (.inl rfl) rfl)
      shapeCasts_S256_S256x1) broadcasts_S256x1_S256x4096

theorem maxCol_apply (s : FVec Ideal S256x4096 .f32) (r : Fin 256) (j : Fin 4096) :
    maxCol s (ix2 r j) = Cert.Attn.rowMax (fun j => s (ix2 r j)) :=
  ((broadcastTo_a1_ab_apply _ broadcasts_S256x1_S256x4096 r j).trans
    (shapeCast_a_a1_apply _ shapeCasts_S256_S256x1 r (0 : Fin 1))).trans (rowmax_apply s r)

/-- The exponentials of the scores less their row's maximum. -/
def wts (s : FVec Ideal S256x4096 .f32) : FVec Ideal S256x4096 .f32 := exp (subf s (maxCol s))

theorem wts_apply (s : FVec Ideal S256x4096 .f32) (r : Fin 256) (j : Fin 4096) :
    wts s (ix2 r j) = Cert.Attn.pexp (fun j => s (ix2 r j)) j := by
  show Ideal.exp (s (ix2 r j) - maxCol s (ix2 r j)) = _
  rw [maxCol_apply]
  rfl

/-- The row sums of the weights, spread along the rows of the result. -/
def sumCol (s : FVec Ideal S256x4096 .f32) : FVec Ideal S256x1024 .f32 :=
  broadcastTo S256x1024
    (shapeCast S256x1 (multiReduction (F := Ideal) .add [1] S256 (wts s) 0x00000000#32 reduces_S256x4096_S256 (.inl rfl) rfl)
      shapeCasts_S256_S256x1) broadcasts_S256x1_S256x1024

theorem sumCol_apply (s : FVec Ideal S256x4096 .f32) (r : Fin 256) (f : Fin 1024) :
    sumCol s (ix2 r f) = Cert.Attn.rowSum (fun j => s (ix2 r j)) := by
  refine ((broadcastTo_a1_ab_apply _ broadcasts_S256x1_S256x1024 r f).trans
    (shapeCast_a_a1_apply _ shapeCasts_S256_S256x1 r (0 : Fin 1))).trans ?_
  refine (rowsum_apply (wts s) r).trans ?_
  exact Finset.sum_congr rfl fun j _ => wts_apply s r j

/-- The weighted sum of the values divided by the row sum, for any array of scores, at (r, f). -/
theorem softmaxPV_apply (s : FVec Ideal S256x4096 .f32) (v : FVec Ideal S4096x1024 .bf16) (r : Fin 256) (f : Fin 1024) :
    divf (matmul (φ₁ := .bf16) (φ₂ := .bf16) dot_S256x4096_S4096x1024_S256x1024_1_0_0_1_n_n none (truncf .bf16 (wts s) bitsLt_bf16_f32)
        (shapeCast S4096x1024 v shapeCasts_S4096x1024_S4096x1024) (constant (F := Ideal) S256x1024 .f32 0x00000000#32))
      (sumCol s) (ix2 r f)
      = Ideal.div (∑ j : Fin 4096, Cert.Attn.pexp (fun j => s (ix2 r j)) j * v (ix2 j f))
          (Cert.Attn.rowSum (fun j => s (ix2 r j))) := by
  refine (divf_apply _ _ _).trans ?_
  refine congrArg₂ Ideal.div ?_ (sumCol_apply s r f)
  refine (mmV_apply _ _ r f).trans ?_
  refine Finset.sum_congr rfl fun j _ => ?_
  exact congrArg₂ (· * ·) (wts_apply s r j) (congrFun (shapeCast_self v shapeCasts_S4096x1024_S4096x1024) _)

/-! ## The whole body -/

/-- The body is the quotient above at its own masked scores. -/
theorem k1_pay1_eq (q : Vec Ideal S256x1024 .bf16) (k v : Vec Ideal S4096x1024 .bf16) (m : Vec Ideal S256x4096 .i32) :
    k1_pay1 (F := Ideal) q k v m
      = divf (matmul (φ₁ := .bf16) (φ₂ := .bf16) dot_S256x4096_S4096x1024_S256x1024_1_0_0_1_n_n none (truncf .bf16 (wts (scoresBlk q k m)) bitsLt_bf16_f32)
          (shapeCast S4096x1024 v shapeCasts_S4096x1024_S4096x1024) (constant (F := Ideal) S256x1024 .f32 0x00000000#32))
        (sumCol (scoresBlk q k m)) := rfl

/-- The attention block computation at (r, f). -/
theorem k1_pay1_apply (q : Vec Ideal S256x1024 .bf16) (k v : Vec Ideal S4096x1024 .bf16) (m : Vec Ideal S256x4096 .i32)
    (r : Fin 256) (f : Fin 1024) :
    k1_pay1 (F := Ideal) q k v m (ix2 r f)
      = Ideal.div (∑ j : Fin 4096, Cert.Attn.pexp (blockScore q k m r) j * v (ix2 j f))
          (Cert.Attn.rowSum (blockScore q k m r)) := by
  have hs : (fun j => scoresBlk q k m (ix2 r j)) = blockScore q k m r := funext fun j => scoresBlk_apply q k m r j
  refine (congrFun (k1_pay1_eq q k v m) _).trans ?_
  refine (softmaxPV_apply (scoresBlk q k m) v r f).trans ?_
  rw [hs]

end Cert.KernelIdeal.Pay

end
-- ==== Proof.KiArr1.lean ====
/-
  Region 1 of the program, from blocks to the array: one batch of attention on [4096, 1024] operands.

  The grid has sixteen points. At point t the query window holds rows 256·t … 256·t + 255 of q, the mask window the same
  rows of the mask, the key and value windows all of k and v, and the body's value on those blocks is written back to
  rows 256·t … 256·t + 255 of the result. The scores the body forms for row r' of its block are the scores of row
  256·t + r' of the whole arrays, so the written block is the block of one function of the whole arrays: entry (r, f)
  is (∑ j, p_j · v[j,f]) / (∑ j, p_j) with p the exponentials of row r's masked scores less their maximum. Row r lies in
  the block of point r / 256, so the sixteen blocks cover the result.
-/
import proofs.«142760_j50912542327462_2_alg».proof.Proof.KiDefs
import proofs.«142760_j50912542327462_2_alg».proof.Proof.Spec2
import proofs.«142760_j50912542327462_2_alg».proof.Proof.Payload1
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The whole result array of one batch of attention. -/
abbrev G1 (q k v : S4096x1024.Idx → EReal) (msk : S4096x4096.Idx → BitVec 32) : S4096x1024.Idx → EReal :=
  fun i => Cert.Attn.attnOne q k v msk (i 0) (i 1)

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The body's value on blocks that are rows 256·t … 256·t + 255 of q and of the mask, and all of k and v, is the
    attention of the whole arrays at row 256·t + r. -/
theorem point1 (q : Vec Ideal S256x1024 .bf16) (k v : Vec Ideal S4096x1024 .bf16) (m : Vec Ideal S256x4096 .i32)
    (Q K W : S4096x1024.Idx → EReal) (M : S4096x4096.Idx → BitVec 32) (t : ℕ)
    (hq : ∀ (x : S256x1024.Idx) (i : S4096x1024.Idx), (i 0).val = 256 * t + (x 0).val → (i 1).val = (x 1).val → q x = Q i)
    (hk : ∀ x : S4096x1024.Idx, k x = K x) (hv : ∀ x : S4096x1024.Idx, v x = W x)
    (hm : ∀ (x : S256x4096.Idx) (i : S4096x4096.Idx), (i 0).val = 256 * t + (x 0).val → (i 1).val = (x 1).val → m x = M i)
    (y : S256x1024.Idx) (R : Fin 4096) (hR : R.val = 256 * t + (y 0).val) :
    k1_pay1 (F := Ideal) q k v m y = Cert.Attn.attnOne Q K W M R (y 1) := by
  obtain ⟨r, f, rfl⟩ : ∃ (r : Fin 256) (f : Fin 1024), y = ix2 r f := ⟨y 0, y 1, eq_ix2 y⟩
  have hs : Pay.blockScore q k m r = Cert.Attn.rowScore Q K M R := by
    funext j
    unfold Pay.blockScore Cert.Attn.rowScore
    rw [hm (ix2 r j) (ix2 R j) hR rfl]
    refine if_congr Iff.rfl rfl ?_
    refine Finset.sum_congr rfl fun e _ => ?_
    rw [hq (ix2 r e) (ix2 R e) hR rfl, hk]
  rw [Pay.k1_pay1_apply, hs]
  unfold Cert.Attn.attnOne
  refine congrArg₂ Ideal.div ?_ rfl
  refine Finset.sum_congr rfl fun j _ => ?_
  rw [hv]

/-- Window 0's block at point t is rows 256·t … of q. -/
theorem iblk1_0_apply (c : Dev nD) (t : Fin cfg1.N) (x : S256x1024.Idx) (i : S4096x1024.Idx)
    (h0 : (i 0).val = 256 * t.val + (x 0).val) (h1 : (i 1).val = (x 1).val) :
    (iblk1 V c 0 t : Vec Ideal S256x1024 .bf16) x = (V c main_v31 : S4096x1024.Idx → EReal) i := by
  obtain ⟨e00, e01, -⟩ := idx1 t
  unfold iblk1
  rw [View.read_apply]
  show V c main_v31 _ = V c main_v31 _
  congr 1
  funext a
  apply Fin.ext
  match a with
  | ⟨0, _⟩ => show win1_0.index t 0 * 256 + 1 * (x 0).val = (i 0).val; rw [e00, h0]; omega
  | ⟨1, _⟩ => show win1_0.index t 1 * 1024 + 1 * (x 1).val = (i 1).val; rw [e01, h1]; omega

/-- Window 1's block at every point is all of k. -/
theorem iblk1_1_apply (c : Dev nD) (t : Fin cfg1.N) (x : S4096x1024.Idx) :
    (iblk1 V c 1 t : Vec Ideal S4096x1024 .bf16) x = (V c main_v33 : S4096x1024.Idx → EReal) x := by
  obtain ⟨-, -, e10, e11, -⟩ := idx1 t
  unfold iblk1
  rw [View.read_apply]
  show V c main_v33 _ = V c main_v33 _
  congr 1
  funext a
  apply Fin.ext
  match a with
  | ⟨0, _⟩ => show win1_1.index t 0 * 4096 + 1 * (x 0).val = (x 0).val; rw [e10]; omega
  | ⟨1, _⟩ => show win1_1.index t 1 * 1024 + 1 * (x 1).val = (x 1).val; rw [e11]; omega

/-- Window 2's block at every point is all of v. -/
theorem iblk1_2_apply (c : Dev nD) (t : Fin cfg1.N) (x : S4096x1024.Idx) :
    (iblk1 V c 2 t : Vec Ideal S4096x1024 .bf16) x = (V c main_v35 : S4096x1024.Idx → EReal) x := by
  obtain ⟨-, -, -, -, e20, e21, -⟩ := idx1 t
  unfold iblk1
  rw [View.read_apply]
  show V c main_v35 _ = V c main_v35 _
  congr 1
  funext a
  apply Fin.ext
  match a with
  | ⟨0, _⟩ => show win1_2.index t 0 * 4096 + 1 * (x 0).val = (x 0).val; rw [e20]; omega
  | ⟨1, _⟩ => show win1_2.index t 1 * 1024 + 1 * (x 1).val = (x 1).val; rw [e21]; omega

/-- Window 3's block at point t is rows 256·t … of the mask. -/
theorem iblk1_3_apply (c : Dev nD) (t : Fin cfg1.N) (x : S256x4096.Idx) (i : S4096x4096.Idx)
    (h0 : (i 0).val = 256 * t.val + (x 0).val) (h1 : (i 1).val = (x 1).val) :
    (iblk1 V c 3 t : Vec Ideal S256x4096 .i32) x = (V c main_v36 : S4096x4096.Idx → BitVec 32) i := by
  obtain ⟨-, -, -, -, -, -, e30, e31, -⟩ := idx1 t
  unfold iblk1
  rw [View.read_apply]
  show V c main_v36 _ = V c main_v36 _
  congr 1
  funext a
  apply Fin.ext
  match a with
  | ⟨0, _⟩ => show win1_3.index t 0 * 256 + 1 * (x 0).val = (i 0).val; rw [e30, h0]; omega
  | ⟨1, _⟩ => show win1_3.index t 1 * 4096 + 1 * (x 1).val = (i 1).val; rw [e31, h1]; omega

/-- What point t writes back is block t of the whole result. -/
theorem flushed1_eq (c : Dev nD) (t : Fin cfg1.N) :
    (dat1 V c).flushed 4 t = ((cfg1.win 4).blk t).view.read (Elt Ideal) (G1 (V c main_v31) (V c main_v33) (V c main_v35) (V c main_v36)) := by
  show (cfg1.win 4).cut (grid1.coords t) ((dat1 V c).after 4 t) = _
  rw [after1_4]
  unfold out1_4
  rw [View.canon_unit_zero hz1]
  simp only [View.ld_unit_zero (S := S256x1024) hz1, View.ld_unit_zero (S := S4096x1024) hz1, View.ld_unit_zero (S := S256x4096) hz1]
  obtain ⟨-, -, -, -, -, -, -, -, e40, e41⟩ := idx1 t
  funext j
  rw [View.read_apply]
  show k1_pay1 (F := Ideal) (iblk1 V c 0 t) (iblk1 V c 1 t) (iblk1 V c 2 t) (iblk1 V c 3 t) j
    = Cert.Attn.attnOne (V c main_v31) (V c main_v33) (V c main_v35) (V c main_v36) ((((cfg1.win 4).blk t).view.emb j) 0) ((((cfg1.win 4).blk t).view.emb j) 1)
  have hj1 : (((cfg1.win 4).blk t).view.emb j) 1 = (j 1 : Fin 1024) := by
    apply Fin.ext
    show win1_4.index t 1 * 1024 + 1 * (j 1).val = (j 1).val
    rw [e41]; omega
  rw [hj1]
  refine point1 _ _ _ _ _ _ _ _ t.val (iblk1_0_apply V c t) (iblk1_1_apply V c t) (iblk1_2_apply V c t) (iblk1_3_apply V c t) j _ ?_
  show win1_4.index t 0 * 256 + 1 * (j 0).val = 256 * t.val + (j 0).val
  rw [e40]; omega

/-- An index of the array is in point t's block iff each coordinate is in the block's range on its axis. -/
theorem mem_blk1 (t : Fin cfg1.N) (i : S4096x1024.Idx) :
    i ∈ ((cfg1.win 4).blk t).view.set ↔ ∀ a : Fin 2, win1_4.index t a * S256x1024.size a ≤ (i a).val ∧ (i a).val < win1_4.index t a * S256x1024.size a + S256x1024.size a := by
  show i ∈ ((View.whole main_v37).slice (win1_4.rect t)).set ↔ _
  rw [View.set_slice_whole, Rect.mem_set_unit]
  exact Iff.rfl

/-- Row r of the result is in the block of point r / 256. -/
theorem cover1 (i : S4096x1024.Idx) :
    ∃ t : Fin cfg1.N, (cfg1.win 4).flush t = true ∧ i ∈ ((cfg1.win 4).blk t).view.set := by
  have hi0 : (i 0).val < 4096 := (i 0).isLt
  have hi1 : (i 1).val < 1024 := (i 1).isLt
  have hN : cfg1.N = 16 := rfl
  let t : Fin cfg1.N := ⟨(i 0).val / 256, by rw [hN]; omega⟩
  obtain ⟨-, -, -, -, -, -, -, -, e40, e41⟩ := idx1 t
  have ht : t.val = (i 0).val / 256 := rfl
  refine ⟨t, flush1_4 t, ?_⟩
  rw [mem_blk1]
  intro a
  match a with
  | ⟨0, _⟩ => show win1_4.index t 0 * 256 ≤ (i 0).val ∧ (i 0).val < win1_4.index t 0 * 256 + 256; rw [e40, ht]; omega
  | ⟨1, _⟩ => show win1_4.index t 1 * 1024 ≤ (i 1).val ∧ (i 1).val < win1_4.index t 1 * 1024 + 1024; rw [e41]; omega

/-- The result array of region 1 after its sixteen points: one batch of attention, entry by entry. -/
theorem arrAt1_eq (c : Dev nD) :
    (dat1 V c).arrAt 4 cfg1.N = G1 (V c main_v31) (V c main_v33) (V c main_v35) (V c main_v36) :=
  (dat1 V c).arrAt_eq_of_cover 4 (G1 (V c main_v31) (V c main_v33) (V c main_v35) (V c main_v36)) (fun t _ => flushed1_eq V c t) cover1

theorem arrAt1_apply (c : Dev nD) (r : Fin 4096) (f : Fin 1024) :
    (dat1 (F := Ideal) V c).arrAt 4 cfg1.N (ix2 r f) = Cert.Attn.attnOne (V c main_v31) (V c main_v33) (V c main_v35) (V c main_v36) r f := by
  rw [arrAt1_eq]

end Cert.KernelIdeal.Hand

end
-- ==== Proof.Payload2.lean ====
/-
  The second attention block computation read entry by entry, on the extended reals.

  Its body is, operation for operation, the first one's: the entry (r, f) of the result is again
  (∑ j, p_j · v[j,f]) / (∑ j, p_j) with p_j = exp (s_j − max s) and s the row's masked scores. The operations read
  at coordinates, the masked scores, the weights and the row sums are those of the first body's file.
-/
import proofs.«142760_j50912542327462_2_alg».proof.Proof.Payload1

noncomputable section

open scoped BigOperators

namespace Cert.KernelIdeal.Pay

open Cert.KernelIdeal Cert.KernelIdeal.Gen Idealize.ShloMosaic Idealize.ShloMosaic.ValueIdx

/-- The body is the weighted sum of the values divided by the row sum, at its own masked scores. -/
theorem k2_pay1_eq (q : Vec Ideal S256x1024 .bf16) (k v : Vec Ideal S4096x1024 .bf16) (m : Vec Ideal S256x4096 .i32) :
    k2_pay1 (F := Ideal) q k v m
      = divf (matmul (φ₁ := .bf16) (φ₂ := .bf16) dot_S256x4096_S4096x1024_S256x1024_1_0_0_1_n_n none (truncf .bf16 (wts (scoresBlk q k m)) bitsLt_bf16_f32)
          (shapeCast S4096x1024 v shapeCasts_S4096x1024_S4096x1024) (constant (F := Ideal) S256x1024 .f32 0x00000000#32))
        (sumCol (scoresBlk q k m)) := rfl

/-- The attention block computation at (r, f). -/
theorem k2_pay1_apply (q : Vec Ideal S256x1024 .bf16) (k v : Vec Ideal S4096x1024 .bf16) (m : Vec Ideal S256x4096 .i32)
    (r : Fin 256) (f : Fin 1024) :
    k2_pay1 (F := Ideal) q k v m (ix2 r f)
      = Ideal.div (∑ j : Fin 4096, Cert.Attn.pexp (blockScore q k m r) j * v (ix2 j f))
          (Cert.Attn.rowSum (blockScore q k m r)) := by
  have hs : (fun j => scoresBlk q k m (ix2 r j)) = blockScore q k m r := funext fun j => scoresBlk_apply q k m r j
  refine (congrFun (k2_pay1_eq q k v m) _).trans ?_
  refine (softmaxPV_apply (scoresBlk q k m) v r f).trans ?_
  rw [hs]

end Cert.KernelIdeal.Pay

end
-- ==== Proof.KiArr2.lean ====
/-
  Region 2 of the program, from blocks to the array: one batch of attention on [4096, 1024] operands.

  The grid has sixteen points. At point t the query window holds rows 256·t … 256·t + 255 of q, the mask window the same
  rows of the mask, the key and value windows all of k and v, and the body's value on those blocks is written back to
  rows 256·t … 256·t + 255 of the result. The scores the body forms for row r' of its block are the scores of row
  256·t + r' of the whole arrays, so the written block is the block of one function of the whole arrays: entry (r, f)
  is (∑ j, p_j · v[j,f]) / (∑ j, p_j) with p the exponentials of row r's masked scores less their maximum. Row r lies in
  the block of point r / 256, so the sixteen blocks cover the result.
-/
import proofs.«142760_j50912542327462_2_alg».proof.Proof.KiDefs
import proofs.«142760_j50912542327462_2_alg».proof.Proof.Spec2
import proofs.«142760_j50912542327462_2_alg».proof.Proof.Payload2
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The whole result array of one batch of attention. -/
abbrev G2 (q k v : S4096x1024.Idx → EReal) (msk : S4096x4096.Idx → BitVec 32) : S4096x1024.Idx → EReal :=
  fun i => Cert.Attn.attnOne q k v msk (i 0) (i 1)

theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The body's value on blocks that are rows 256·t … 256·t + 255 of q and of the mask, and all of k and v, is the
    attention of the whole arrays at row 256·t + r. -/
theorem point2 (q : Vec Ideal S256x1024 .bf16) (k v : Vec Ideal S4096x1024 .bf16) (m : Vec Ideal S256x4096 .i32)
    (Q K W : S4096x1024.Idx → EReal) (M : S4096x4096.Idx → BitVec 32) (t : ℕ)
    (hq : ∀ (x : S256x1024.Idx) (i : S4096x1024.Idx), (i 0).val = 256 * t + (x 0).val → (i 1).val = (x 1).val → q x = Q i)
    (hk : ∀ x : S4096x1024.Idx, k x = K x) (hv : ∀ x : S4096x1024.Idx, v x = W x)
    (hm : ∀ (x : S256x4096.Idx) (i : S4096x4096.Idx), (i 0).val = 256 * t + (x 0).val → (i 1).val = (x 1).val → m x = M i)
    (y : S256x1024.Idx) (R : Fin 4096) (hR : R.val = 256 * t + (y 0).val) :
    k2_pay1 (F := Ideal) q k v m y = Cert.Attn.attnOne Q K W M R (y 1) := by
  obtain ⟨r, f, rfl⟩ : ∃ (r : Fin 256) (f : Fin 1024), y = ix2 r f := ⟨y 0, y 1, eq_ix2 y⟩
  have hs : Pay.blockScore q k m r = Cert.Attn.rowScore Q K M R := by
    funext j
    unfold Pay.blockScore Cert.Attn.rowScore
    rw [hm (ix2 r j) (ix2 R j) hR rfl]
    refine if_congr Iff.rfl rfl ?_
    refine Finset.sum_congr rfl fun e _ => ?_
    rw [hq (ix2 r e) (ix2 R e) hR rfl, hk]
  rw [Pay.k2_pay1_apply, hs]
  unfold Cert.Attn.attnOne
  refine congrArg₂ Ideal.div ?_ rfl
  refine Finset.sum_congr rfl fun j _ => ?_
  rw [hv]

/-- Window 0's block at point t is rows 256·t … of q. -/
theorem iblk2_0_apply (c : Dev nD) (t : Fin cfg2.N) (x : S256x1024.Idx) (i : S4096x1024.Idx)
    (h0 : (i 0).val = 256 * t.val + (x 0).val) (h1 : (i 1).val = (x 1).val) :
    (iblk2 V c 0 t : Vec Ideal S256x1024 .bf16) x = (V c main_v39 : S4096x1024.Idx → EReal) i := by
  obtain ⟨e00, e01, -⟩ := idx2 t
  unfold iblk2
  rw [View.read_apply]
  show V c main_v39 _ = V c main_v39 _
  congr 1
  funext a
  apply Fin.ext
  match a with
  | ⟨0, _⟩ => show win2_0.index t 0 * 256 + 1 * (x 0).val = (i 0).val; rw [e00, h0]; omega
  | ⟨1, _⟩ => show win2_0.index t 1 * 1024 + 1 * (x 1).val = (i 1).val; rw [e01, h1]; omega

/-- Window 1's block at every point is all of k. -/
theorem iblk2_1_apply (c : Dev nD) (t : Fin cfg2.N) (x : S4096x1024.Idx) :
    (iblk2 V c 1 t : Vec Ideal S4096x1024 .bf16) x = (V c main_v41 : S4096x1024.Idx → EReal) x := by
  obtain ⟨-, -, e10, e11, -⟩ := idx2 t
  unfold iblk2
  rw [View.read_apply]
  show V c main_v41 _ = V c main_v41 _
  congr 1
  funext a
  apply Fin.ext
  match a with
  | ⟨0, _⟩ => show win2_1.index t 0 * 4096 + 1 * (x 0).val = (x 0).val; rw [e10]; omega
  | ⟨1, _⟩ => show win2_1.index t 1 * 1024 + 1 * (x 1).val = (x 1).val; rw [e11]; omega

/-- Window 2's block at every point is all of v. -/
theorem iblk2_2_apply (c : Dev nD) (t : Fin cfg2.N) (x : S4096x1024.Idx) :
    (iblk2 V c 2 t : Vec Ideal S4096x1024 .bf16) x = (V c main_v43 : S4096x1024.Idx → EReal) x := by
  obtain ⟨-, -, -, -, e20, e21, -⟩ := idx2 t
  unfold iblk2
  rw [View.read_apply]
  show V c main_v43 _ = V c main_v43 _
  congr 1
  funext a
  apply Fin.ext
  match a with
  | ⟨0, _⟩ => show win2_2.index t 0 * 4096 + 1 * (x 0).val = (x 0).val; rw [e20]; omega
  | ⟨1, _⟩ => show win2_2.index t 1 * 1024 + 1 * (x 1).val = (x 1).val; rw [e21]; omega

/-- Window 3's block at point t is rows 256·t … of the mask. -/
theorem iblk2_3_apply (c : Dev nD) (t : Fin cfg2.N) (x : S256x4096.Idx) (i : S4096x4096.Idx)
    (h0 : (i 0).val = 256 * t.val + (x 0).val) (h1 : (i 1).val = (x 1).val) :
    (iblk2 V c 3 t : Vec Ideal S256x4096 .i32) x = (V c main_v44 : S4096x4096.Idx → BitVec 32) i := by
  obtain ⟨-, -, -, -, -, -, e30, e31, -⟩ := idx2 t
  unfold iblk2
  rw [View.read_apply]
  show V c main_v44 _ = V c main_v44 _
  congr 1
  funext a
  apply Fin.ext
  match a with
  | ⟨0, _⟩ => show win2_3.index t 0 * 256 + 1 * (x 0).val = (i 0).val; rw [e30, h0]; omega
  | ⟨1, _⟩ => show win2_3.index t 1 * 4096 + 1 * (x 1).val = (i 1).val; rw [e31, h1]; omega

/-- What point t writes back is block t of the whole result. -/
theorem flushed2_eq (c : Dev nD) (t : Fin cfg2.N) :
    (dat2 V c).flushed 4 t = ((cfg2.win 4).blk t).view.read (Elt Ideal) (G2 (V c main_v39) (V c main_v41) (V c main_v43) (V c main_v44)) := by
  show (cfg2.win 4).cut (grid2.coords t) ((dat2 V c).after 4 t) = _
  rw [after2_4]
  unfold out2_4
  rw [View.canon_unit_zero hz2]
  simp only [View.ld_unit_zero (S := S256x1024) hz2, View.ld_unit_zero (S := S4096x1024) hz2, View.ld_unit_zero (S := S256x4096) hz2]
  obtain ⟨-, -, -, -, -, -, -, -, e40, e41⟩ := idx2 t
  funext j
  rw [View.read_apply]
  show k2_pay1 (F := Ideal) (iblk2 V c 0 t) (iblk2 V c 1 t) (iblk2 V c 2 t) (iblk2 V c 3 t) j
    = Cert.Attn.attnOne (V c main_v39) (V c main_v41) (V c main_v43) (V c main_v44) ((((cfg2.win 4).blk t).view.emb j) 0) ((((cfg2.win 4).blk t).view.emb j) 1)
  have hj1 : (((cfg2.win 4).blk t).view.emb j) 1 = (j 1 : Fin 1024) := by
    apply Fin.ext
    show win2_4.index t 1 * 1024 + 1 * (j 1).val = (j 1).val
    rw [e41]; omega
  rw [hj1]
  refine point2 _ _ _ _ _ _ _ _ t.val (iblk2_0_apply V c t) (iblk2_1_apply V c t) (iblk2_2_apply V c t) (iblk2_3_apply V c t) j _ ?_
  show win2_4.index t 0 * 256 + 1 * (j 0).val = 256 * t.val + (j 0).val
  rw [e40]; omega

/-- An index of the array is in point t's block iff each coordinate is in the block's range on its axis. -/
theorem mem_blk2 (t : Fin cfg2.N) (i : S4096x1024.Idx) :
    i ∈ ((cfg2.win 4).blk t).view.set ↔ ∀ a : Fin 2, win2_4.index t a * S256x1024.size a ≤ (i a).val ∧ (i a).val < win2_4.index t a * S256x1024.size a + S256x1024.size a := by
  show i ∈ ((View.whole main_v45).slice (win2_4.rect t)).set ↔ _
  rw [View.set_slice_whole, Rect.mem_set_unit]
  exact Iff.rfl

/-- Row r of the result is in the block of point r / 256. -/
theorem cover2 (i : S4096x1024.Idx) :
    ∃ t : Fin cfg2.N, (cfg2.win 4).flush t = true ∧ i ∈ ((cfg2.win 4).blk t).view.set := by
  have hi0 : (i 0).val < 4096 := (i 0).isLt
  have hi1 : (i 1).val < 1024 := (i 1).isLt
  have hN : cfg2.N = 16 := rfl
  let t : Fin cfg2.N := ⟨(i 0).val / 256, by rw [hN]; omega⟩
  obtain ⟨-, -, -, -, -, -, -, -, e40, e41⟩ := idx2 t
  have ht : t.val = (i 0).val / 256 := rfl
  refine ⟨t, flush2_4 t, ?_⟩
  rw [mem_blk2]
  intro a
  match a with
  | ⟨0, _⟩ => show win2_4.index t 0 * 256 ≤ (i 0).val ∧ (i 0).val < win2_4.index t 0 * 256 + 256; rw [e40, ht]; omega
  | ⟨1, _⟩ => show win2_4.index t 1 * 1024 ≤ (i 1).val ∧ (i 1).val < win2_4.index t 1 * 1024 + 1024; rw [e41]; omega

/-- The result array of region 2 after its sixteen points: one batch of attention, entry by entry. -/
theorem arrAt2_eq (c : Dev nD) :
    (dat2 V c).arrAt 4 cfg2.N = G2 (V c main_v39) (V c main_v41) (V c main_v43) (V c main_v44) :=
  (dat2 V c).arrAt_eq_of_cover 4 (G2 (V c main_v39) (V c main_v41) (V c main_v43) (V c main_v44)) (fun t _ => flushed2_eq V c t) cover2

theorem arrAt2_apply (c : Dev nD) (r : Fin 4096) (f : Fin 1024) :
    (dat2 (F := Ideal) V c).arrAt 4 cfg2.N (ix2 r f) = Cert.Attn.attnOne (V c main_v39) (V c main_v41) (V c main_v43) (V c main_v44) r f := by
  rw [arrAt2_eq]

end Cert.KernelIdeal.Hand

end
-- ==== Proof.KiHost0.lean ====
/-
  The first stretch of host operations read at an index. The three activations [2, 4096, 1024] are flattened to
  [8192, 1024], given a leading unit axis and stacked: entry (p, n·4096 + s, e) of the stack is activation p's entry
  (n, s, e). The three weights [1024, 1024] are transposed, given a leading unit axis, stacked and narrowed (the
  identity on the extended reals): entry (p, e, f) of the stack is weight p's entry (f, e). The three biases [1024] are
  given a leading unit axis, stacked and reshaped to [3, 1, 1024]: entry (p, 0, f) is bias p's entry f.
-/
import proofs.«142760_j50912542327462_2_alg».proof.Proof.KiFold
import proofs.«142760_j50912542327462_2_alg».proof.Proof.Spec2
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

/-! ## A three-operand operation's result, each operand at its own buffer -/

/-- The result of an operation on a literal family of three buffers, with each operand's contents at its own
    buffer, so that the operands' contents can be rewritten further. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Read one buffer after a list of operations: each operation's result at its own buffer is its function's value,
    at any other buffer what was there before. -/
local macro "host_results" : tactic =>
  `(tactic| (simp only [StableHlo.after_cons, StableHlo.after_nil]
             repeat (first
               | rw [nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

/-! ## The three stacks as terms over the arguments -/

/-- The stacked activations. -/
theorem W1_v6_term : (W1 m ρ c (Proc.devRef .tc main_v6) : S3x8192x1024.Idx → EReal)
    = concatenate S3x8192x1024 0
        [⟨S1x8192x1024, broadcastInDim S1x8192x1024 ![1, 2] bcast_S8192x1024_S1x8192x1024_1_2
            (shapeCast S8192x1024 (m ((c : Thread nD τ).loc main_arg0) : S2x4096x1024.Idx → EReal) shapeCasts_S2x4096x1024_S8192x1024)⟩,
         ⟨S1x8192x1024, broadcastInDim S1x8192x1024 ![1, 2] bcast_S8192x1024_S1x8192x1024_1_2
            (shapeCast S8192x1024 (m ((c : Thread nD τ).loc main_arg1) : S2x4096x1024.Idx → EReal) shapeCasts_S2x4096x1024_S8192x1024)⟩,
         ⟨S1x8192x1024, broadcastInDim S1x8192x1024 ![1, 2] bcast_S8192x1024_S1x8192x1024_1_2
            (shapeCast S8192x1024 (m ((c : Thread nD τ).loc main_arg2) : S2x4096x1024.Idx → EReal) shapeCasts_S2x4096x1024_S8192x1024)⟩]
        concatenates_S1x8192x1024_S1x8192x1024_S1x8192x1024_S3x8192x1024_d0 := by
  dsimp only [W1, hostOps0]
  host_results
  rfl

set_option maxHeartbeats 2000000 in
/-- The stacked transposed weights, narrowed. -/
theorem W1_v14_term : (W1 m ρ c (Proc.devRef .tc main_v14) : S3x1024x1024.Idx → EReal)
    = truncf (F := Ideal) .bf16 (concatenate S3x1024x1024 0
        [⟨S1x1024x1024, broadcastInDim S1x1024x1024 ![1, 2] bcast_S1024x1024_S1x1024x1024_1_2
            (transpose S1024x1024 [1, 0] (m ((c : Thread nD τ).loc main_arg4) : S1024x1024.Idx → EReal) transposes_S1024x1024_S1024x1024_1_0)⟩,
         ⟨S1x1024x1024, broadcastInDim S1x1024x1024 ![1, 2] bcast_S1024x1024_S1x1024x1024_1_2
            (transpose S1024x1024 [1, 0] (m ((c : Thread nD τ).loc main_arg6) : S1024x1024.Idx → EReal) transposes_S1024x1024_S1024x1024_1_0)⟩,
         ⟨S1x1024x1024, broadcastInDim S1x1024x1024 ![1, 2] bcast_S1024x1024_S1x1024x1024_1_2
            (transpose S1024x1024 [1, 0] (m ((c : Thread nD τ).loc main_arg8) : S1024x1024.Idx → EReal) transposes_S1024x1024_S1024x1024_1_0)⟩]
        concatenates_S1x1024x1024_S1x1024x1024_S1x1024x1024_S3x1024x1024_d0) bitsLt_bf16_f32 := by
  dsimp only [W1, hostOps0]
  host_results
  rfl

set_option maxHeartbeats 2000000 in
/-- The stacked biases, reshaped. -/
theorem W1_v19_term : (W1 m ρ c (Proc.devRef .tc main_v19) : S3x1x1024.Idx → EReal)
    = shapeCast S3x1x1024 (concatenate S3x1024 0
        [⟨S1x1024, broadcastInDim S1x1024 ![1] bcast_S1024_S1x1024_1 (m ((c : Thread nD τ).loc main_arg5) : S1024.Idx → EReal)⟩,
         ⟨S1x1024, broadcastInDim S1x1024 ![1] bcast_S1024_S1x1024_1 (m ((c : Thread nD τ).loc main_arg7) : S1024.Idx → EReal)⟩,
         ⟨S1x1024, broadcastInDim S1x1024 ![1] bcast_S1024_S1x1024_1 (m ((c : Thread nD τ).loc main_arg9) : S1024.Idx → EReal)⟩]
        concatenates_S1x1024_S1x1024_S1x1024_S3x1024_d0) shapeCasts_S3x1024_S3x1x1024 := by
  dsimp only [W1, hostOps0]
  host_results
  rfl

/-! ## The layout operations at an index -/

section Layout
variable {α : Type}

/-- Three [1, a, b] arrays stacked along the leading axis: entry (p, i, j) is piece p's entry (0, i, j). -/
theorem concat3_ix3_apply {a b : ℕ} (x0 x1 x2 : (⟨3, ![1, a, b]⟩ : Shape).Idx → α)
    (h : Shape.Concatenates [(⟨3, ![1, a, b]⟩ : Shape), ⟨3, ![1, a, b]⟩, ⟨3, ![1, a, b]⟩] ⟨3, ![3, a, b]⟩ 0)
    (p : Fin 3) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 p i j)
      = Cert.Attn.pick3 p x0 x1 x2 (ix3 (0 : Fin 1) i j) := by
  unfold Cert.Attn.pick3
  rcases (by omega : p = 0 ∨ p = 1 ∨ p = 2) with rfl | rfl | rfl
  · rw [if_pos rfl]
    exact concatenate_apply_piece (0 : Fin (⟨3, ![3, a, b]⟩ : Shape).rank) [⟨⟨3, ![1, a, b]⟩, x0⟩, ⟨⟨3, ![1, a, b]⟩, x1⟩, ⟨⟨3, ![1, a, b]⟩, x2⟩] h
      (ix3 (0 : Fin 3) i j) 0 (by show 0 < 3; omega) ⟨3, ![1, a, b]⟩ x0 rfl rfl 0 rfl (ix3 (0 : Fin 1) i j)
      (fun d => match d with
        | ⟨0, _⟩ => fun h => absurd rfl h
        | ⟨1, _⟩ => fun _ => rfl
        | ⟨2, _⟩ => fun _ => rfl) rfl
  · rw [if_neg (by decide), if_pos rfl]
    exact concatenate_apply_piece (0 : Fin (⟨3, ![3, a, b]⟩ : Shape).rank) [⟨⟨3, ![1, a, b]⟩, x0⟩, ⟨⟨3, ![1, a, b]⟩, x1⟩, ⟨⟨3, ![1, a, b]⟩, x2⟩] h
      (ix3 (1 : Fin 3) i j) 1 (by show 1 < 3; omega) ⟨3, ![1, a, b]⟩ x1 rfl rfl 1 rfl (ix3 (0 : Fin 1) i j)
      (fun d => match d with
        | ⟨0, _⟩ => fun h => absurd rfl h
        | ⟨1, _⟩ => fun _ => rfl
        | ⟨2, _⟩ => fun _ => rfl) rfl
  · rw [if_neg (by decide), if_neg (by decide)]
    exact concatenate_apply_piece (0 : Fin (⟨3, ![3, a, b]⟩ : Shape).rank) [⟨⟨3, ![1, a, b]⟩, x0⟩, ⟨⟨3, ![1, a, b]⟩, x1⟩, ⟨⟨3, ![1, a, b]⟩, x2⟩] h
      (ix3 (2 : Fin 3) i j) 2 (by show 2 < 3; omega) ⟨3, ![1, a, b]⟩ x2 rfl rfl 2 rfl (ix3 (0 : Fin 1) i j)
      (fun d => match d with
        | ⟨0, _⟩ => fun h => absurd rfl h
        | ⟨1, _⟩ => fun _ => rfl
        | ⟨2, _⟩ => fun _ => rfl) rfl

/-- Three [1, b] arrays stacked along the leading axis: entry (p, j) is piece p's entry (0, j). -/
theorem concat3_ix2_apply {b : ℕ} (x0 x1 x2 : (⟨2, ![1, b]⟩ : Shape).Idx → α)
    (h : Shape.Concatenates [(⟨2, ![1, b]⟩ : Shape), ⟨2, ![1, b]⟩, ⟨2, ![1, b]⟩] ⟨2, ![3, b]⟩ 0)
    (p : Fin 3) (j : Fin b) :
    concatenate ⟨2, ![3, b]⟩ 0 [⟨⟨2, ![1, b]⟩, x0⟩, ⟨⟨2, ![1, b]⟩, x1⟩, ⟨⟨2, ![1, b]⟩, x2⟩] h (ix2 p j)
      = Cert.Attn.pick3 p x0 x1 x2 (ix2 (0 : Fin 1) j) := by
  unfold Cert.Attn.pick3
  rcases (by omega : p = 0 ∨ p = 1 ∨ p = 2) with rfl | rfl | rfl
  · rw [if_pos rfl]
    exact concatenate_apply_piece (0 : Fin (⟨2, ![3, b]⟩ : Shape).rank) [⟨⟨2, ![1, b]⟩, x0⟩, ⟨⟨2, ![1, b]⟩, x1⟩, ⟨⟨2, ![1, b]⟩, x2⟩] h
      (ix2 (0 : Fin 3) j) 0 (by show 0 < 3; omega) ⟨2, ![1, b]⟩ x0 rfl rfl 0 rfl (ix2 (0 : Fin 1) j)
      (fun d => match d with
        | ⟨0, _⟩ => fun h => absurd rfl h
        | ⟨1, _⟩ => fun _ => rfl) rfl
  · rw [if_neg (by decide), if_pos rfl]
    exact concatenate_apply_piece (0 : Fin (⟨2, ![3, b]⟩ : Shape).rank) [⟨⟨2, ![1, b]⟩, x0⟩, ⟨⟨2, ![1, b]⟩, x1⟩, ⟨⟨2, ![1, b]⟩, x2⟩] h
      (ix2 (1 : Fin 3) j) 1 (by show 1 < 3; omega) ⟨2, ![1, b]⟩ x1 rfl rfl 1 rfl (ix2 (0 : Fin 1) j)
      (fun d => match d with
        | ⟨0, _⟩ => fun h => absurd rfl h
        | ⟨1, _⟩ => fun _ => rfl) rfl
  · rw [if_neg (by decide), if_neg (by decide)]
    exact concatenate_apply_piece (0 : Fin (⟨2, ![3, b]⟩ : Shape).rank) [⟨⟨2, ![1, b]⟩, x0⟩, ⟨⟨2, ![1, b]⟩, x1⟩, ⟨⟨2, ![1, b]⟩, x2⟩] h
      (ix2 (2 : Fin 3) j) 2 (by show 2 < 3; omega) ⟨2, ![1, b]⟩ x2 rfl rfl 2 rfl (ix2 (0 : Fin 1) j)
      (fun d => match d with
        | ⟨0, _⟩ => fun h => absurd rfl h
        | ⟨1, _⟩ => fun _ => rfl) rfl

/-- An [a, b] array given a leading unit axis reads, at (0, i, j), its entry (i, j). -/
theorem bcast_ab_1ab_apply {a b : ℕ} (x : (⟨2, ![a, b]⟩ : Shape).Idx → α)
    (h : (⟨2, ![a, b]⟩ : Shape).BroadcastsInDim ⟨3, ![1, a, b]⟩ (![1, 2] : Fin 2 → Fin 3)) (i : Fin a) (j : Fin b) :
    broadcastInDim ⟨3, ![1, a, b]⟩ ![1, 2] h x (ix3 (0 : Fin 1) i j) = x (ix2 i j) :=
  broadcastInDim_apply _ h x _ _ fun d => match d with
    | ⟨0, _⟩ => by
      show i.val = if a = 1 then 0 else i.val
      by_cases h1 : a = 1
      · rw [if_pos h1]; have := i.isLt; omega
      · rw [if_neg h1]
    | ⟨1, _⟩ => by
      show j.val = if b = 1 then 0 else j.val
      by_cases h1 : b = 1
      · rw [if_pos h1]; have := j.isLt; omega
      · rw [if_neg h1]

/-- A [b] array given a leading unit axis reads, at (0, j), its entry j. -/
theorem bcast_b_1b_apply {b : ℕ} (x : (⟨1, ![b]⟩ : Shape).Idx → α)
    (h : (⟨1, ![b]⟩ : Shape).BroadcastsInDim ⟨2, ![1, b]⟩ (![1] : Fin 1 → Fin 2)) (j : Fin b) :
    broadcastInDim ⟨2, ![1, b]⟩ ![1] h x (ix2 (0 : Fin 1) j) = x (ix1 j) :=
  broadcastInDim_apply _ h x _ _ fun d => match d with
    | ⟨0, _⟩ => by
      show j.val = if b = 1 then 0 else j.val
      by_cases h1 : b = 1
      · rw [if_pos h1]; have := j.isLt; omega
      · rw [if_neg h1]

/-- A [2, 4096, 1024] array flattened to [8192, 1024] reads, at (n·4096 + s, e), its entry (n, s, e). -/
theorem shapeCast_flat_apply (x : S2x4096x1024.Idx → α) (n : Fin 2) (s : Fin 4096) (e : Fin 1024)
    (hlt : n.val * 4096 + s.val < 8192) :
    shapeCast S8192x1024 x shapeCasts_S2x4096x1024_S8192x1024 (ix2 (⟨n.val * 4096 + s.val, hlt⟩ : Fin 8192) e) = x (ix3 n s e) :=
  shapeCast_apply x shapeCasts_S2x4096x1024_S8192x1024 _ _ (by
    rw [Shape.rowMajor_val_three, Shape.rowMajor_val_two]
    show (n.val * 4096 + s.val) * 1024 + e.val = (n.val * 4096 + s.val) * 1024 + e.val
    rfl)

/-- A [3, 1024] array reshaped to [3, 1, 1024] reads, at (p, 0, f), its entry (p, f). -/
theorem shapeCast_mid_unit_apply (x : S3x1024.Idx → α) (p : Fin 3) (f : Fin 1024) :
    shapeCast S3x1x1024 x shapeCasts_S3x1024_S3x1x1024 (ix3 p (0 : Fin 1) f) = x (ix2 p f) :=
  shapeCast_apply x shapeCasts_S3x1024_S3x1x1024 _ _ (by
    rw [Shape.rowMajor_val_three, Shape.rowMajor_val_two]
    show p.val * 1024 + f.val = (p.val * 1 + 0) * 1024 + f.val
    rw [Nat.mul_one, Nat.add_zero])

end Layout

/-- `pick3` of three functions, applied: `pick3` of the three values. -/
theorem pick3_apply {α β : Type} (p : Fin 3) (f0 f1 f2 : α → β) (x : α) :
    Cert.Attn.pick3 p f0 f1 f2 x = Cert.Attn.pick3 p (f0 x) (f1 x) (f2 x) := by
  unfold Cert.Attn.pick3; split_ifs <;> rfl

/-! ## The three stacks at an index -/

/-- Entry (p, n·4096 + s, e) of the stacked activations is activation p's entry (n, s, e). -/
theorem W1_v6 (p : Fin 3) (n : Fin 2) (s : Fin 4096) (e : Fin 1024) :
    (W1 m ρ c (Proc.devRef .tc main_v6) : S3x8192x1024.Idx → EReal) (ix3 p (⟨n.val * 4096 + s.val, by omega⟩ : Fin 8192) e)
      = Cert.Attn.pick3 p (m ((c : Thread nD τ).loc main_arg0) : S2x4096x1024.Idx → EReal) (m ((c : Thread nD τ).loc main_arg1) : S2x4096x1024.Idx → EReal) (m ((c : Thread nD τ).loc main_arg2) : S2x4096x1024.Idx → EReal) (ix3 n s e) := by
  rw [W1_v6_term, concat3_ix3_apply, pick3_apply, bcast_ab_1ab_apply, bcast_ab_1ab_apply, bcast_ab_1ab_apply,
    shapeCast_flat_apply, shapeCast_flat_apply, shapeCast_flat_apply, ← pick3_apply]

/-- Entry (p, e, f) of the stacked weights is weight p's entry (f, e). -/
theorem W1_v14 (p : Fin 3) (e f : Fin 1024) :
    (W1 m ρ c (Proc.devRef .tc main_v14) : S3x1024x1024.Idx → EReal) (ix3 p e f)
      = Cert.Attn.pick3 p (m ((c : Thread nD τ).loc main_arg4) : S1024x1024.Idx → EReal) (m ((c : Thread nD τ).loc main_arg6) : S1024x1024.Idx → EReal) (m ((c : Thread nD τ).loc main_arg8) : S1024x1024.Idx → EReal) (ix2 f e) := by
  rw [W1_v14_term, truncf_apply, concat3_ix3_apply, pick3_apply, bcast_ab_1ab_apply, bcast_ab_1ab_apply, bcast_ab_1ab_apply,
    transpose_ix2_apply, transpose_ix2_apply, transpose_ix2_apply, ← pick3_apply]

/-- Entry (p, 0, f) of the stacked biases is bias p's entry f. -/
theorem W1_v19 (p : Fin 3) (f : Fin 1024) :
    (W1 m ρ c (Proc.devRef .tc main_v19) : S3x1x1024.Idx → EReal) (ix3 p (0 : Fin 1) f)
      = Cert.Attn.pick3 p (m ((c : Thread nD τ).loc main_arg5) : S1024.Idx → EReal) (m ((c : Thread nD τ).loc main_arg7) : S1024.Idx → EReal) (m ((c : Thread nD τ).loc main_arg9) : S1024.Idx → EReal) (ix1 f) := by
  rw [W1_v19_term, shapeCast_mid_unit_apply, concat3_ix2_apply, pick3_apply, bcast_b_1b_apply, bcast_b_1b_apply, bcast_b_1b_apply,
    ← pick3_apply]

end Cert.KernelIdeal.Hand

end
-- ==== Proof.KiHost1.lean ====
/-
  The second stretch of host operations read at an index. The first region leaves the three projections stacked as one
  [3, 8192, 1024] array. The stretch cuts projection p out (a slab of the leading axis), regroups its 8192 rows as
  [2, 4096] (row n · 4096 + s is batch n's row s), cuts batch 0 out and drops the unit axis: entry (s, e) of the
  result is the stack's entry (p, s, e). The one-bit mask argument, written by nothing so far, is widened to 32 bits
  entry by entry.
-/
import proofs.«142760_j50912542327462_2_alg».proof.Proof.KiFold
import proofs.«142760_j50912542327462_2_alg».proof.Proof.Spec2
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

section Reads
variable {α : Type}

/-- A rank-3 array cut to one slab along the leading axis reads, at (0, i, e), the source at (o, i, e). -/
theorem slab_apply {n0 n1 n2 : Nat} (o : Nat) (X : (⟨3, ![n0, n1, n2]⟩ : Shape).Idx → α)
    (h : (⟨3, ![n0, n1, n2]⟩ : Shape).Slices ![o, 0, 0] ⟨3, ![1, n1, n2]⟩) (ho : o < n0) (i : Fin n1) (e : Fin n2) :
    extractStridedSlice ⟨3, ![1, n1, n2]⟩ ![o, 0, 0] X h (ix3 (0 : Fin 1) i e) = X (ix3 ⟨o, ho⟩ i e) :=
  extractStridedSlice_apply _ X h _ _ fun a => match a with
    | ⟨0, _⟩ => by show o = o + 0; rfl
    | ⟨1, _⟩ => by show i.val = 0 + i.val; omega
    | ⟨2, _⟩ => by show e.val = 0 + e.val; omega

/-- An [8192, 1024] array cast to [2, 4096, 1024] reads, at (n, s, e), the operand at row n · 4096 + s. -/
theorem split_rows_apply (Z : S8192x1024.Idx → α) (n : Fin 2) (s : Fin 4096) (e : Fin 1024) (i : Fin 8192)
    (hi : i.val = n.val * 4096 + s.val) :
    shapeCast S2x4096x1024 Z shapeCasts_S8192x1024_S2x4096x1024 (ix3 n s e) = Z (ix2 i e) :=
  shapeCast_apply Z _ _ _ (by
    rw [Shape.rowMajor_val_three, Shape.rowMajor_val_two]
    show i.val * 1024 + e.val = (n.val * 4096 + s.val) * 1024 + e.val
    rw [hi])

/-- One of the three stacked projections, cut out, regrouped by batch, and one batch cut out: entry (s, e) of batch b
    of projection o is the stack's entry (o, b · 4096 + s, e). -/
theorem batch_read (X : S3x8192x1024.Idx → α) (o : Nat) (ho : o < 3)
    (h1 : S3x8192x1024.Slices ![o, 0, 0] S1x8192x1024) (b : Nat) (hb : b < 2)
    (h2 : S2x4096x1024.Slices ![b, 0, 0] S1x4096x1024) (s : Fin 4096) (e : Fin 1024) (i : Fin 8192)
    (hi : i.val = b * 4096 + s.val) :
    shapeCast S4096x1024 (extractStridedSlice S1x4096x1024 ![b, 0, 0]
        (shapeCast S2x4096x1024 (shapeCast S8192x1024 (extractStridedSlice S1x8192x1024 ![o, 0, 0] X h1)
          shapeCasts_S1x8192x1024_S8192x1024) shapeCasts_S8192x1024_S2x4096x1024)
        h2) shapeCasts_S1x4096x1024_S4096x1024 (ix2 s e) = X (ix3 (⟨o, ho⟩ : Fin 3) i e) := by
  refine (shapeCast_1ab_ab_apply _ shapeCasts_S1x4096x1024_S4096x1024 s e).trans ?_
  refine (slab_apply b _ h2 hb s e).trans ?_
  refine (split_rows_apply _ ⟨b, hb⟩ s e i hi).trans ?_
  refine (shapeCast_1ab_ab_apply _ shapeCasts_S1x8192x1024_S8192x1024 i e).trans ?_
  exact slab_apply o X h1 ho i e

end Reads

theorem W3_v31_term : (W3 m ρ c (Proc.devRef .tc main_v31) : S4096x1024.Idx → EReal)
    = shapeCast S4096x1024 (extractStridedSlice S1x4096x1024 ![0, 0, 0]
        (shapeCast S2x4096x1024 (shapeCast S8192x1024
          (extractStridedSlice S1x8192x1024 ![0, 0, 0] (W2 m ρ c (Proc.devRef .tc main_v20) : S3x8192x1024.Idx → EReal)
            slices_S3x8192x1024_S1x8192x1024_0_0_0)
          shapeCasts_S1x8192x1024_S8192x1024) shapeCasts_S8192x1024_S2x4096x1024)
        slices_S2x4096x1024_S1x4096x1024_0_0_0) shapeCasts_S1x4096x1024_S4096x1024 := by
  dsimp only [W3, hostOps1]
  after_results
  rfl

theorem W3_v33_term : (W3 m ρ c (Proc.devRef .tc main_v33) : S4096x1024.Idx → EReal)
    = shapeCast S4096x1024 (extractStridedSlice S1x4096x1024 ![0, 0, 0]
        (shapeCast S2x4096x1024 (shapeCast S8192x1024
          (extractStridedSlice S1x8192x1024 ![1, 0, 0] (W2 m ρ c (Proc.devRef .tc main_v20) : S3x8192x1024.Idx → EReal)
            slices_S3x8192x1024_S1x8192x1024_1_0_0)
          shapeCasts_S1x8192x1024_S8192x1024) shapeCasts_S8192x1024_S2x4096x1024)
        slices_S2x4096x1024_S1x4096x1024_0_0_0) shapeCasts_S1x4096x1024_S4096x1024 := by
  dsimp only [W3, hostOps1]
  after_results
  rfl

theorem W3_v35_term : (W3 m ρ c (Proc.devRef .tc main_v35) : S4096x1024.Idx → EReal)
    = shapeCast S4096x1024 (extractStridedSlice S1x4096x1024 ![0, 0, 0]
        (shapeCast S2x4096x1024 (shapeCast S8192x1024
          (extractStridedSlice S1x8192x1024 ![2, 0, 0] (W2 m ρ c (Proc.devRef .tc main_v20) : S3x8192x1024.Idx → EReal)
            slices_S3x8192x1024_S1x8192x1024_2_0_0)
          shapeCasts_S1x8192x1024_S8192x1024) shapeCasts_S8192x1024_S2x4096x1024)
        slices_S2x4096x1024_S1x4096x1024_0_0_0) shapeCasts_S1x4096x1024_S4096x1024 := by
  dsimp only [W3, hostOps1]
  after_results
  rfl

/-- The mask argument is written by nothing up to the second stretch. -/
theorem W2_arg3 : W2 m ρ c (Proc.devRef .tc main_arg3) = m ((c : Thread nD τ).loc main_arg3) :=
  (W2_of_ne m ρ c main_arg3 (by decide)).trans
    (StableHlo.after_of_writes_sub hostOps0 _ hostOps0_writes (by decide))

theorem W3_v36_term : (W3 m ρ c (Proc.devRef .tc main_v36) : S4096x4096.Idx → BitVec 32)
    = extui 32 (W2 m ρ c (Proc.devRef .tc main_arg3) : S4096x4096.Idx → BitVec 1) natLt_1_32 := by
  dsimp only [W3, hostOps1]
  after_results

/-- Region 1's first operand: the first batch of the first projection. -/
theorem W3_v31 (s : Fin 4096) (e : Fin 1024) :
    (W3 m ρ c (Proc.devRef .tc main_v31) : S4096x1024.Idx → EReal) (ix2 s e)
      = (W2 m ρ c (Proc.devRef .tc main_v20) : S3x8192x1024.Idx → EReal) (ix3 (0 : Fin 3) ⟨s.val, by omega⟩ e) := by
  rw [W3_v31_term]
  exact batch_read _ 0 (by omega) slices_S3x8192x1024_S1x8192x1024_0_0_0 0 (by omega)
    slices_S2x4096x1024_S1x4096x1024_0_0_0 s e ⟨s.val, by omega⟩ (by show s.val = 0 * 4096 + s.val; omega)

/-- Region 1's second operand: the first batch of the second projection. -/
theorem W3_v33 (s : Fin 4096) (e : Fin 1024) :
    (W3 m ρ c (Proc.devRef .tc main_v33) : S4096x1024.Idx → EReal) (ix2 s e)
      = (W2 m ρ c (Proc.devRef .tc main_v20) : S3x8192x1024.Idx → EReal) (ix3 (1 : Fin 3) ⟨s.val, by omega⟩ e) := by
  rw [W3_v33_term]
  exact batch_read _ 1 (by omega) slices_S3x8192x1024_S1x8192x1024_1_0_0 0 (by omega)
    slices_S2x4096x1024_S1x4096x1024_0_0_0 s e ⟨s.val, by omega⟩ (by show s.val = 0 * 4096 + s.val; omega)

/-- Region 1's third operand: the first batch of the third projection. -/
theorem W3_v35 (s : Fin 4096) (e : Fin 1024) :
    (W3 m ρ c (Proc.devRef .tc main_v35) : S4096x1024.Idx → EReal) (ix2 s e)
      = (W2 m ρ c (Proc.devRef .tc main_v20) : S3x8192x1024.Idx → EReal) (ix3 (2 : Fin 3) ⟨s.val, by omega⟩ e) := by
  rw [W3_v35_term]
  exact batch_read _ 2 (by omega) slices_S3x8192x1024_S1x8192x1024_2_0_0 0 (by omega)
    slices_S2x4096x1024_S1x4096x1024_0_0_0 s e ⟨s.val, by omega⟩ (by show s.val = 0 * 4096 + s.val; omega)

/-- Region 1's mask operand: the one-bit mask argument widened to 32 bits. -/
theorem W3_v36 (r j : Fin 4096) :
    (W3 m ρ c (Proc.devRef .tc main_v36) : S4096x4096.Idx → BitVec 32) (ix2 r j)
      = ((m ((c : Thread nD τ).loc main_arg3) : S4096x4096.Idx → BitVec 1) (ix2 r j)).setWidth 32 := by
  rw [W3_v36_term, W2_arg3]
  rfl

end Cert.KernelIdeal.Hand

end
-- ==== Proof.KiHost2.lean ====
/-
  The third stretch of host operations read at an index. Each projection, regrouped as [2, 4096, 1024] by the second
  stretch and left alone by the second region, has its batch 1 cut out and the unit axis dropped: entry (s, e) of the
  result is the stack's entry (p, 4096 + s, e). The mask argument, still unwritten, is widened to 32 bits again.
-/
import proofs.«142760_j50912542327462_2_alg».proof.Proof.KiFold
import proofs.«142760_j50912542327462_2_alg».proof.Proof.Spec2
import proofs.«142760_j50912542327462_2_alg».proof.Proof.KiHost1
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

theorem W3_v23_term : (W3 m ρ c (Proc.devRef .tc main_v23) : S2x4096x1024.Idx → EReal)
    = shapeCast S2x4096x1024 (shapeCast S8192x1024
          (extractStridedSlice S1x8192x1024 ![0, 0, 0] (W2 m ρ c (Proc.devRef .tc main_v20) : S3x8192x1024.Idx → EReal)
            slices_S3x8192x1024_S1x8192x1024_0_0_0)
          shapeCasts_S1x8192x1024_S8192x1024) shapeCasts_S8192x1024_S2x4096x1024 := by
  dsimp only [W3, hostOps1]
  after_results
  rfl

theorem W5_v39_term : (W5 m ρ c (Proc.devRef .tc main_v39) : S4096x1024.Idx → EReal)
    = shapeCast S4096x1024 (extractStridedSlice S1x4096x1024 ![1, 0, 0]
        (W4 m ρ c (Proc.devRef .tc main_v23) : S2x4096x1024.Idx → EReal)
        slices_S2x4096x1024_S1x4096x1024_1_0_0) shapeCasts_S1x4096x1024_S4096x1024 := by
  dsimp only [W5, hostOps2]
  after_results
  rfl

/-- Region 2's first operand: the second batch of the first projection. -/
theorem W5_v39 (s : Fin 4096) (e : Fin 1024) :
    (W5 m ρ c (Proc.devRef .tc main_v39) : S4096x1024.Idx → EReal) (ix2 s e)
      = (W2 m ρ c (Proc.devRef .tc main_v20) : S3x8192x1024.Idx → EReal) (ix3 (0 : Fin 3) ⟨4096 + s.val, by omega⟩ e) := by
  rw [W5_v39_term, W4_of_ne m ρ c main_v23 (by decide), W3_v23_term]
  exact batch_read _ 0 (by omega) slices_S3x8192x1024_S1x8192x1024_0_0_0 1 (by omega)
    slices_S2x4096x1024_S1x4096x1024_1_0_0 s e ⟨4096 + s.val, by omega⟩ (by show 4096 + s.val = 1 * 4096 + s.val; omega)

theorem W3_v26_term : (W3 m ρ c (Proc.devRef .tc main_v26) : S2x4096x1024.Idx → EReal)
    = shapeCast S2x4096x1024 (shapeCast S8192x1024
          (extractStridedSlice S1x8192x1024 ![1, 0, 0] (W2 m ρ c (Proc.devRef .tc main_v20) : S3x8192x1024.Idx → EReal)
            slices_S3x8192x1024_S1x8192x1024_1_0_0)
          shapeCasts_S1x8192x1024_S8192x1024) shapeCasts_S8192x1024_S2x4096x1024 := by
  dsimp only [W3, hostOps1]
  after_results
  rfl

theorem W5_v41_term : (W5 m ρ c (Proc.devRef .tc main_v41) : S4096x1024.Idx → EReal)
    = shapeCast S4096x1024 (extractStridedSlice S1x4096x1024 ![1, 0, 0]
        (W4 m ρ c (Proc.devRef .tc main_v26) : S2x4096x1024.Idx → EReal)
        slices_S2x4096x1024_S1x4096x1024_1_0_0) shapeCasts_S1x4096x1024_S4096x1024 := by
  dsimp only [W5, hostOps2]
  after_results
  rfl

/-- Region 2's second operand: the second batch of the second projection. -/
theorem W5_v41 (s : Fin 4096) (e : Fin 1024) :
    (W5 m ρ c (Proc.devRef .tc main_v41) : S4096x1024.Idx → EReal) (ix2 s e)
      = (W2 m ρ c (Proc.devRef .tc main_v20) : S3x8192x1024.Idx → EReal) (ix3 (1 : Fin 3) ⟨4096 + s.val, by omega⟩ e) := by
  rw [W5_v41_term, W4_of_ne m ρ c main_v26 (by decide), W3_v26_term]
  exact batch_read _ 1 (by omega) slices_S3x8192x1024_S1x8192x1024_1_0_0 1 (by omega)
    slices_S2x4096x1024_S1x4096x1024_1_0_0 s e ⟨4096 + s.val, by omega⟩ (by show 4096 + s.val = 1 * 4096 + s.val; omega)

theorem W3_v29_term : (W3 m ρ c (Proc.devRef .tc main_v29) : S2x4096x1024.Idx → EReal)
    = shapeCast S2x4096x1024 (shapeCast S8192x1024
          (extractStridedSlice S1x8192x1024 ![2, 0, 0] (W2 m ρ c (Proc.devRef .tc main_v20) : S3x8192x1024.Idx → EReal)
            slices_S3x8192x1024_S1x8192x1024_2_0_0)
          shapeCasts_S1x8192x1024_S8192x1024) shapeCasts_S8192x1024_S2x4096x1024 := by
  dsimp only [W3, hostOps1]
  after_results
  rfl

theorem W5_v43_term : (W5 m ρ c (Proc.devRef .tc main_v43) : S4096x1024.Idx → EReal)
    = shapeCast S4096x1024 (extractStridedSlice S1x4096x1024 ![1, 0, 0]
        (W4 m ρ c (Proc.devRef .tc main_v29) : S2x4096x1024.Idx → EReal)
        slices_S2x4096x1024_S1x4096x1024_1_0_0) shapeCasts_S1x4096x1024_S4096x1024 := by
  dsimp only [W5, hostOps2]
  after_results
  rfl

/-- Region 2's third operand: the second batch of the third projection. -/
theorem W5_v43 (s : Fin 4096) (e : Fin 1024) :
    (W5 m ρ c (Proc.devRef .tc main_v43) : S4096x1024.Idx → EReal) (ix2 s e)
      = (W2 m ρ c (Proc.devRef .tc main_v20) : S3x8192x1024.Idx → EReal) (ix3 (2 : Fin 3) ⟨4096 + s.val, by omega⟩ e) := by
  rw [W5_v43_term, W4_of_ne m ρ c main_v29 (by decide), W3_v29_term]
  exact batch_read _ 2 (by omega) slices_S3x8192x1024_S1x8192x1024_2_0_0 1 (by omega)
    slices_S2x4096x1024_S1x4096x1024_1_0_0 s e ⟨4096 + s.val, by omega⟩ (by show 4096 + s.val = 1 * 4096 + s.val; omega)

/-- The mask argument is written by nothing up to the third stretch. -/
theorem W4_arg3 : W4 m ρ c (Proc.devRef .tc main_arg3) = m ((c : Thread nD τ).loc main_arg3) :=
  (W4_of_ne m ρ c main_arg3 (by decide)).trans
    ((StableHlo.after_of_writes_sub hostOps1 _ hostOps1_writes (by decide)).trans (W2_arg3 m ρ c))

theorem W5_v44_term : (W5 m ρ c (Proc.devRef .tc main_v44) : S4096x4096.Idx → BitVec 32)
    = extui 32 (W4 m ρ c (Proc.devRef .tc main_arg3) : S4096x4096.Idx → BitVec 1) natLt_1_32 := by
  dsimp only [W5, hostOps2]
  after_results

/-- Region 2's mask operand: the one-bit mask argument widened to 32 bits. -/
theorem W5_v44 (r j : Fin 4096) :
    (W5 m ρ c (Proc.devRef .tc main_v44) : S4096x4096.Idx → BitVec 32) (ix2 r j)
      = ((m ((c : Thread nD τ).loc main_arg3) : S4096x4096.Idx → BitVec 1) (ix2 r j)).setWidth 32 := by
  rw [W5_v44_term, W4_arg3]
  rfl

end Cert.KernelIdeal.Hand

end
-- ==== Proof.KiHost3.lean ====
/-
  The last stretch of host operations read at an index. Each batch's result [4096, 1024] is given a leading unit axis
  and the two are stacked along it, so entry (n, r, f) of the program's result is batch n's entry (r, f). The first
  batch's result, written by the second region, is not touched by the third stretch or the third region.
-/
import proofs.«142760_j50912542327462_2_alg».proof.Proof.KiFold
import proofs.«142760_j50912542327462_2_alg».proof.Proof.Spec2
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

/-- The last stretch's result as one term over the two batches' results. -/
theorem W7_v48_term : (W7 m ρ c (Proc.devRef .tc main_v48) : S2x4096x1024.Idx → EReal)
    = concatenate S2x4096x1024 0
        [⟨S1x4096x1024, broadcastInDim S1x4096x1024 ![1, 2] bcast_S4096x1024_S1x4096x1024_1_2
            (W6 m ρ c (Proc.devRef .tc main_v37) : S4096x1024.Idx → EReal)⟩,
         ⟨S1x4096x1024, broadcastInDim S1x4096x1024 ![1, 2] bcast_S4096x1024_S1x4096x1024_1_2
            (W6 m ρ c (Proc.devRef .tc main_v45) : S4096x1024.Idx → EReal)⟩]
        concatenates_S1x4096x1024_S1x4096x1024_S2x4096x1024_d0 := by
  dsimp only [W7, hostOps3]
  after_results

/-- A [4096, 1024] array given a leading unit axis reads, at (0, r, f), its entry (r, f). -/
theorem bcast_unit_apply (a : S4096x1024.Idx → EReal) (r : Fin 4096) (f : Fin 1024) :
    broadcastInDim S1x4096x1024 ![1, 2] bcast_S4096x1024_S1x4096x1024_1_2 a (ix3 (0 : Fin 1) r f) = a (ix2 r f) :=
  broadcastInDim_apply _ bcast_S4096x1024_S1x4096x1024_1_2 a _ _ fun d => match d with
    | ⟨0, _⟩ => by show r.val = if (4096 : Nat) = 1 then 0 else r.val; rw [if_neg (by decide)]
    | ⟨1, _⟩ => by show f.val = if (1024 : Nat) = 1 then 0 else f.val; rw [if_neg (by decide)]

/-- Two [1, 4096, 1024] arrays stacked along the leading axis: entry (n, r, f) is piece n's entry (0, r, f). -/
theorem concat2_apply (a b : S1x4096x1024.Idx → EReal) (n : Fin 2) (r : Fin 4096) (f : Fin 1024) :
    concatenate S2x4096x1024 0 [⟨S1x4096x1024, a⟩, ⟨S1x4096x1024, b⟩]
        concatenates_S1x4096x1024_S1x4096x1024_S2x4096x1024_d0 (ix3 n r f)
      = if n = 0 then a (ix3 (0 : Fin 1) r f) else b (ix3 (0 : Fin 1) r f) := by
  by_cases hn : n = 0
  · subst hn
    rw [if_pos rfl]
    exact concatenate_apply_piece (0 : Fin S2x4096x1024.rank) [⟨S1x4096x1024, a⟩, ⟨S1x4096x1024, b⟩] concatenates_S1x4096x1024_S1x4096x1024_S2x4096x1024_d0
      (ix3 (0 : Fin 2) r f) 0 (by show 0 < 2; omega) S1x4096x1024 a rfl rfl 0 rfl (ix3 (0 : Fin 1) r f)
      (fun d => match d with
        | ⟨0, _⟩ => fun h => absurd rfl h
        | ⟨1, _⟩ => fun _ => rfl
        | ⟨2, _⟩ => fun _ => rfl) rfl
  · have h1 : n = 1 := by omega
    subst h1
    rw [if_neg hn]
    exact concatenate_apply_piece (0 : Fin S2x4096x1024.rank) [⟨S1x4096x1024, a⟩, ⟨S1x4096x1024, b⟩] concatenates_S1x4096x1024_S1x4096x1024_S2x4096x1024_d0
      (ix3 (1 : Fin 2) r f) 1 (by show 1 < 2; omega) S1x4096x1024 b rfl rfl 1 rfl (ix3 (0 : Fin 1) r f)
      (fun d => match d with
        | ⟨0, _⟩ => fun h => absurd rfl h
        | ⟨1, _⟩ => fun _ => rfl
        | ⟨2, _⟩ => fun _ => rfl) rfl

/-- Region 1's result is still in place when region 2 exits: no later operation or region writes it. -/
theorem W6_v37 : W6 m ρ c (Proc.devRef .tc main_v37) = W4 m ρ c (Proc.devRef .tc main_v37) :=
  (W6_of_ne m ρ c main_v37 (by decide)).trans
    (StableHlo.after_of_writes_sub hostOps2 _ hostOps2_writes (by decide))

/-- The program's result at (n, r, f): batch n's result at (r, f). -/
theorem W7_v48 (n : Fin 2) (r : Fin 4096) (f : Fin 1024) :
    (W7 m ρ c (Proc.devRef .tc main_v48) : S2x4096x1024.Idx → EReal) (ix3 n r f)
      = if n = 0 then (W4 m ρ c (Proc.devRef .tc main_v37) : S4096x1024.Idx → EReal) (ix2 r f)
        else (W6 m ρ c (Proc.devRef .tc main_v45) : S4096x1024.Idx → EReal) (ix2 r f) := by
  rw [W7_v48_term, concat2_apply, bcast_unit_apply, bcast_unit_apply, W6_v37]

end Cert.KernelIdeal.Hand

end
-- ==== Proof.KiValue.lean ====
/-
  The program's result as a function of its ten arguments: the first arrangement of attention.

  Entry (n, r, f) of the result is batch n's attention output at (r, f). Each batch is one region's result array: one
  batch of attention on the rows n·4096 … n·4096 + 4095 of the three stacks of region 0's result array, with the mask
  widened to 32-bit words. Region 0's result array, stack p, is the p-th linear projection (activations, weights and
  biases stacked by the first host stretch, the weights transposed there). So the operands of batch n are batch n of
  the projected q, k, v, and the congruence of one batch of attention with an output entry of the first arrangement
  gives the result.
-/
import proofs.«142760_j50912542327462_2_alg».proof.Proof.KiFold
import proofs.«142760_j50912542327462_2_alg».proof.Proof.Spec2
import proofs.«142760_j50912542327462_2_alg».proof.Proof.AttnCongr
import proofs.«142760_j50912542327462_2_alg».proof.Proof.KiArr0
import proofs.«142760_j50912542327462_2_alg».proof.Proof.KiArr1
import proofs.«142760_j50912542327462_2_alg».proof.Proof.KiArr2
import proofs.«142760_j50912542327462_2_alg».proof.Proof.KiHost0
import proofs.«142760_j50912542327462_2_alg».proof.Proof.KiHost1
import proofs.«142760_j50912542327462_2_alg».proof.Proof.KiHost2
import proofs.«142760_j50912542327462_2_alg».proof.Proof.KiHost3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

/-- Region 0's result array, stack p, row n·4096 + s, feature f, is the projection of the p-th activation by the p-th
    weights and bias: the stacked operands are the arguments selected by p, the stacked weights read transposed. -/
theorem proj (p : Fin 3) (n : Fin 2) (s : Fin 4096) (f : Fin 1024) :
    (W2 m ρ c (Proc.devRef .tc main_v20) : S3x8192x1024.Idx → EReal) (ix3 p ⟨n.val * 4096 + s.val, by omega⟩ f)
      = Cert.Attn.lin
          (Cert.Attn.pick3 p (m ((c : Thread nD τ).loc main_arg0)) (m ((c : Thread nD τ).loc main_arg1)) (m ((c : Thread nD τ).loc main_arg2)))
          (Cert.Attn.pick3 p (m ((c : Thread nD τ).loc main_arg4)) (m ((c : Thread nD τ).loc main_arg6)) (m ((c : Thread nD τ).loc main_arg8)))
          (Cert.Attn.pick3 p (m ((c : Thread nD τ).loc main_arg5)) (m ((c : Thread nD τ).loc main_arg7)) (m ((c : Thread nD τ).loc main_arg9)))
          n s f := by
  have h : (W2 m ρ c (Proc.devRef .tc main_v20) : S3x8192x1024.Idx → EReal) = (dat0 (V1 m ρ) c).arrAt 3 cfg0.N :=
    W2_arr m ρ c 3
  rw [h, arrAt0_apply]
  unfold Cert.Attn.linAll Cert.Attn.lin
  exact congrArg₂ (· + ·)
    (Finset.sum_congr rfl fun e _ => congrArg₂ (· * ·) (W1_v6 m ρ c p n s e) (W1_v14 m ρ c p e f))
    (W1_v19 m ρ c p f)

/-- The projected q, k, v of batch n: stacks 0, 1, 2 of region 0's result array. -/
theorem proj_q (n : Fin 2) (s : Fin 4096) (f : Fin 1024) :
    (W2 m ρ c (Proc.devRef .tc main_v20) : S3x8192x1024.Idx → EReal) (ix3 (0 : Fin 3) ⟨n.val * 4096 + s.val, by omega⟩ f)
      = Cert.Attn.lin (m ((c : Thread nD τ).loc main_arg0)) (m ((c : Thread nD τ).loc main_arg4)) (m ((c : Thread nD τ).loc main_arg5)) n s f := proj m ρ c 0 n s f
theorem proj_k (n : Fin 2) (s : Fin 4096) (f : Fin 1024) :
    (W2 m ρ c (Proc.devRef .tc main_v20) : S3x8192x1024.Idx → EReal) (ix3 (1 : Fin 3) ⟨n.val * 4096 + s.val, by omega⟩ f)
      = Cert.Attn.lin (m ((c : Thread nD τ).loc main_arg1)) (m ((c : Thread nD τ).loc main_arg6)) (m ((c : Thread nD τ).loc main_arg7)) n s f := proj m ρ c 1 n s f
theorem proj_v (n : Fin 2) (s : Fin 4096) (f : Fin 1024) :
    (W2 m ρ c (Proc.devRef .tc main_v20) : S3x8192x1024.Idx → EReal) (ix3 (2 : Fin 3) ⟨n.val * 4096 + s.val, by omega⟩ f)
      = Cert.Attn.lin (m ((c : Thread nD τ).loc main_arg2)) (m ((c : Thread nD τ).loc main_arg8)) (m ((c : Thread nD τ).loc main_arg9)) n s f := proj m ρ c 2 n s f

/-- Row s of batch 0 is row s of the 8192 stacked rows; row s of batch 1 is row 4096 + s. -/
theorem row0 (s : Fin 4096) : (⟨s.val, by omega⟩ : Fin 8192) = ⟨(0 : Fin 2).val * 4096 + s.val, by simp; omega⟩ :=
  Fin.ext (by simp)
theorem row1 (s : Fin 4096) : (⟨4096 + s.val, by omega⟩ : Fin 8192) = ⟨(1 : Fin 2).val * 4096 + s.val, by simp; omega⟩ :=
  Fin.ext (by simp)

/-- The returned array is the first arrangement of attention on the ten arguments. -/
theorem W7_v48_eq_attnK : (W7 (F := Ideal) m ρ c (Proc.devRef .tc main_v48) : S2x4096x1024.Idx → EReal)
    = Cert.Attn.attnK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨n, r, f, rfl⟩ : ∃ n r f, i = ix3 n r f := ⟨i 0, i 1, i 2, eq_ix3 i⟩
  rw [W7_v48]
  show _ = Cert.Attn.outK (Cert.Attn.lin (m ((c : Thread nD τ).loc main_arg0)) (m ((c : Thread nD τ).loc main_arg4)) (m ((c : Thread nD τ).loc main_arg5))) (Cert.Attn.lin (m ((c : Thread nD τ).loc main_arg1)) (m ((c : Thread nD τ).loc main_arg6)) (m ((c : Thread nD τ).loc main_arg7)))
    (Cert.Attn.lin (m ((c : Thread nD τ).loc main_arg2)) (m ((c : Thread nD τ).loc main_arg8)) (m ((c : Thread nD τ).loc main_arg9))) (m ((c : Thread nD τ).loc main_arg3)) n r f
  by_cases hn : n = 0
  · subst hn
    rw [if_pos rfl]
    have h : (W4 m ρ c (Proc.devRef .tc main_v37) : S4096x1024.Idx → EReal) = (dat1 (V3 m ρ) c).arrAt 4 cfg1.N :=
      W4_arr m ρ c 4
    rw [h, arrAt1_apply]
    refine Cert.Attn.attnOne_eq_outK _ _ _ _ _ _ _ _ 0 ?_ ?_ ?_ ?_ r f
    · intro s e; refine (W3_v31 m ρ c s e).trans ?_; rw [row0]; exact proj_q m ρ c 0 s e
    · intro s e; refine (W3_v33 m ρ c s e).trans ?_; rw [row0]; exact proj_k m ρ c 0 s e
    · intro s e; refine (W3_v35 m ρ c s e).trans ?_; rw [row0]; exact proj_v m ρ c 0 s e
    · exact W3_v36 m ρ c
  · have hn1 : n = 1 := by omega
    subst hn1
    rw [if_neg (by decide)]
    have h : (W6 m ρ c (Proc.devRef .tc main_v45) : S4096x1024.Idx → EReal) = (dat2 (V5 m ρ) c).arrAt 4 cfg2.N :=
      W6_arr m ρ c 4
    rw [h, arrAt2_apply]
    refine Cert.Attn.attnOne_eq_outK _ _ _ _ _ _ _ _ 1 ?_ ?_ ?_ ?_ r f
    · intro s e; refine (W5_v39 m ρ c s e).trans ?_; rw [row1]; exact proj_q m ρ c 1 s e
    · intro s e; refine (W5_v41 m ρ c s e).trans ?_; rw [row1]; exact proj_k m ρ c 1 s e
    · intro s e; refine (W5_v43 m ρ c s e).trans ?_; rw [row1]; exact proj_v m ρ c 1 s e
    · exact W5_v44 m ρ c

end Cert.KernelIdeal.Hand

end
-- ==== Proof.RefValue.lean ====
/-
  The reference's result as a function of its arguments: its generated run, read one operation at a time.
-/
import proofs.«142760_j50912542327462_2_alg».proof.Proof.Gen.ReferenceIdeal.Run
import proofs.«142760_j50912542327462_2_alg».proof.Proof.Gen.ReferenceIdeal.Read
import proofs.«142760_j50912542327462_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-- A projection (contraction with the weight's rows, plus the bias) read at (n, s, f): the query's. -/
theorem val_main_v3_eq_lin (x0 : (⟨S2x4096x1024, .f32⟩ : BufTy).Contents (Elt Ideal)) (x4 : (⟨S1024x1024, .f32⟩ : BufTy).Contents (Elt Ideal))
    (x5 : (⟨S1024, .f32⟩ : BufTy).Contents (Elt Ideal)) (n : Fin 2) (s : Fin 4096) (f : Fin 1024) :
    val_main_v3 (F := Ideal) x0 x4 x5 (ix3 n s f) = Cert.Attn.lin x0 x4 x5 n s f := by
  rw [val_main_v3_apply, val_main_v0_apply, val_main_v2_apply, val_main_v1_apply]
  unfold Cert.Attn.lin
  have hl : ∀ k : Fin 1024, lidx_main_v0 (ix3 n s f) k = ix3 n s k := fun k => funext fun a => Fin.ext (by
    match a with | ⟨0, _⟩ => rfl | ⟨1, _⟩ => rfl | ⟨2, _⟩ => rfl)
  have hr : ∀ k : Fin 1024, ridx_main_v0 (ix3 n s f) k = ix2 f k := fun k => funext fun a => Fin.ext (by
    match a with | ⟨0, _⟩ => rfl | ⟨1, _⟩ => rfl)
  have hb : idx_main_v1 (idx_main_v2 (ix3 n s f)) = ix1 f := funext fun a => Fin.ext (by
    match a with | ⟨0, _⟩ => rfl)
  rw [hb]
  simp only [hl, hr]
  rfl

/-- The key's projection read at (n, s, f). -/
theorem val_main_v7_eq_lin (x1 : (⟨S2x4096x1024, .f32⟩ : BufTy).Contents (Elt Ideal)) (x6 : (⟨S1024x1024, .f32⟩ : BufTy).Contents (Elt Ideal))
    (x7 : (⟨S1024, .f32⟩ : BufTy).Contents (Elt Ideal)) (n : Fin 2) (s : Fin 4096) (f : Fin 1024) :
    val_main_v7 (F := Ideal) x1 x6 x7 (ix3 n s f) = Cert.Attn.lin x1 x6 x7 n s f := by
  rw [val_main_v7_apply, val_main_v4_apply, val_main_v6_apply, val_main_v5_apply]
  unfold Cert.Attn.lin
  have hl : ∀ k : Fin 1024, lidx_main_v4 (ix3 n s f) k = ix3 n s k := fun k => funext fun a => Fin.ext (by
    match a with | ⟨0, _⟩ => rfl | ⟨1, _⟩ => rfl | ⟨2, _⟩ => rfl)
  have hr : ∀ k : Fin 1024, ridx_main_v4 (ix3 n s f) k = ix2 f k := fun k => funext fun a => Fin.ext (by
    match a with | ⟨0, _⟩ => rfl | ⟨1, _⟩ => rfl)
  have hb : idx_main_v5 (idx_main_v6 (ix3 n s f)) = ix1 f := funext fun a => Fin.ext (by
    match a with | ⟨0, _⟩ => rfl)
  rw [hb]
  simp only [hl, hr]
  rfl

/-- The value's projection read at (n, s, f). -/
theorem val_main_v11_eq_lin (x2 : (⟨S2x4096x1024, .f32⟩ : BufTy).Contents (Elt Ideal)) (x8 : (⟨S1024x1024, .f32⟩ : BufTy).Contents (Elt Ideal))
    (x9 : (⟨S1024, .f32⟩ : BufTy).Contents (Elt Ideal)) (n : Fin 2) (s : Fin 4096) (f : Fin 1024) :
    val_main_v11 (F := Ideal) x2 x8 x9 (ix3 n s f) = Cert.Attn.lin x2 x8 x9 n s f := by
  rw [val_main_v11_apply, val_main_v8_apply, val_main_v10_apply, val_main_v9_apply]
  unfold Cert.Attn.lin
  have hl : ∀ k : Fin 1024, lidx_main_v8 (ix3 n s f) k = ix3 n s k := fun k => funext fun a => Fin.ext (by
    match a with | ⟨0, _⟩ => rfl | ⟨1, _⟩ => rfl | ⟨2, _⟩ => rfl)
  have hr : ∀ k : Fin 1024, ridx_main_v8 (ix3 n s f) k = ix2 f k := fun k => funext fun a => Fin.ext (by
    match a with | ⟨0, _⟩ => rfl | ⟨1, _⟩ => rfl)
  have hb : idx_main_v9 (idx_main_v10 (ix3 n s f)) = ix1 f := funext fun a => Fin.ext (by
    match a with | ⟨0, _⟩ => rfl)
  rw [hb]
  simp only [hl, hr]
  rfl

/-- The masked, root-divided score at (n, r, j). -/
theorem val_main_v16_eq_scoreR (x0 x1 : (⟨S2x4096x1024, .f32⟩ : BufTy).Contents (Elt Ideal)) (x3 : (⟨S4096x4096, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (n : Fin 2) (r j : Fin 4096) :
    val_main_v16 (F := Ideal) x0 x1 x3 x4 x5 x6 x7 (ix3 n r j)
      = Cert.Attn.scoreR (Cert.Attn.lin x0 x4 x5) (Cert.Attn.lin x1 x6 x7) x3 n r j := by
  rw [val_main_v16_apply, val_main_call0_v0_apply, val_main_call0_v1_apply, val_main_v15_apply, val_main_v12_apply,
    val_main_v14_apply]
  have hm : idx_main_call0_v0 (ix3 n r j) = ix2 r j := funext fun a => Fin.ext (by
    match a with | ⟨0, _⟩ => rfl | ⟨1, _⟩ => rfl)
  have hl : ∀ k : Fin 1024, lidx_main_v12 (ix3 n r j) k = ix3 n r k := fun k => funext fun a => Fin.ext (by
    match a with | ⟨0, _⟩ => rfl | ⟨1, _⟩ => rfl | ⟨2, _⟩ => rfl)
  have hr : ∀ k : Fin 1024, ridx_main_v12 (ix3 n r j) k = ix3 n j k := fun k => funext fun a => Fin.ext (by
    match a with | ⟨0, _⟩ => rfl | ⟨1, _⟩ => rfl | ⟨2, _⟩ => rfl)
  rw [hm]
  simp only [hl, hr, val_main_v3_eq_lin, val_main_v7_eq_lin]
  unfold Cert.Attn.scoreR
  rfl

/-- The witness that dropping the last axis of [2, 4096, 4096] leaves [2, 4096]. -/
theorem reduces_d2 : S2x4096x4096.Reduces [2] S2x4096 := by decide

/-- The reduced index (n, r) with column k put back is (n, r, k). -/
theorem lift_d2 (n : Fin 2) (r : Fin 4096) (k : Fin (S2x4096x4096.size 2)) :
    reduces_d2.lift (ix2 n r) k = ix3 n r (⟨k.val, k.isLt⟩ : Fin 4096) := by
  funext c; apply Fin.ext
  match c with | ⟨0, _⟩ => rfl | ⟨1, _⟩ => rfl | ⟨2, _⟩ => rfl

/-- The row maximum at (n, r): the scores of the row folded with max from −∞. -/
theorem val_main_v19_eq_rowMax (x0 x1 : (⟨S2x4096x1024, .f32⟩ : BufTy).Contents (Elt Ideal)) (x3 : (⟨S4096x4096, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (n : Fin 2) (r : Fin 4096) :
    val_main_v19 (F := Ideal) x0 x1 x3 x4 x5 x6 x7 (ix2 n r)
      = Cert.Attn.rowMax (Cert.Attn.scoreR (Cert.Attn.lin x0 x4 x5) (Cert.Attn.lin x1 x6 x7) x3 n r) := by
  rw [val_main_v19_apply]
  unfold val_main_v17
  rw [Host.reduce_eq_fold_single FloatOps.maximumf _ _ reducesTo_S2x4096x4096_S2x4096_d2 reduces_d2 h_S_]
  have hbot : Ideal.ofBits .f32 0xFF800000#32 = (⊥ : EReal) := by simp [Ideal.ofBits, Ideal.ieee]
  have hf : (val_main_v16 (F := Ideal) x0 x1 x3 x4 x5 x6 x7 ∘ reduces_d2.lift (ix2 n r))
      = Cert.Attn.scoreR (Cert.Attn.lin x0 x4 x5) (Cert.Attn.lin x1 x6 x7) x3 n r := funext fun k => by
    show val_main_v16 (F := Ideal) x0 x1 x3 x4 x5 x6 x7 (reduces_d2.lift (ix2 n r) k) = _
    rw [lift_d2, val_main_v16_eq_scoreR]
    rfl
  rw [hf]
  show max (Ideal.ofBits .f32 0xFF800000#32) ((Finset.univ : Finset (Fin 4096)).fold max (Ideal.ofBits .f32 0xFF800000#32) _) = _
  rw [hbot]
  exact max_eq_right bot_le

/-- The unnormalised weight at (n, r, j): the exponential of the score less the row maximum. -/
theorem val_main_v23_eq_pexp (x0 x1 : (⟨S2x4096x1024, .f32⟩ : BufTy).Contents (Elt Ideal)) (x3 : (⟨S4096x4096, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (n : Fin 2) (r j : Fin 4096) :
    val_main_v23 (F := Ideal) x0 x1 x3 x4 x5 x6 x7 (ix3 n r j)
      = Cert.Attn.pexp (Cert.Attn.scoreR (Cert.Attn.lin x0 x4 x5) (Cert.Attn.lin x1 x6 x7) x3 n r) j := by
  rw [val_main_v23_apply, val_main_v22_apply, val_main_v21_apply, val_main_v20_apply]
  have hi : idx_main_v20 (idx_main_v21 (ix3 n r j)) = ix2 n r := funext fun a => Fin.ext (by
    match a with | ⟨0, _⟩ => rfl | ⟨1, _⟩ => rfl)
  rw [hi, val_main_v19_eq_rowMax, val_main_v16_eq_scoreR]
  unfold Cert.Attn.pexp
  rfl

/-- The normaliser at (n, r): the row's unnormalised weights summed. -/
theorem val_main_v24_eq_rowSum (x0 x1 : (⟨S2x4096x1024, .f32⟩ : BufTy).Contents (Elt Ideal)) (x3 : (⟨S4096x4096, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (n : Fin 2) (r : Fin 4096) :
    val_main_v24 (F := Ideal) x0 x1 x3 x4 x5 x6 x7 (ix2 n r)
      = Cert.Attn.rowSum (Cert.Attn.scoreR (Cert.Attn.lin x0 x4 x5) (Cert.Attn.lin x1 x6 x7) x3 n r) := by
  rw [val_main_v24_apply, val_main_cst_3_apply]
  have hi : ∀ k : Fin 4096, idx_main_v24 (ix2 n r) k = ix3 n r k := fun k => funext fun a => Fin.ext (by
    match a with | ⟨0, _⟩ => rfl | ⟨1, _⟩ => rfl | ⟨2, _⟩ => rfl)
  simp only [hi, val_main_v23_eq_pexp]
  unfold Cert.Attn.rowSum
  show Ideal.ofBits .f32 0x00000000#32 + _ = _
  rw [Ideal.ofBits_zero_f32, zero_add]

/-- The normalised weight at (n, r, j). -/
theorem val_main_v27_eq (x0 x1 : (⟨S2x4096x1024, .f32⟩ : BufTy).Contents (Elt Ideal)) (x3 : (⟨S4096x4096, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (n : Fin 2) (r j : Fin 4096) :
    val_main_v27 (F := Ideal) x0 x1 x3 x4 x5 x6 x7 (ix3 n r j)
      = Ideal.div (Cert.Attn.pexp (Cert.Attn.scoreR (Cert.Attn.lin x0 x4 x5) (Cert.Attn.lin x1 x6 x7) x3 n r) j) (Cert.Attn.rowSum (Cert.Attn.scoreR (Cert.Attn.lin x0 x4 x5) (Cert.Attn.lin x1 x6 x7) x3 n r)) := by
  rw [val_main_v27_apply, val_main_v26_apply, val_main_v25_apply]
  have hi : idx_main_v25 (idx_main_v26 (ix3 n r j)) = ix2 n r := funext fun a => Fin.ext (by
    match a with | ⟨0, _⟩ => rfl | ⟨1, _⟩ => rfl)
  rw [hi, val_main_v24_eq_rowSum, val_main_v23_eq_pexp]
  rfl

/-- The reference's result is the attention of its arguments in the second arrangement: each weight divided by the
    row's normaliser, then summed against the projected values. -/
theorem val_main_v28_eq_attnR (x0 x1 x2 : (⟨S2x4096x1024, .f32⟩ : BufTy).Contents (Elt Ideal)) (x3 : (⟨S4096x4096, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal)) :
    Cert.ReferenceIdeal.Read.val_main_v28 (F := Ideal) x0 x1 x2 x3 x4 x5 x6 x7 x8 x9 = Cert.Attn.attnR x0 x1 x2 x3 x4 x5 x6 x7 x8 x9 := by
  funext i
  obtain ⟨n, r, f, rfl⟩ : ∃ (n : Fin 2) (r : Fin 4096) (f : Fin 1024), i = ix3 n r f := ⟨i 0, i 1, i 2, eq_ix3 i⟩
  rw [val_main_v28_apply]
  have hl : ∀ k : Fin 4096, lidx_main_v28 (ix3 n r f) k = ix3 n r k := fun k => funext fun a => Fin.ext (by
    match a with | ⟨0, _⟩ => rfl | ⟨1, _⟩ => rfl | ⟨2, _⟩ => rfl)
  have hr : ∀ k : Fin 4096, ridx_main_v28 (ix3 n r f) k = ix3 n k f := fun k => funext fun a => Fin.ext (by
    match a with | ⟨0, _⟩ => rfl | ⟨1, _⟩ => rfl | ⟨2, _⟩ => rfl)
  simp only [hl, hr, val_main_v27_eq, val_main_v11_eq_lin]
  rfl

end Cert.ReferenceIdeal.RefValue

end
-- ==== Proof.AttnLaw1.lean ====
/-
  Scaled dot-product attention on the extended reals: the constants and the score rows.

  * The three float words of the specification denote real numbers: the scale is 1/32, the root is 32 (the square
    root of 1024), the fill is a real number.
  * On the extended reals, multiplication by a non-negative finite factor distributes over a finite sum, whatever
    the terms are (no finiteness of the terms is needed).
  * Hence a score row with q scaled by 1/32 before the contraction equals the row with the contraction divided by 32
    afterwards, for arbitrary q and k.
  * A finite sum of real numbers is a real number; with finite inputs every projected activation is a real number,
    and then every score is a real number.
-/
import proofs.«142760_j50912542327462_2_alg».proof.Proof.Spec

noncomputable section

open scoped BigOperators

namespace Cert.Attn

open Idealize.ShloMosaic Idealize.ShloMosaic.ValueIdx

/-- The bf16 word `0x3D00` denotes `1/32`. -/
theorem scale_eq : scale = ((1 / 32 : ℝ) : EReal) := by
  simp [scale, Ideal.ofBits, Ideal.ieee, -EReal.coe_mul]; norm_num

/-- The f32 word `0x44800000` denotes `1024`, whose square root is `32`. -/
theorem root_eq : root = ((32 : ℝ) : EReal) := by
  have h : Ideal.ofBits .f32 0x44800000#32 = ((1024 : ℝ) : EReal) := by
    simp [Ideal.ofBits, Ideal.ieee, -EReal.coe_mul]; norm_num
  have h32 : Real.sqrt 1024 = 32 := by
    rw [show (1024 : ℝ) = 32 ^ 2 by norm_num, Real.sqrt_sq (by norm_num)]
  rw [root, h, Ideal.sqrt_coe, if_neg (by norm_num), h32]

/-- The f32 word `0xCE6E6B28` denotes the real number `-10⁹`. -/
theorem fill_eq : fill = ((-1000000000 : ℝ) : EReal) := by
  simp [fill, Ideal.ofBits, Ideal.ieee, -EReal.coe_mul]; norm_num

/-- Multiplication by a non-negative finite factor distributes over a finite sum of extended reals. -/
theorem sum_mul_of_nonneg {ι : Type*} (s : Finset ι) (f : ι → EReal) {c : EReal} (hc : 0 ≤ c) (hc' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- Scaling q by `1/32` before the contraction is dividing the contraction by `32` after it. -/
theorem scoreK_eq_scoreR (q k : Fin 2 → Fin 4096 → Fin 1024 → EReal) (msk : SM.Idx → BitVec 1) :
    scoreK q k msk = scoreR q k msk := by
  funext n r j
  unfold scoreK scoreR
  split_ifs with h
  · rfl
  · rw [root_eq, Ideal.div_coe (by norm_num), scale_eq,
      sum_mul_of_nonneg _ _ (EReal.coe_nonneg.mpr (by norm_num)) (EReal.coe_ne_top _)]
    refine Finset.sum_congr rfl fun e _ => ?_
    rw [mul_right_comm]

/-- An extended real that is neither infinity is (the image of) a real number. -/
theorem exists_real_of_finite {x : EReal} (h : x ≠ ⊥ ∧ x ≠ ⊤) : ∃ r : ℝ, x = (r : EReal) :=
  ⟨x.toReal, (EReal.coe_toReal h.2 h.1).symm⟩

/-- A finite sum of real numbers, taken in the extended reals, is the real sum. -/
theorem sum_coe {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of extended reals each of which is a real number is a real number. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, h1⟩ := h a (Finset.mem_insert_self a s)
    obtain ⟨r2, h2⟩ := ih (fun i hi => h i (Finset.mem_insert_of_mem hi))
    exact ⟨r1 + r2, by rw [Finset.sum_insert ha, h1, h2, EReal.coe_add]⟩

/-- With finite activations, weights and biases every projected activation is a real number. -/
theorem lin_real {x : SX.Idx → EReal} {W : SW.Idx → EReal} {b : SV.Idx → EReal} (hx : IsFinite x) (hW : IsFinite W)
    (hb : IsFinite b) (n : Fin 2) (s : Fin 4096) (f : Fin 1024) : ∃ r : ℝ, lin x W b n s f = (r : EReal) := by
  unfold lin
  obtain ⟨r1, h1⟩ := sum_real Finset.univ (fun e : Fin 1024 => x (ix3 n s e) * W (ix2 f e)) (fun e _ => by
    obtain ⟨a, ha⟩ := exists_real_of_finite (hx (ix3 n s e))
    obtain ⟨c, hc⟩ := exists_real_of_finite (hW (ix2 f e))
    exact ⟨a * c, by rw [ha, hc, EReal.coe_mul]⟩)
  obtain ⟨r2, h2⟩ := exists_real_of_finite (hb (ix1 f))
  exact ⟨r1 + r2, by rw [h1, h2, EReal.coe_add]⟩

/-- With real q and k every score is a real number (the masked ones are the fill, a real number). -/
theorem scoreR_real {q k : Fin 2 → Fin 4096 → Fin 1024 → EReal} (hq : ∀ n s f, ∃ r : ℝ, q n s f = (r : EReal))
    (hk : ∀ n s f, ∃ r : ℝ, k n s f = (r : EReal)) (msk : SM.Idx → BitVec 1) (n : Fin 2) (r : Fin 4096)
    (j : Fin 4096) : ∃ t : ℝ, scoreR q k msk n r j = (t : EReal) := by
  unfold scoreR
  split_ifs with h
  · exact ⟨_, fill_eq⟩
  · obtain ⟨t, ht⟩ := sum_real Finset.univ (fun e : Fin 1024 => q n r e * k n j e) (fun e _ => by
      obtain ⟨a, ha⟩ := hq n r e
      obtain ⟨c, hc⟩ := hk n j e
      exact ⟨a * c, by rw [ha, hc, EReal.coe_mul]⟩)
    exact ⟨t * (1 / 32 : ℝ), by rw [root_eq, Ideal.div_coe (by norm_num), ht, EReal.coe_mul]⟩

end Cert.Attn

end
-- ==== Proof.AttnLaw.lean ====
/-
  Scaled dot-product attention on the extended reals: the two arrangements agree on finite inputs.

  * A row of real scores has a real maximum (the fold of max from −∞ over a nonempty index set of real numbers is
    above some entry and below +∞), so every unnormalised weight exp (s_j − m) is a positive real number and the
    normaliser l, their sum, is a positive real number.
  * Division by the positive real l is multiplication by the non-negative finite factor 1/l, which distributes over
    the weighted sum whatever the values v are; so dividing the weighted sum by l equals dividing each weight by l
    first.
  * Together with the equality of the two score rows this gives the equality of the two arrangements.
-/
import proofs.«142760_j50912542327462_2_alg».proof.Proof.AttnLaw1

noncomputable section

open scoped BigOperators

namespace Cert.Attn

open Idealize.ShloMosaic Idealize.ShloMosaic.ValueIdx

/-- The maximum of a row of real numbers is a real number. -/
theorem rowMax_real {s : Fin 4096 → EReal} (hs : ∀ j, ∃ r : ℝ, s j = (r : EReal)) :
    ∃ m : ℝ, rowMax s = (m : EReal) := by
  refine exists_real_of_finite ⟨?_, ?_⟩
  · apply ne_of_gt
    unfold rowMax
    rw [Finset.lt_fold_max]
    refine Or.inr ⟨0, Finset.mem_univ _, ?_⟩
    obtain ⟨r, hr⟩ := hs 0
    rw [hr]; exact EReal.bot_lt_coe r
  · apply ne_of_lt
    unfold rowMax
    rw [Finset.fold_max_lt]
    refine ⟨bot_lt_top, fun j _ => ?_⟩
    obtain ⟨r, hr⟩ := hs j
    rw [hr]; exact EReal.coe_lt_top r

/-- The normaliser of a row of real numbers is a positive real number. -/
theorem rowSum_pos_real {s : Fin 4096 → EReal} (hs : ∀ j, ∃ r : ℝ, s j = (r : EReal)) :
    ∃ l : ℝ, 0 < l ∧ rowSum s = (l : EReal) := by
  obtain ⟨m, hm⟩ := rowMax_real hs
  choose a ha using hs
  have hp : ∀ j, pexp s j = ((Real.exp (a j - m) : ℝ) : EReal) := fun j => by
    unfold pexp
    rw [hm, ha j, ← EReal.coe_sub, Ideal.exp_coe]
  refine ⟨∑ j : Fin 4096, Real.exp (a j - m), Finset.sum_pos (fun j _ => Real.exp_pos _) Finset.univ_nonempty, ?_⟩
  unfold rowSum
  rw [← sum_coe]
  exact Finset.sum_congr rfl fun j _ => hp j

/-- Dividing the weighted sum by the normaliser equals dividing each weight by it first, for real q and k and
    arbitrary v. -/
theorem outK_eq_outR {q k : Fin 2 → Fin 4096 → Fin 1024 → EReal} (v : Fin 2 → Fin 4096 → Fin 1024 → EReal)
    (hq : ∀ n s f, ∃ r : ℝ, q n s f = (r : EReal)) (hk : ∀ n s f, ∃ r : ℝ, k n s f = (r : EReal))
    (msk : SM.Idx → BitVec 1) (n : Fin 2) (r : Fin 4096) (f : Fin 1024) :
    outK q k v msk n r f = outR q k v msk n r f := by
  unfold outK outR
  rw [scoreK_eq_scoreR]
  obtain ⟨l, hl, hL⟩ := rowSum_pos_real (s := scoreR q k msk n r) (fun j => scoreR_real hq hk msk n r j)
  rw [hL, Ideal.div_coe hl.ne',
    sum_mul_of_nonneg _ _ (EReal.coe_nonneg.mpr (by positivity)) (EReal.coe_ne_top _)]
  refine Finset.sum_congr rfl fun j _ => ?_
  rw [Ideal.div_coe hl.ne', mul_right_comm]

/-- The two arrangements of the attention computation agree on finite inputs. -/
theorem attnK_eq_attnR {query key value : SX.Idx → EReal} {mask : SM.Idx → BitVec 1} {Wq : SW.Idx → EReal} {bq : SV.Idx → EReal}
    {Wk : SW.Idx → EReal} {bk : SV.Idx → EReal} {Wv : SW.Idx → EReal} {bv : SV.Idx → EReal}
    (hx : IsFinite query) (hy : IsFinite key) (hz : IsFinite value) (hWq : IsFinite Wq) (hbq : IsFinite bq)
    (hWk : IsFinite Wk) (hbk : IsFinite bk) (hWv : IsFinite Wv) (hbv : IsFinite bv) :
    attnK query key value mask Wq bq Wk bk Wv bv = attnR query key value mask Wq bq Wk bk Wv bv := by
  funext i
  unfold attnK attnR
  exact outK_eq_outR _ (lin_real hx hWq hbq) (lin_real hy hWk hbk) mask (i 0) (i 1) (i 2)

end Cert.Attn

end
-- ==== Proof.FinitePre.lean ====
/-
  Finiteness read back from the printed precondition.

  The precondition computes, for each of the nine float arguments, the conjunction over all entries of
  "|x| < +∞" (the absolute value compared with the f32 word of +∞, reduced by "and" over every axis from the
  constant 1), and then the conjunction of the nine results. If the whole is 1, every one of the nine conjunctions is
  1, so every entry x satisfies max x (−x) < ⊤ on the extended reals, which excludes x = ⊤ and x = ⊥.
-/
import proofs.«142760_j50912542327462_2_alg».proof.Pre_finite_inputs
import proofs.«142760_j50912542327462_2_alg».proof.Proof.Spec
import Idealize.ShloMosaic.Lib.ReduceAll

noncomputable section

namespace Cert.Attn

open Idealize.ShloMosaic Idealize.ShloMosaic.ValueIdx

/-- The rank-0 shape has a single index. -/
instance : Subsingleton Cert.Pre_finite_inputs.S_.Idx := ⟨fun _ _ => funext fun d => d.elim0⟩

/-- The f32 word `0x7F800000` denotes `+∞`. -/
theorem ofBits_inf : Ideal.ofBits .f32 0x7F800000#32 = ⊤ := by simp [Ideal.ofBits, Ideal.ieee]

/-- An extended real whose absolute value `max x (−x)` is below `+∞` is neither infinity. -/
theorem finite_of_abs_lt_top {x : EReal} (h : max x (-x) < ⊤) : x ≠ ⊥ ∧ x ≠ ⊤ := by
  rw [max_lt_iff] at h
  refine ⟨?_, h.1.ne⟩
  intro hb
  rw [hb, EReal.neg_bot] at h
  exact lt_irrefl _ h.2

/-- One argument: if the "and" over all entries of `|x| < +∞` is 1, every entry of `x` is a real number. -/
theorem finite_of_all {S : Shape} (x : FVec Ideal S .f32)
    (hb : Cert.Pre_finite_inputs.S_.BroadcastsInDim S (![] : Fin 0 → Fin S.rank)) {axes : List (Fin S.rank)}
    (hr : S.ReducesTo axes Cert.Pre_finite_inputs.S_) (hu : 0 < Cert.Pre_finite_inputs.S_.numel)
    (e : Host.reduce IntOp.andi
        (cmpf .olt (Host.absf x) (broadcastInDim S ![] hb (constant (F := Ideal) Cert.Pre_finite_inputs.S_ .f32 0x7F800000#32)))
        (constantI Cert.Pre_finite_inputs.S_ 1 1#1) hr hu ix0 = 1#1) : IsFinite x := by
  intro i
  have hi := Host.reduce_andi_all _ _ hr hu ix0 e i
  change Ideal.cmp .olt (max (x i) (-(x i))) (Ideal.ofBits .f32 0x7F800000#32) = 1#1 at hi
  rw [ofBits_inf] at hi
  unfold Ideal.cmp at hi
  apply finite_of_abs_lt_top
  by_contra hn
  simp [hn] at hi

/-- The printed precondition being 1 makes every float argument finite. -/
theorem finite_of_pre [Cert.Pre_finite_inputs.Facts]
    (x0 x1 x2 : FVec Ideal Cert.Pre_finite_inputs.S2x4096x1024 .f32) (x3 : IVec Cert.Pre_finite_inputs.S4096x4096 1)
    (x4 : FVec Ideal Cert.Pre_finite_inputs.S1024x1024 .f32) (x5 : FVec Ideal Cert.Pre_finite_inputs.S1024 .f32)
    (x6 : FVec Ideal Cert.Pre_finite_inputs.S1024x1024 .f32) (x7 : FVec Ideal Cert.Pre_finite_inputs.S1024 .f32)
    (x8 : FVec Ideal Cert.Pre_finite_inputs.S1024x1024 .f32) (x9 : FVec Ideal Cert.Pre_finite_inputs.S1024 .f32)
    (h : Cert.Pre_finite_inputs.fn (F := Ideal) x0 x1 x2 x3 x4 x5 x6 x7 x8 x9 = fun _ => 1#1) :
    IsFinite x0 ∧ IsFinite x1 ∧ IsFinite x2 ∧ IsFinite x4 ∧ IsFinite x5 ∧ IsFinite x6 ∧ IsFinite x7 ∧ IsFinite x8 ∧ IsFinite x9 := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨e0, e1⟩, e2⟩, e4⟩, e5⟩, e6⟩, e7⟩, e8⟩, e9⟩ := h0
  exact ⟨finite_of_all x0 _ _ _ e0, finite_of_all x1 _ _ _ e1, finite_of_all x2 _ _ _ e2, finite_of_all x4 _ _ _ e4,
    finite_of_all x5 _ _ _ e5, finite_of_all x6 _ _ _ e6, finite_of_all x7 _ _ _ e7, finite_of_all x8 _ _ _ e8,
    finite_of_all x9 _ _ _ e9⟩

end Cert.Attn

end
-- ==== Proof.lean ====
/-
  Scaled dot-product attention with three linear projections: a kernel program of three regions (one launch computing
  the q, k, v projections tile by tile; one launch per batch computing masked softmax(q kᵀ / 32) v on 256-row tiles
  with k and v resident) against a plain host program computing the same with whole-array operations.

  The three frames: each program runs to the end without a fault and leaves its ten argument arrays as launched — for
  the kernel program, at the word level and at the extended reals, by running its seven segments (four stretches of
  host operations around the three regions, each region's body a whole-block load, compute, store); for the host
  program by its run. The idealization rewrote nothing, so nothing is owed for it.

  The results agree on the extended reals: the kernel program's result array is `attnK` of the arguments (the blocks the
  regions write back assemble into the projections and the per-batch attention; the host stretches only re-lay them),
  the host program's is `attnR`, and on finite inputs the two arrangements are one function: scaling q by 2⁻⁵ before
  the contraction is dividing by √1024 after it, and dividing the weighted sum by the row's normaliser — a positive
  real, because the scores are finite and the largest contributes exp 0 = 1 — is dividing each weight first.
-/
import proofs.«142760_j50912542327462_2_alg».proof.Defs
import proofs.«142760_j50912542327462_2_alg».proof.Proof.Gen.Kernel
import proofs.«142760_j50912542327462_2_alg».proof.Proof.Gen.KernelIdeal
import proofs.«142760_j50912542327462_2_alg».proof.Proof.Gen.ReferenceIdeal
import proofs.«142760_j50912542327462_2_alg».proof.Proof.Gen.Pre_finite_inputs
import proofs.«142760_j50912542327462_2_alg».proof.Proof.KRun
import proofs.«142760_j50912542327462_2_alg».proof.Proof.KiRun
import proofs.«142760_j50912542327462_2_alg».proof.Proof.KiValue
import proofs.«142760_j50912542327462_2_alg».proof.Proof.RefValue
import proofs.«142760_j50912542327462_2_alg».proof.Proof.AttnLaw
import proofs.«142760_j50912542327462_2_alg».proof.Proof.FinitePre
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does its reading at the extended reals. -/
theorem frame_ki : Cert.frame_KernelIdeal := fun m ρ _ => Cert.KernelIdeal.Hand.frame (F := Ideal) m ρ

/-- The host program's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end with the same result array: `attnK` of the arguments on the kernel side,
    `attnR` on the host side, one function there. -/
theorem algebraic : Cert.algebraic_KernelIdeal_ReferenceIdeal := by
  intro m ρ m' ρ' hpre hagree
  refine ⟨fun c => Cert.Attn.attnK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Hand.mem_uc Cert.KernelIdeal.main_v48 (by decide))).trans (Cert.KernelIdeal.Hand.W7_v48_eq_attnK m ρ c),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c),
       (h c _ (Cert.KernelIdeal.Hand.mem_uc Cert.KernelIdeal.main_arg4 (by decide))).trans (Cert.KernelIdeal.Hand.W7_main_arg4 m ρ c),
       (h c _ (Cert.KernelIdeal.Hand.mem_uc Cert.KernelIdeal.main_arg5 (by decide))).trans (Cert.KernelIdeal.Hand.W7_main_arg5 m ρ c),
       (h c _ (Cert.KernelIdeal.Hand.mem_uc Cert.KernelIdeal.main_arg6 (by decide))).trans (Cert.KernelIdeal.Hand.W7_main_arg6 m ρ c),
       (h c _ (Cert.KernelIdeal.Hand.mem_uc Cert.KernelIdeal.main_arg7 (by decide))).trans (Cert.KernelIdeal.Hand.W7_main_arg7 m ρ c),
       (h c _ (Cert.KernelIdeal.Hand.mem_uc Cert.KernelIdeal.main_arg8 (by decide))).trans (Cert.KernelIdeal.Hand.W7_main_arg8 m ρ c),
       (h c _ (Cert.KernelIdeal.Hand.mem_uc Cert.KernelIdeal.main_arg9 (by decide))).trans (Cert.KernelIdeal.Hand.W7_main_arg9 m ρ c)⟩)
      (Cert.KernelIdeal.Hand.run_all (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    obtain ⟨f0, f1, f2, f4, f5, f6, f7, f8, f9⟩ := Cert.Attn.finite_of_pre _ _ _ _ _ _ _ _ _ _ (hpre c)
    rw [(h c).1, Cert.ReferenceIdeal.Read.val_main_v28_eq, Cert.ReferenceIdeal.RefValue.val_main_v28_eq_attnR,
      e0, e1, e2, e3, e4, e5, e6, e7, e8, e9]
    exact (Cert.Attn.attnK_eq_attnR f0 f1 f2 f4 f5 f6 f7 f8 f9).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
